-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v43)) (v1 : (c : Dev Cert.KernelIdeal.nD) → Buf (Elt Ideal) ((c.tc : Thread Cert.KernelIdeal.nD Cert.KernelIdeal.τ).loc Cert.KernelIdeal.main_v44)) (v2 : (c : Dev Cert.KernelIdeal.nD) → Buf (Elt Ideal) ((c.tc : Thread Cert.KernelIdeal.nD Cert.KernelIdeal.τ).loc Cert.KernelIdeal.main_v45)) (v3 : (c : Dev Cert.KernelIdeal.nD) → Buf (Elt Ideal) ((c.tc : Thread Cert.KernelIdeal.nD Cert.KernelIdeal.τ).loc Cert.KernelIdeal.main_v42_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_v44) = v1 c
          ∧ r.2.mem ((c.tc : Thread Cert.KernelIdeal.nD Cert.KernelIdeal.τ).loc Cert.KernelIdeal.main_v45) = v2 c
          ∧ r.2.mem ((c.tc : Thread Cert.KernelIdeal.nD Cert.KernelIdeal.τ).loc Cert.KernelIdeal.main_v42_0) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_v111) = v1 c
          ∧ r.2.mem ((c.tc : Thread Cert.ReferenceIdeal.nD Cert.ReferenceIdeal.τ).loc Cert.ReferenceIdeal.main_v112) = v2 c
          ∧ r.2.mem ((c.tc : Thread Cert.ReferenceIdeal.nD Cert.ReferenceIdeal.τ).loc Cert.ReferenceIdeal.main_v92) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S150000x6 : Shape := ⟨2, ![150000, 6]⟩
abbrev S2x2400000 : Shape := ⟨2, ![2, 2400000]⟩
abbrev S6x32 : Shape := ⟨2, ![6, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S16x6 : Shape := ⟨2, ![16, 6]⟩
abbrev S6 : Shape := ⟨1, ![6]⟩
abbrev S_ : Shape := ⟨0, ![]⟩

class Facts : Prop where
  bcast_S_S150000x6 : S_.BroadcastsInDim S150000x6 (![] : Fin 0 → Fin S150000x6.rank)
  reducesTo_S150000x6_S_d0_1 : S150000x6.ReducesTo [0, 1] S_
  h_S_ : 0 < S_.numel
  bcast_S_S6x32 : S_.BroadcastsInDim S6x32 (![] : Fin 0 → Fin S6x32.rank)
  reducesTo_S6x32_S_d0_1 : S6x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_
  bcast_S_S16x6 : S_.BroadcastsInDim S16x6 (![] : Fin 0 → Fin S16x6.rank)
  reducesTo_S16x6_S_d0_1 : S16x6.ReducesTo [0, 1] S_
  bcast_S_S6 : S_.BroadcastsInDim S6 (![] : Fin 0 → Fin S6.rank)
  reducesTo_S6_S_d0 : S6.ReducesTo [0] S_

variable [Facts]

def fn_part3 {F : FTy → Type} [FloatOps F] (main_arg12 : FVec F S16x6 .f32) (main_arg13 : FVec F S6 .f32) (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  let main_v54 : FVec F S16x6 .f32 := Host.absf main_arg12
  let main_cst_20 : FVec F S_ .f32 := constant S_ .f32 0x7F800000#32
  let main_v55 : FVec F S16x6 .f32 := broadcastInDim S16x6 ![] bcast_S_S16x6 main_cst_20
  let main_v56 : IVec S16x6 1 := cmpf .olt main_v54 main_v55
  let main_c_21 : IVec S_ 1 := constantI S_ 1 1#1
  let main_v57 : IVec S_ 1 := (fun x v => Host.reduce IntOp.andi x v reducesTo_S16x6_S_d0_1 h_S_) main_v56 main_c_21
  let main_v58 : IVec S_ 1 := andi main_v53 main_v57
  let main_v59 : FVec F S6 .f32 := Host.absf main_arg13
  let main_cst_22 : FVec F S_ .f32 := constant S_ .f32 0x7F800000#32
  let main_v60 : FVec F S6 .f32 := broadcastInDim S6 ![] bcast_S_S6 main_cst_22
  let main_v61 : IVec S6 1 := cmpf .olt main_v59 main_v60
  let main_c_23 : IVec S_ 1 := constantI S_ 1 1#1
  let main_v62 : IVec S_ 1 := (fun x v => Host.reduce IntOp.andi x v reducesTo_S6_S_d0 h_S_) main_v61 main_c_23
  let main_v63 : IVec S_ 1 := andi main_v58 main_v62
  main_v63

def fn_part2 {F : FTy → Type} [FloatOps F] (main_arg8 : FVec F S16x1 .f32) (main_arg9 : FVec F S1 .f32) (main_arg10 : FVec F S32x16 .f32) (main_arg11 : FVec F S16 .f32) (main_arg12 : FVec F S16x6 .f32) (main_arg13 : FVec F S6 .f32) (main_v33 : IVec S_ 1) : IVec S_ 1 :=
  let main_v34 : FVec F S16x1 .f32 := Host.absf main_arg8
  let main_cst_12 : FVec F S_ .f32 := constant S_ .f32 0x7F800000#32
  let main_v35 : FVec F S16x1 .f32 := broadcastInDim S16x1 ![] bcast_S_S16x1 main_cst_12
  let main_v36 : IVec S16x1 1 := cmpf .olt main_v34 main_v35
  let main_c_13 : IVec S_ 1 := constantI S_ 1 1#1
  let main_v37 : IVec S_ 1 := (fun x v => Host.reduce IntOp.andi x v reducesTo_S16x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S32x16 .f32 := Host.absf main_arg10
  let main_cst_16 : FVec F S_ .f32 := constant S_ .f32 0x7F800000#32
  let main_v45 : FVec F S32x16 .f32 := broadcastInDim S32x16 ![] bcast_S_S32x16 main_cst_16
  let main_v46 : IVec S32x16 1 := cmpf .olt main_v44 main_v45
  let main_c_17 : IVec S_ 1 := constantI S_ 1 1#1
  let main_v47 : IVec S_ 1 := (fun x v => Host.reduce IntOp.andi x v reducesTo_S32x16_S_d0_1 h_S_) main_v46 main_c_17
  let main_v48 : IVec S_ 1 := andi main_v43 main_v47
  let main_v49 : FVec F S16 .f32 := Host.absf main_arg11
  let main_cst_18 : FVec F S_ .f32 := constant S_ .f32 0x7F800000#32
  let main_v50 : FVec F S16 .f32 := broadcastInDim S16 ![] bcast_S_S16 main_cst_18
  fn_part3 (F := F) main_arg12 main_arg13 main_v48 main_v49 main_v50

def fn_part1 {F : FTy → Type} [FloatOps F] (main_arg5 : FVec F S32 .f32) (main_arg6 : FVec F S32x16 .f32) (main_arg7 : FVec F S16 .f32) (main_arg8 : FVec F S16x1 .f32) (main_arg9 : FVec F S1 .f32) (main_arg10 : FVec F S32x16 .f32) (main_arg11 : FVec F S16 .f32) (main_arg12 : FVec F S16x6 .f32) (main_arg13 : FVec F S6 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x16 .f32 := Host.absf main_arg6
  let main_cst_8 : FVec F S_ .f32 := constant S_ .f32 0x7F800000#32
  let main_v25 : FVec F S32x16 .f32 := broadcastInDim S32x16 ![] bcast_S_S32x16 main_cst_8
  let main_v26 : IVec S32x16 1 := cmpf .olt main_v24 main_v25
  let main_c_9 : IVec S_ 1 := constantI S_ 1 1#1
  let main_v27 : IVec S_ 1 := (fun x v => Host.reduce IntOp.andi x v reducesTo_S32x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S150000x6 .f32) (main_arg1 : IVec S2x2400000 32) (main_arg2 : FVec F S6x32 .f32) (main_arg3 : FVec F S32 .f32) (main_arg4 : FVec F S32x32 .f32) (main_arg5 : FVec F S32 .f32) (main_arg6 : FVec F S32x16 .f32) (main_arg7 : FVec F S16 .f32) (main_arg8 : FVec F S16x1 .f32) (main_arg9 : FVec F S1 .f32) (main_arg10 : FVec F S32x16 .f32) (main_arg11 : FVec F S16 .f32) (main_arg12 : FVec F S16x6 .f32) (main_arg13 : FVec F S6 .f32) : IVec S_ 1 :=
  let main_v0 : FVec F S150000x6 .f32 := Host.absf main_arg0
  let main_cst : FVec F S_ .f32 := constant S_ .f32 0x7F800000#32
  let main_v1 : FVec F S150000x6 .f32 := broadcastInDim S150000x6 ![] bcast_S_S150000x6 main_cst
  let main_v2 : IVec S150000x6 1 := cmpf .olt main_v0 main_v1
  let main_c : IVec S_ 1 := constantI S_ 1 1#1
  let main_v3 : IVec S_ 1 := (fun x v => Host.reduce IntOp.andi x v reducesTo_S150000x6_S_d0_1 h_S_) main_v2 main_c
  let main_v4 : FVec F S6x32 .f32 := Host.absf main_arg2
  let main_cst_0 : FVec F S_ .f32 := constant S_ .f32 0x7F800000#32
  let main_v5 : FVec F S6x32 .f32 := broadcastInDim S6x32 ![] bcast_S_S6x32 main_cst_0
  let main_v6 : IVec S6x32 1 := cmpf .olt main_v4 main_v5
  let main_c_1 : IVec S_ 1 := constantI S_ 1 1#1
  let main_v7 : IVec S_ 1 := (fun x v => Host.reduce IntOp.andi x v reducesTo_S6x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg4
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg5 main_arg6 main_arg7 main_arg8 main_arg9 main_arg10 main_arg11 main_arg12 main_arg13 main_v13 main_v16
-- ==== Kernel.lean ====
abbrev S150000x6 : Shape := ⟨2, ![150000, 6]⟩
abbrev S2x2400000 : Shape := ⟨2, ![2, 2400000]⟩
abbrev S6x32 : Shape := ⟨2, ![6, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S16x6 : Shape := ⟨2, ![16, 6]⟩
abbrev S6 : Shape := ⟨1, ![6]⟩
abbrev S1x2400000 : Shape := ⟨2, ![1, 2400000]⟩
abbrev S2400000 : Shape := ⟨1, ![2400000]⟩
abbrev S_ : Shape := ⟨0, ![]⟩
abbrev S150000 : Shape := ⟨1, ![150000]⟩
abbrev S2400000x1 : Shape := ⟨2, ![2400000, 1]⟩
abbrev S150000x1 : Shape := ⟨2, ![150000, 1]⟩
abbrev S150000x32 : Shape := ⟨2, ![150000, 32]⟩
abbrev S10000x6 : Shape := ⟨2, ![10000, 6]⟩
abbrev S10000x1 : Shape := ⟨2, ![10000, 1]⟩
abbrev S10000x32 : Shape := ⟨2, ![10000, 32]⟩
abbrev S2400000x32 : Shape := ⟨2, ![2400000, 32]⟩
abbrev S1x32 : Shape := ⟨2, ![1, 32]⟩
abbrev S6000x32 : Shape := ⟨2, ![6000, 32]⟩
abbrev S6000x1 : Shape := ⟨2, ![6000, 1]⟩
abbrev S1x16 : Shape := ⟨2, ![1, 16]⟩
abbrev S1x1 : Shape := ⟨2, ![1, 1]⟩
abbrev S1x6 : Shape := ⟨2, ![1, 6]⟩
abbrev S150000x7 : Shape := ⟨2, ![150000, 7]⟩
abbrev S6000x7 : Shape := ⟨2, ![6000, 7]⟩
abbrev S6000x16 : Shape := ⟨2, ![6000, 16]⟩
abbrev S6000x6 : Shape := ⟨2, ![6000, 6]⟩
abbrev S150000x3 : Shape := ⟨2, ![150000, 3]⟩

abbrev nBuf : Space → Nat
  | .hbm => 70
  | .vmem => 36
  | .smem => 0
  | _ => 0

abbrev bufTy : (tb : Table) → Fin (tcTables nBuf tb) → BufTy
  | .hbm, ⟨0, _⟩ => ⟨S150000x6, .f32⟩
  | .hbm, ⟨1, _⟩ => ⟨S2x2400000, .i32⟩
  | .hbm, ⟨2, _⟩ => ⟨S6x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x16, .f32⟩
  | .hbm, ⟨7, _⟩ => ⟨S16, .f32⟩
  | .hbm, ⟨8, _⟩ => ⟨S16x1, .f32⟩
  | .hbm, ⟨9, _⟩ => ⟨S1, .f32⟩
  | .hbm, ⟨10, _⟩ => ⟨S32x16, .f32⟩
  | .hbm, ⟨11, _⟩ => ⟨S16, .f32⟩
  | .hbm, ⟨12, _⟩ => ⟨S16x6, .f32⟩
  | .hbm, ⟨13, _⟩ => ⟨S6, .f32⟩
  | .hbm, ⟨14, _⟩ => ⟨S1x2400000, .i32⟩
  | .hbm, ⟨15, _⟩ => ⟨S2400000, .i32⟩
  | .hbm, ⟨16, _⟩ => ⟨S1x2400000, .i32⟩
  | .hbm, ⟨17, _⟩ => ⟨S2400000, .i32⟩
  | .hbm, ⟨18, _⟩ => ⟨S_, .f32⟩
  | .hbm, ⟨19, _⟩ => ⟨S2400000, .f32⟩
  | .hbm, ⟨20, _⟩ => ⟨S_, .f32⟩
  | .hbm, ⟨21, _⟩ => ⟨S150000, .f32⟩
  | .hbm, ⟨22, _⟩ => ⟨S2400000x1, .i32⟩
  | .hbm, ⟨23, _⟩ => ⟨S150000, .f32⟩
  | .hbm, ⟨24, _⟩ => ⟨S_, .f32⟩
  | .hbm, ⟨25, _⟩ => ⟨S150000, .f32⟩
  | .hbm, ⟨26, _⟩ => ⟨S150000, .f32⟩
  | .hbm, ⟨27, _⟩ => ⟨S150000, .f32⟩
  | .hbm, ⟨28, _⟩ => ⟨S150000x1, .f32⟩
  | .hbm, ⟨29, _⟩ => ⟨S150000x32, .bf16⟩
  | .hbm, ⟨30, _⟩ => ⟨S_, .i32⟩
  | .hbm, ⟨31, _⟩ => ⟨S2400000, .i32⟩
  | .hbm, ⟨32, _⟩ => ⟨S2400000, .i1⟩
  | .hbm, ⟨33, _⟩ => ⟨S_, .i32⟩
  | .hbm, ⟨34, _⟩ => ⟨S2400000, .i32⟩
  | .hbm, ⟨35, _⟩ => ⟨S2400000, .i32⟩
  | .hbm, ⟨36, _⟩ => ⟨S2400000, .i32⟩
  | .hbm, ⟨37, _⟩ => ⟨S2400000x1, .i32⟩
  | .hbm, ⟨38, _⟩ => ⟨S2400000x32, .bf16⟩
  | .hbm, ⟨39, _⟩ => ⟨S2400000x32, .f32⟩
  | .hbm, ⟨40, _⟩ => ⟨S_, .f32⟩
  | .hbm, ⟨41, _⟩ => ⟨S150000x32, .f32⟩
  | .hbm, ⟨42, _⟩ => ⟨S2400000x1, .i32⟩
  | .hbm, ⟨43, _⟩ => ⟨S150000x32, .f32⟩
  | .hbm, ⟨44, _⟩ => ⟨S1x32, .f32⟩
  | .hbm, ⟨45, _⟩ => ⟨S150000x32, .bf16⟩
  | .hbm, ⟨46, _⟩ => ⟨S_, .i32⟩
  | .hbm, ⟨47, _⟩ => ⟨S2400000, .i32⟩
  | .hbm, ⟨48, _⟩ => ⟨S2400000, .i1⟩
  | .hbm, ⟨49, _⟩ => ⟨S_, .i32⟩
  | .hbm, ⟨50, _⟩ => ⟨S2400000, .i32⟩
  | .hbm, ⟨51, _⟩ => ⟨S2400000, .i32⟩
  | .hbm, ⟨52, _⟩ => ⟨S2400000, .i32⟩
  | .hbm, ⟨53, _⟩ => ⟨S2400000x1, .i32⟩
  | .hbm, ⟨54, _⟩ => ⟨S2400000x32, .bf16⟩
  | .hbm, ⟨55, _⟩ => ⟨S2400000x32, .f32⟩
  | .hbm, ⟨56, _⟩ => ⟨S_, .f32⟩
  | .hbm, ⟨57, _⟩ => ⟨S150000x32, .f32⟩
  | .hbm, ⟨58, _⟩ => ⟨S2400000x1, .i32⟩
  | .hbm, ⟨59, _⟩ => ⟨S150000x32, .f32⟩
  | .hbm, ⟨60, _⟩ => ⟨S1x32, .f32⟩
  | .hbm, ⟨61, _⟩ => ⟨S1x16, .f32⟩
  | .hbm, ⟨62, _⟩ => ⟨S1x1, .f32⟩
  | .hbm, ⟨63, _⟩ => ⟨S1x16, .f32⟩
  | .hbm, ⟨64, _⟩ => ⟨S1x6, .f32⟩
  | .hbm, ⟨65, _⟩ => ⟨S150000x32, .f32⟩
  | .hbm, ⟨66, _⟩ => ⟨S150000x7, .f32⟩
  | .hbm, ⟨67, _⟩ => ⟨S150000x1, .f32⟩
  | .hbm, ⟨68, _⟩ => ⟨S150000x3, .f32⟩
  | .hbm, ⟨69, _⟩ => ⟨S150000x3, .f32⟩
  | .local _ .vmem, ⟨0, _⟩ => ⟨S10000x6, .f32⟩
  | .local _ .vmem, ⟨1, _⟩ => ⟨S10000x6, .f32⟩
  | .local _ .vmem, ⟨2, _⟩ => ⟨S6x32, .f32⟩
  | .local _ .vmem, ⟨3, _⟩ => ⟨S10000x1, .f32⟩
  | .local _ .vmem, ⟨4, _⟩ => ⟨S10000x1, .f32⟩
  | .local _ .vmem, ⟨5, _⟩ => ⟨S10000x32, .bf16⟩
  | .local _ .vmem, ⟨6, _⟩ => ⟨S10000x32, .bf16⟩
  | .local _ .vmem, ⟨7, _⟩ => ⟨S6000x32, .f32⟩
  | .local _ .vmem, ⟨8, _⟩ => ⟨S6000x32, .f32⟩
  | .local _ .vmem, ⟨9, _⟩ => ⟨S6000x32, .bf16⟩
  | .local _ .vmem, ⟨10, _⟩ => ⟨S6000x32, .bf16⟩
  | .local _ .vmem, ⟨11, _⟩ => ⟨S6000x1, .f32⟩
  | .local _ .vmem, ⟨12, _⟩ => ⟨S6000x1, .f32⟩
  | .local _ .vmem, ⟨13, _⟩ => ⟨S1x32, .f32⟩
  | .local _ .vmem, ⟨14, _⟩ => ⟨S32x32, .f32⟩
  | .local _ .vmem, ⟨15, _⟩ => ⟨S6000x32, .bf16⟩
  | .local _ .vmem, ⟨16, _⟩ => ⟨S6000x32, .bf16⟩
  | .local _ .vmem, ⟨17, _⟩ => ⟨S6000x32, .f32⟩
  | .local _ .vmem, ⟨18, _⟩ => ⟨S6000x32, .f32⟩
  | .local _ .vmem, ⟨19, _⟩ => ⟨S6000x32, .bf16⟩
  | .local _ .vmem, ⟨20, _⟩ => ⟨S6000x32, .bf16⟩
  | .local _ .vmem, ⟨21, _⟩ => ⟨S6000x1, .f32⟩
  | .local _ .vmem, ⟨22, _⟩ => ⟨S6000x1, .f32⟩
  | .local _ .vmem, ⟨23, _⟩ => ⟨S1x32, .f32⟩
  | .local _ .vmem, ⟨24, _⟩ => ⟨S32x16, .f32⟩
  | .local _ .vmem, ⟨25, _⟩ => ⟨S1x16, .f32⟩
  | .local _ .vmem, ⟨26, _⟩ => ⟨S16x1, .f32⟩
  | .local _ .vmem, ⟨27, _⟩ => ⟨S1x1, .f32⟩
  | .local _ .vmem, ⟨28, _⟩ => ⟨S32x16, .f32⟩
  | .local _ .vmem, ⟨29, _⟩ => ⟨S1x16, .f32⟩
  | .local _ .vmem, ⟨30, _⟩ => ⟨S16x6, .f32⟩
  | .local _ .vmem, ⟨31, _⟩ => ⟨S1x6, .f32⟩
  | .local _ .vmem, ⟨32, _⟩ => ⟨S6000x32, .f32⟩
  | .local _ .vmem, ⟨33, _⟩ => ⟨S6000x32, .f32⟩
  | .local _ .vmem, ⟨34, _⟩ => ⟨S6000x7, .f32⟩
  | .local _ .vmem, ⟨35, _⟩ => ⟨S6000x7, .f32⟩
  | _, _ => ⟨S150000x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c : Ref sig .tc := ⟨.hbm, 30, rfl⟩
abbrev main_v13 : Ref sig .tc := ⟨.hbm, 31, rfl⟩
abbrev main_v14 : Ref sig .tc := ⟨.hbm, 32, rfl⟩
abbrev main_c_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_4 : Ref sig .tc := ⟨.hbm, 46, rfl⟩
abbrev main_v26 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_6 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42_0 : Ref sig .tc := ⟨.hbm, 65, rfl⟩
abbrev main_v42_1 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg8_0 : Ref sig .tc := ⟨.vmem, 28, rfl⟩
abbrev cc2_stg9_0 : Ref sig .tc := ⟨.vmem, 29, rfl⟩
abbrev cc2_stg10_0 : Ref sig .tc := ⟨.vmem, 30, rfl⟩
abbrev cc2_stg11_0 : Ref sig .tc := ⟨.vmem, 31, rfl⟩
abbrev cc2_stg12_0 : Ref sig .tc := ⟨.vmem, 32, rfl⟩
abbrev cc2_stg12_1 : Ref sig .tc := ⟨.vmem, 33, rfl⟩
abbrev cc2_stg13_0 : Ref sig .tc := ⟨.vmem, 34, rfl⟩
abbrev cc2_stg13_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem8_0 : DmaSem sig := 28
abbrev cc2_sem9_0 : DmaSem sig := 29
abbrev cc2_sem10_0 : DmaSem sig := 30
abbrev cc2_sem11_0 : DmaSem sig := 31
abbrev cc2_sem12_0 : DmaSem sig := 32
abbrev cc2_sem12_1 : DmaSem sig := 33
abbrev cc2_sem13_0 : DmaSem sig := 34
abbrev cc2_sem13_1 : DmaSem sig := 35

abbrev nD : Nat := 1
abbrev τ : Topo := Topo.v7x

variable {F : FTy → Type} [FloatOps F]

abbrev grid0 : Pipeline.Grid := ⟨1, ![15], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x32 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6000x32 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S6000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S6000x32 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_13 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S6000x32 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S6000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S32x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x16 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S16x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S32x16 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x16 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S16x6 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x6 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 2 → Memref sig .tc .vmem S6000x32 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

abbrev stage2_13 : Fin 2 → Memref sig .tc .vmem S6000x7 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

class Facts₀ : Prop where
  slices_S2x2400000_S1x2400000_0_0 : S2x2400000.Slices ![0, 0] S1x2400000
  shapeCasts_S1x2400000_S2400000 : S1x2400000.ShapeCasts S2400000
  slices_S2x2400000_S1x2400000_1_0 : S2x2400000.Slices ![1, 0] S1x2400000
  bcast_S_S2400000 : S_.BroadcastsInDim S2400000 (![] : Fin 0 → Fin S2400000.rank)
  bcast_S_S150000 : S_.BroadcastsInDim S150000 (![] : Fin 0 → Fin S150000.rank)
  bcast_S2400000_S2400000x1_0 : S2400000.BroadcastsInDim S2400000x1 (![0] : Fin 1 → Fin S2400000x1.rank)
  shapeCasts_S150000_S150000x1 : S150000.ShapeCasts S150000x1
  inb_S10000x6_S10000x6_0_0 : ∀ a, (![0, 0] : Fin 2 → Nat) a + S10000x6.size a ≤ S10000x6.size a
  h_S10000x6 : 0 < S10000x6.numel
  bitsLt_bf16_f32 : FTy.bits .bf16 < FTy.bits .f32
  inb_S6x32_S6x32_0_0 : ∀ a, (![0, 0] : Fin 2 → Nat) a + S6x32.size a ≤ S6x32.size a
  h_S6x32 : 0 < S6x32.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x32 : S10000x1.Broadcasts S10000x32
  inb_S10000x32_S10000x32_0_0 : ∀ a, (![0, 0] : Fin 2 → Nat) a + S10000x32.size a ≤ S10000x32.size a
  h_S10000x32 : 0 < S10000x32.numel
  packedbf16_S10000x32_S10000x32_0_0 : (Rect.unit (s := S10000x32) ![0, 0] S10000x32.size inb_S10000x32_S10000x32_0_0).PackedRows (EltTy.packing .bf16)
  bcast_S_S150000x32 : S_.BroadcastsInDim S150000x32 (![] : Fin 0 → Fin S150000x32.rank)
  shapeCasts_S32_S1x32 : S32.ShapeCasts S1x32
  inb_S6000x1_S6000x1_0_0 : ∀ a, (![0, 0] : Fin 2 → Nat) a + S6000x1.size a ≤ S6000x1.size a
  h_S6000x1 : 0 < S6000x1.numel
  shapeCasts_S6000x1_S6000x1 : S6000x1.ShapeCasts S6000x1
  inb_S6000x32_S6000x32_0_0 : ∀ a, (![0, 0] : Fin 2 → Nat) a + S6000x32.size a ≤ S6000x32.size a
  h_S6000x32 : 0 < S6000x32.numel
  shapeCasts_S6000x32_S6000x32 : S6000x32.ShapeCasts S6000x32
  broadcasts_S6000x1_S6000x32 : S6000x1.Broadcasts S6000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S6000x32 : S1x32.Broadcasts S6000x32
  inb_S32x32_S32x32_0_0 : ∀ a, (![0, 0] : Fin 2 → Nat) a + S32x32.size a ≤ S32x32.size a
  h_S32x32 : 0 < S32x32.numel
  packedbf16_S6000x32_S6000x32_0_0 : (Rect.unit (s := S6000x32) ![0, 0] S6000x32.size inb_S6000x32_S6000x32_0_0).PackedRows (EltTy.packing .bf16)
  shapeCasts_S16_S1x16 : S16.ShapeCasts S1x16
  shapeCasts_S1_S1x1 : S1.ShapeCasts S1x1
  shapeCasts_S6_S1x6 : S6.ShapeCasts S1x6
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S6000x16 : S1x16.Broadcasts S6000x16
  inb_S16x1_S16x1_0_0 : ∀ a, (![0, 0] : Fin 2 → Nat) a + S16x1.size a ≤ S16x1.size a
  h_S16x1 : 0 < S16x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S6000x1 : S1x1.Broadcasts S6000x1
  inb_S16x6_S16x6_0_0 : ∀ a, (![0, 0] : Fin 2 → Nat) a + S16x6.size a ≤ S16x6.size a
  h_S16x6 : 0 < S16x6.numel
  inb_S1x6_S1x6_0_0 : ∀ a, (![0, 0] : Fin 2 → Nat) a + S1x6.size a ≤ S1x6.size a
  h_S1x6 : 0 < S1x6.numel
  shapeCasts_S1x6_S1x6 : S1x6.ShapeCasts S1x6
  broadcasts_S1x6_S6000x6 : S1x6.Broadcasts S6000x6
  inb_S6000x7_S6000x1_0_0 : ∀ a, (![0, 0] : Fin 2 → Nat) a + S6000x1.size a ≤ S6000x7.size a
  inb_S6000x7_S6000x6_0_1 : ∀ a, (![0, 1] : Fin 2 → Nat) a + S6000x6.size a ≤ S6000x7.size a
  h_S6000x6 : 0 < S6000x6.numel
  slices_S150000x7_S150000x1_0_0 : S150000x7.Slices ![0, 0] S150000x1
  slices_S150000x7_S150000x3_0_1 : S150000x7.Slices ![0, 1] S150000x3
  slices_S150000x7_S150000x3_0_4 : S150000x7.Slices ![0, 4] S150000x3
  scatter_S150000_S2400000x1_S2400000_n_0_0_1_wf : ScatterDims.WF S150000 S2400000x1 S2400000 [] [0] [0] 1
  dot_S10000x6_S6x32_S10000x32_1_0_0_1_n_n_wf : DotDims.WF S10000x6 S6x32 S10000x32 [1] [0] [0] [1] [] []
  gather_S150000x32_S2400000x1_S2400000x32_1_0_n_n_0_1_132_wf : GatherDims.WF S150000x32 S2400000x1 S2400000x32 [1] [0] [] [0] [] 1 ![1, 32]
  scatter_S150000x32_S2400000x1_S2400000x32_1_0_0_1_wf : ScatterDims.WF S150000x32 S2400000x1 S2400000x32 [1] [0] [0] 1
  dot_S6000x32_S32x32_S6000x32_1_0_0_1_n_n_wf : DotDims.WF S6000x32 S32x32 S6000x32 [1] [0] [0] [1] [] []
  dot_S6000x32_S32x16_S6000x16_1_0_0_1_n_n_wf : DotDims.WF S6000x32 S32x16 S6000x16 [1] [0] [0] [1] [] []
  dot_S6000x16_S16x1_S6000x1_1_0_0_1_n_n_wf : DotDims.WF S6000x16 S16x1 S6000x1 [1] [0] [0] [1] [] []
  dot_S6000x16_S16x6_S6000x6_1_0_0_1_n_n_wf : DotDims.WF S6000x16 S16x6 S6000x6 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x6.size a ≤ S150000x6.size a
  hwx0_0 : ∀ i : grid0.Coords, EltTy.bits .f32 = 32 ∨ (Rect.block (s := S150000x6) S10000x6.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6x32.size a ≤ S6x32.size a
  hwx0_1 : ∀ i : grid0.Coords, EltTy.bits .f32 = 32 ∨ (Rect.block (s := S6x32) S6x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S150000x1.size a
  hwx0_2 : ∀ i : grid0.Coords, EltTy.bits .f32 = 32 ∨ (Rect.block (s := S150000x1) S10000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x32.size a ≤ S150000x32.size a
  hwx0_3 : ∀ i : grid0.Coords, EltTy.bits .bf16 = 32 ∨ (Rect.block (s := S150000x32) S10000x32.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6000x32.size a ≤ S150000x32.size a
  hwx1_0 : ∀ i : grid1.Coords, EltTy.bits .f32 = 32 ∨ (Rect.block (s := S150000x32) S6000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6000x32.size a ≤ S150000x32.size a
  hwx1_1 : ∀ i : grid1.Coords, EltTy.bits .bf16 = 32 ∨ (Rect.block (s := S150000x32) S6000x32.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6000x1.size a ≤ S150000x1.size a
  hwx1_2 : ∀ i : grid1.Coords, EltTy.bits .f32 = 32 ∨ (Rect.block (s := S150000x1) S6000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x32.size a ≤ S32x32.size a
  hwx1_4 : ∀ i : grid1.Coords, EltTy.bits .f32 = 32 ∨ (Rect.block (s := S32x32) S32x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S6000x32.size a ≤ S150000x32.size a
  hwx1_5 : ∀ i : grid1.Coords, EltTy.bits .bf16 = 32 ∨ (Rect.block (s := S150000x32) S6000x32.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6000x32.size a ≤ S150000x32.size a
  hwx2_0 : ∀ i : grid2.Coords, EltTy.bits .f32 = 32 ∨ (Rect.block (s := S150000x32) S6000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S6000x32.size a ≤ S150000x32.size a
  hwx2_1 : ∀ i : grid2.Coords, EltTy.bits .bf16 = 32 ∨ (Rect.block (s := S150000x32) S6000x32.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S6000x1.size a ≤ S150000x1.size a
  hwx2_2 : ∀ i : grid2.Coords, EltTy.bits .f32 = 32 ∨ (Rect.block (s := S150000x1) S6000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S32x16.size a ≤ S32x16.size a
  hwx2_4 : ∀ i : grid2.Coords, EltTy.bits .f32 = 32 ∨ (Rect.block (s := S32x16) S32x16.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x16.size a ≤ S1x16.size a
  hwx2_5 : ∀ i : grid2.Coords, EltTy.bits .f32 = 32 ∨ (Rect.block (s := S1x16) S1x16.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S16x1.size a ≤ S16x1.size a
  hwx2_6 : ∀ i : grid2.Coords, EltTy.bits .f32 = 32 ∨ (Rect.block (s := S16x1) S16x1.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x1.size a ≤ S1x1.size a
  hwx2_7 : ∀ i : grid2.Coords, EltTy.bits .f32 = 32 ∨ (Rect.block (s := S1x1) S1x1.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S32x16.size a ≤ S32x16.size a
  hwx2_8 : ∀ i : grid2.Coords, EltTy.bits .f32 = 32 ∨ (Rect.block (s := S32x16) S32x16.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x16.size a ≤ S1x16.size a
  hwx2_9 : ∀ i : grid2.Coords, EltTy.bits .f32 = 32 ∨ (Rect.block (s := S1x16) S1x16.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S16x6.size a ≤ S16x6.size a
  hwx2_10 : ∀ i : grid2.Coords, EltTy.bits .f32 = 32 ∨ (Rect.block (s := S16x6) S16x6.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x6.size a ≤ S1x6.size a
  hwx2_11 : ∀ i : grid2.Coords, EltTy.bits .f32 = 32 ∨ (Rect.block (s := S1x6) S1x6.size (cc2_transform_11 i) (hinb2_11 i)).WholeWords (EltTy.packing .f32)
  hstage2_12 : ∀ j, (stage2_12 j).IsWhole
  nbuf2_12 : grid2.bufCount reads2_12 false = 2
  hreads2_12 : ∀ i i' : grid2.Coords, (∀ a, reads2_12 a = true → i a = i' a) → cc2_transform_12 i = cc2_transform_12 i'
  hinb2_12 : ∀ (i : grid2.Coords) a, (cc2_transform_12 i a + 1) * S6000x32.size a ≤ S150000x32.size a
  hwx2_12 : ∀ i : grid2.Coords, EltTy.bits .f32 = 32 ∨ (Rect.block (s := S150000x32) S6000x32.size (cc2_transform_12 i) (hinb2_12 i)).WholeWords (EltTy.packing .f32)
  hstage2_13 : ∀ j, (stage2_13 j).IsWhole
  nbuf2_13 : grid2.bufCount reads2_13 false = 2
  hreads2_13 : ∀ i i' : grid2.Coords, (∀ a, reads2_13 a = true → i a = i' a) → cc2_transform_13 i = cc2_transform_13 i'
  hinb2_13 : ∀ (i : grid2.Coords) a, (cc2_transform_13 i a + 1) * S6000x7.size a ≤ S150000x7.size a
  hwx2_13 : ∀ i : grid2.Coords, EltTy.bits .f32 = 32 ∨ (Rect.block (s := S150000x7) S6000x7.size (cc2_transform_13 i) (hinb2_13 i)).WholeWords (EltTy.packing .f32)

variable [Facts₀]

def scatter_S150000_S2400000x1_S2400000_n_0_0_1 : ScatterDims S150000 S2400000x1 S2400000 where
  updateWindowDims := []
  insertedWindowDims := [0]
  scatterDimsToOperandDims := [0]
  indexVectorDim := 1
  wf := scatter_S150000_S2400000x1_S2400000_n_0_0_1_wf
def dot_S10000x6_S6x32_S10000x32_1_0_0_1_n_n : DotDims S10000x6 S6x32 S10000x32 where
  lhsContracting := [1]
  rhsContracting := [0]
  lhsNonContracting := [0]
  rhsNonContracting := [1]
  lhsBatch := []
  rhsBatch := []
  wf := dot_S10000x6_S6x32_S10000x32_1_0_0_1_n_n_wf
def gather_S150000x32_S2400000x1_S2400000x32_1_0_n_n_0_1_132 : GatherDims S150000x32 S2400000x1 S2400000x32 where
  offsetDims := [1]
  collapsedSliceDims := [0]
  operandBatchingDims := []
  startIndicesBatchingDims := []
  startIndexMap := [0]
  indexVectorDim := 1
  sliceSizes := ![1, 32]
  wf := gather_S150000x32_S2400000x1_S2400000x32_1_0_n_n_0_1_132_wf
def scatter_S150000x32_S2400000x1_S2400000x32_1_0_0_1 : ScatterDims S150000x32 S2400000x1 S2400000x32 where
  updateWindowDims := [1]
  insertedWindowDims := [0]
  scatterDimsToOperandDims := [0]
  indexVectorDim := 1
  wf := scatter_S150000x32_S2400000x1_S2400000x32_1_0_0_1_wf
def dot_S6000x32_S32x32_S6000x32_1_0_0_1_n_n : DotDims S6000x32 S32x32 S6000x32 where
  lhsContracting := [1]
  rhsContracting := [0]
  lhsNonContracting := [0]
  rhsNonContracting := [1]
  lhsBatch := []
  rhsBatch := []
  wf := dot_S6000x32_S32x32_S6000x32_1_0_0_1_n_n_wf
def dot_S6000x32_S32x16_S6000x16_1_0_0_1_n_n : DotDims S6000x32 S32x16 S6000x16 where
  lhsContracting := [1]
  rhsContracting := [0]
  lhsNonContracting := [0]
  rhsNonContracting := [1]
  lhsBatch := []
  rhsBatch := []
  wf := dot_S6000x32_S32x16_S6000x16_1_0_0_1_n_n_wf
def dot_S6000x16_S16x1_S6000x1_1_0_0_1_n_n : DotDims S6000x16 S16x1 S6000x1 where
  lhsContracting := [1]
  rhsContracting := [0]
  lhsNonContracting := [0]
  rhsNonContracting := [1]
  lhsBatch := []
  rhsBatch := []
  wf := dot_S6000x16_S16x1_S6000x1_1_0_0_1_n_n_wf
def dot_S6000x16_S16x6_S6000x6_1_0_0_1_n_n : DotDims S6000x16 S16x6 S6000x6 where
  lhsContracting := [1]
  rhsContracting := [0]
  lhsNonContracting := [0]
  rhsNonContracting := [1]
  lhsBatch := []
  rhsBatch := []
  wf := dot_S6000x16_S16x6_S6000x6_1_0_0_1_n_n_wf

abbrev win0_0 : Pipeline.Window sig grid0 :=
  Pipeline.Window.ofSpec (Memref.whole main_arg0) S10000x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S6x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S10000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v23) S6000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S6000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S6000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S32x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S6000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v36) S6000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S6000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S6000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v37) S1x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg6) S32x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v38) S1x16.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg8) S16x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v39) S1x1.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg10) S32x16.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v40) S1x16.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_arg12) S16x6.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v41) S1x6.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v42_0) S6000x32.size cc2_transform_12 reads2_12 true false 2 stage2_12 sem2_12
    hrank2 hreads2_12 hinb2_12 nbuf2_12 (Memref.isWhole_whole _) hwx2_12 hstage2_12

abbrev win2_13 : Pipeline.Window sig grid2 :=
  Pipeline.Window.ofSpec (Memref.whole main_v42_1) S6000x7.size cc2_transform_13 reads2_13 true false 2 stage2_13 sem2_13
    hrank2 hreads2_13 hinb2_13 nbuf2_13 (Memref.isWhole_whole _) hwx2_13 hstage2_13

abbrev win2 : Fin 14 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | ⟨_ + 14, h⟩ => absurd h (Nat.not_lt.2 (Nat.le_add_left _ _))
abbrev spec2 : Fin 14 → Pipeline.WinSpec sig grid2.rank := fun w => (win2 w).toWinSpec

class Facts : Prop extends Facts₀ where

variable [Facts]
-- ==== ReferenceIdeal.lean ====
abbrev S150000x6 : Shape := ⟨2, ![150000, 6]⟩
abbrev S2x2400000 : Shape := ⟨2, ![2, 2400000]⟩
abbrev S6x32 : Shape := ⟨2, ![6, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S16x6 : Shape := ⟨2, ![16, 6]⟩
abbrev S6 : Shape := ⟨1, ![6]⟩
abbrev S1x2400000 : Shape := ⟨2, ![1, 2400000]⟩
abbrev S2400000 : Shape := ⟨1, ![2400000]⟩
abbrev S150000x32 : Shape := ⟨2, ![150000, 32]⟩
abbrev S_ : Shape := ⟨0, ![]⟩
abbrev S150000 : Shape := ⟨1, ![150000]⟩
abbrev S2400000x1 : Shape := ⟨2, ![2400000, 1]⟩
abbrev S2400000x32 : Shape := ⟨2, ![2400000, 32]⟩
abbrev S150000x1 : Shape := ⟨2, ![150000, 1]⟩
abbrev S1x32 : Shape := ⟨2, ![1, 32]⟩
abbrev S150000x16 : Shape := ⟨2, ![150000, 16]⟩
abbrev S1x16 : Shape := ⟨2, ![1, 16]⟩
abbrev S1x1 : Shape := ⟨2, ![1, 1]⟩
abbrev S1x6 : Shape := ⟨2, ![1, 6]⟩
abbrev S150000x3 : Shape := ⟨2, ![150000, 3]⟩

abbrev nBuf : Space → Nat
  | .hbm => 153
  | .vmem => 0
  | .smem => 0
  | _ => 0

abbrev hbmTy0_0 (i : Nat) : BufTy := match i % 128 with
  | 0 => ⟨S150000x6, .f32⟩
  | 1 => ⟨S2x2400000, .i32⟩
  | 2 => ⟨S6x32, .f32⟩
  | 3 => ⟨S32, .f32⟩
  | 4 => ⟨S32x32, .f32⟩
  | 5 => ⟨S32, .f32⟩
  | 6 => ⟨S32x16, .f32⟩
  | 7 => ⟨S16, .f32⟩
  | 8 => ⟨S16x1, .f32⟩
  | 9 => ⟨S1, .f32⟩
  | 10 => ⟨S32x16, .f32⟩
  | 11 => ⟨S16, .f32⟩
  | 12 => ⟨S16x6, .f32⟩
  | 13 => ⟨S6, .f32⟩
  | 14 => ⟨S1x2400000, .i32⟩
  | 15 => ⟨S2400000, .i32⟩
  | 16 => ⟨S1x2400000, .i32⟩
  | 17 => ⟨S2400000, .i32⟩
  | 18 => ⟨S150000x32, .f32⟩
  | 19 => ⟨S_, .f32⟩
  | 20 => ⟨S2400000, .f32⟩
  | 21 => ⟨S_, .f32⟩
  | 22 => ⟨S150000, .f32⟩
  | 23 => ⟨S2400000x1, .i32⟩
  | 24 => ⟨S150000, .f32⟩
  | 25 => ⟨S_, .f32⟩
  | 26 => ⟨S150000, .f32⟩
  | 27 => ⟨S150000, .f32⟩
  | 28 => ⟨S150000, .f32⟩
  | 29 => ⟨S_, .i32⟩
  | 30 => ⟨S2400000, .i32⟩
  | 31 => ⟨S2400000, .i1⟩
  | 32 => ⟨S_, .i32⟩
  | 33 => ⟨S2400000, .i32⟩
  | 34 => ⟨S2400000, .i32⟩
  | 35 => ⟨S2400000, .i32⟩
  | 36 => ⟨S2400000x1, .i32⟩
  | 37 => ⟨S2400000, .f32⟩
  | 38 => ⟨S_, .i32⟩
  | 39 => ⟨S2400000, .i32⟩
  | 40 => ⟨S2400000, .i1⟩
  | 41 => ⟨S_, .i32⟩
  | 42 => ⟨S2400000, .i32⟩
  | 43 => ⟨S2400000, .i32⟩
  | 44 => ⟨S2400000, .i32⟩
  | 45 => ⟨S2400000x1, .i32⟩
  | 46 => ⟨S2400000, .f32⟩
  | 47 => ⟨S2400000, .f32⟩
  | 48 => ⟨S_, .i32⟩
  | 49 => ⟨S2400000, .i32⟩
  | 50 => ⟨S2400000, .i1⟩
  | 51 => ⟨S_, .i32⟩
  | 52 => ⟨S2400000, .i32⟩
  | 53 => ⟨S2400000, .i32⟩
  | 54 => ⟨S2400000, .i32⟩
  | 55 => ⟨S2400000x1, .i32⟩
  | 56 => ⟨S2400000x32, .f32⟩
  | 57 => ⟨S2400000x1, .f32⟩
  | 58 => ⟨S2400000x32, .f32⟩
  | 59 => ⟨S2400000x32, .f32⟩
  | 60 => ⟨S_, .f32⟩
  | 61 => ⟨S150000x32, .f32⟩
  | 62 => ⟨S2400000x1, .i32⟩
  | 63 => ⟨S150000x32, .f32⟩
  | 64 => ⟨S150000, .f32⟩
  | 65 => ⟨S150000x1, .f32⟩
  | 66 => ⟨S150000x32, .f32⟩
  | 67 => ⟨S150000x32, .f32⟩
  | 68 => ⟨S150000x32, .f32⟩
  | 69 => ⟨S1x32, .f32⟩
  | 70 => ⟨S150000x32, .f32⟩
  | 71 => ⟨S150000x32, .f32⟩
  | 72 => ⟨S_, .f32⟩
  | 73 => ⟨S150000x32, .f32⟩
  | 74 => ⟨S150000x32, .f32⟩
  | 75 => ⟨S150000x32, .f32⟩
  | 76 => ⟨S_, .f32⟩
  | 77 => ⟨S2400000, .f32⟩
  | 78 => ⟨S_, .f32⟩
  | 79 => ⟨S150000, .f32⟩
  | 80 => ⟨S2400000x1, .i32⟩
  | 81 => ⟨S150000, .f32⟩
  | 82 => ⟨S_, .f32⟩
  | 83 => ⟨S150000, .f32⟩
  | 84 => ⟨S150000, .f32⟩
  | 85 => ⟨S150000, .f32⟩
  | 86 => ⟨S_, .i32⟩
  | 87 => ⟨S2400000, .i32⟩
  | 88 => ⟨S2400000, .i1⟩
  | 89 => ⟨S_, .i32⟩
  | 90 => ⟨S2400000, .i32⟩
  | 91 => ⟨S2400000, .i32⟩
  | 92 => ⟨S2400000, .i32⟩
  | 93 => ⟨S2400000x1, .i32⟩
  | 94 => ⟨S2400000, .f32⟩
  | 95 => ⟨S_, .i32⟩
  | 96 => ⟨S2400000, .i32⟩
  | 97 => ⟨S2400000, .i1⟩
  | 98 => ⟨S_, .i32⟩
  | 99 => ⟨S2400000, .i32⟩
  | 100 => ⟨S2400000, .i32⟩
  | 101 => ⟨S2400000, .i32⟩
  | 102 => ⟨S2400000x1, .i32⟩
  | 103 => ⟨S2400000, .f32⟩
  | 104 => ⟨S2400000, .f32⟩
  | 105 => ⟨S_, .i32⟩
  | 106 => ⟨S2400000, .i32⟩
  | 107 => ⟨S2400000, .i1⟩
  | 108 => ⟨S_, .i32⟩
  | 109 => ⟨S2400000, .i32⟩
  | 110 => ⟨S2400000, .i32⟩
  | 111 => ⟨S2400000, .i32⟩
  | 112 => ⟨S2400000x1, .i32⟩
  | 113 => ⟨S2400000x32, .f32⟩
  | 114 => ⟨S2400000x1, .f32⟩
  | 115 => ⟨S2400000x32, .f32⟩
  | 116 => ⟨S2400000x32, .f32⟩
  | 117 => ⟨S_, .f32⟩
  | 118 => ⟨S150000x32, .f32⟩
  | 119 => ⟨S2400000x1, .i32⟩
  | 120 => ⟨S150000x32, .f32⟩
  | 121 => ⟨S150000, .f32⟩
  | 122 => ⟨S150000x1, .f32⟩
  | 123 => ⟨S150000x32, .f32⟩
  | 124 => ⟨S150000x32, .f32⟩
  | 125 => ⟨S150000x32, .f32⟩
  | 126 => ⟨S1x32, .f32⟩
  | 127 => ⟨S150000x32, .f32⟩
  | _ => ⟨S150000x6, .f32⟩

abbrev hbmTy0_1 (i : Nat) : BufTy := match i % 128 with
  | 0 => ⟨S150000x32, .f32⟩
  | 1 => ⟨S150000x16, .f32⟩
  | 2 => ⟨S1x16, .f32⟩
  | 3 => ⟨S150000x16, .f32⟩
  | 4 => ⟨S150000x16, .f32⟩
  | 5 => ⟨S_, .f32⟩
  | 6 => ⟨S150000x16, .f32⟩
  | 7 => ⟨S150000x16, .f32⟩
  | 8 => ⟨S150000x1, .f32⟩
  | 9 => ⟨S1x1, .f32⟩
  | 10 => ⟨S150000x1, .f32⟩
  | 11 => ⟨S150000x1, .f32⟩
  | 12 => ⟨S150000x16, .f32⟩
  | 13 => ⟨S1x16, .f32⟩
  | 14 => ⟨S150000x16, .f32⟩
  | 15 => ⟨S150000x16, .f32⟩
  | 16 => ⟨S_, .f32⟩
  | 17 => ⟨S150000x16, .f32⟩
  | 18 => ⟨S150000x16, .f32⟩
  | 19 => ⟨S150000x6, .f32⟩
  | 20 => ⟨S1x6, .f32⟩
  | 21 => ⟨S150000x6, .f32⟩
  | 22 => ⟨S150000x6, .f32⟩
  | 23 => ⟨S150000x3, .f32⟩
  | 24 => ⟨S150000x3, .f32⟩
  | _ => ⟨S150000x6, .f32⟩

abbrev hbmTy (i : Nat) : BufTy := match i / 128 with
  | 0 => hbmTy0_0 i
  | 1 => hbmTy0_1 i
  | _ => ⟨S150000x6, .f32⟩

abbrev bufTy : (tb : Table) → Fin (tcTables nBuf tb) → BufTy
  | .hbm, ⟨i, _⟩ => hbmTy i
  | _, _ => ⟨S150000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_1 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_c_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_3 : Ref sig .tc := ⟨.hbm, 38, rfl⟩
abbrev main_v19 : Ref sig .tc := ⟨.hbm, 39, rfl⟩
abbrev main_v20 : Ref sig .tc := ⟨.hbm, 40, rfl⟩
abbrev main_c_4 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_5 : Ref sig .tc := ⟨.hbm, 48, rfl⟩
abbrev main_v27 : Ref sig .tc := ⟨.hbm, 49, rfl⟩
abbrev main_v28 : Ref sig .tc := ⟨.hbm, 50, rfl⟩
abbrev main_c_6 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_7 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_call0_cst : Ref sig .tc := ⟨.hbm, 72, rfl⟩
abbrev main_call0_v0 : Ref sig .tc := ⟨.hbm, 73, rfl⟩
abbrev main_v48 : Ref sig .tc := ⟨.hbm, 74, rfl⟩
abbrev main_v49 : Ref sig .tc := ⟨.hbm, 75, rfl⟩
abbrev main_cst_8 : Ref sig .tc := ⟨.hbm, 76, rfl⟩
abbrev main_v50 : Ref sig .tc := ⟨.hbm, 77, rfl⟩
abbrev main_cst_9 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_10 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_c_11 : Ref sig .tc := ⟨.hbm, 86, rfl⟩
abbrev main_v57 : Ref sig .tc := ⟨.hbm, 87, rfl⟩
abbrev main_v58 : Ref sig .tc := ⟨.hbm, 88, rfl⟩
abbrev main_c_12 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_c_13 : Ref sig .tc := ⟨.hbm, 95, rfl⟩
abbrev main_v64 : Ref sig .tc := ⟨.hbm, 96, rfl⟩
abbrev main_v65 : Ref sig .tc := ⟨.hbm, 97, rfl⟩
abbrev main_c_14 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c_15 : Ref sig .tc := ⟨.hbm, 105, rfl⟩
abbrev main_v72 : Ref sig .tc := ⟨.hbm, 106, rfl⟩
abbrev main_v73 : Ref sig .tc := ⟨.hbm, 107, rfl⟩
abbrev main_c_16 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_17 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_call1_cst : Ref sig .tc := ⟨.hbm, 133, rfl⟩
abbrev main_call1_v0 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_call2_cst : Ref sig .tc := ⟨.hbm, 144, rfl⟩
abbrev main_call2_v0 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩

abbrev nD : Nat := 1
abbrev τ : Topo := Topo.v7x

variable {F : FTy → Type} [FloatOps F]

class Facts₀ : Prop where
  slices_S2x2400000_S1x2400000_0_0 : S2x2400000.Slices ![0, 0] S1x2400000
  shapeCasts_S1x2400000_S2400000 : S1x2400000.ShapeCasts S2400000
  slices_S2x2400000_S1x2400000_1_0 : S2x2400000.Slices ![1, 0] S1x2400000
  bcast_S_S2400000 : S_.BroadcastsInDim S2400000 (![] : Fin 0 → Fin S2400000.rank)
  bcast_S_S150000 : S_.BroadcastsInDim S150000 (![] : Fin 0 → Fin S150000.rank)
  bcast_S2400000_S2400000x1_0 : S2400000.BroadcastsInDim S2400000x1 (![0] : Fin 1 → Fin S2400000x1.rank)
  bcast_S2400000x1_S2400000x32_0_1 : S2400000x1.BroadcastsInDim S2400000x32 (![0, 1] : Fin 2 → Fin S2400000x32.rank)
  bcast_S_S150000x32 : S_.BroadcastsInDim S150000x32 (![] : Fin 0 → Fin S150000x32.rank)
  bcast_S150000_S150000x1_0 : S150000.BroadcastsInDim S150000x1 (![0] : Fin 1 → Fin S150000x1.rank)
  bcast_S150000x1_S150000x32_0_1 : S150000x1.BroadcastsInDim S150000x32 (![0, 1] : Fin 2 → Fin S150000x32.rank)
  bcast_S32_S1x32_1 : S32.BroadcastsInDim S1x32 (![1] : Fin 1 → Fin S1x32.rank)
  bcast_S1x32_S150000x32_0_1 : S1x32.BroadcastsInDim S150000x32 (![0, 1] : Fin 2 → Fin S150000x32.rank)
  bcast_S16_S1x16_1 : S16.BroadcastsInDim S1x16 (![1] : Fin 1 → Fin S1x16.rank)
  bcast_S1x16_S150000x16_0_1 : S1x16.BroadcastsInDim S150000x16 (![0, 1] : Fin 2 → Fin S150000x16.rank)
  bcast_S_S150000x16 : S_.BroadcastsInDim S150000x16 (![] : Fin 0 → Fin S150000x16.rank)
  bcast_S1_S1x1_1 : S1.BroadcastsInDim S1x1 (![1] : Fin 1 → Fin S1x1.rank)
  bcast_S1x1_S150000x1_0_1 : S1x1.BroadcastsInDim S150000x1 (![0, 1] : Fin 2 → Fin S150000x1.rank)
  bcast_S6_S1x6_1 : S6.BroadcastsInDim S1x6 (![1] : Fin 1 → Fin S1x6.rank)
  bcast_S1x6_S150000x6_0_1 : S1x6.BroadcastsInDim S150000x6 (![0, 1] : Fin 2 → Fin S150000x6.rank)
  slices_S150000x6_S150000x3_0_0 : S150000x6.Slices ![0, 0] S150000x3
  slices_S150000x6_S150000x3_0_3 : S150000x6.Slices ![0, 3] S150000x3
  dot_S150000x6_S6x32_S150000x32_1_0_0_1_n_n_wf : DotDims.WF S150000x6 S6x32 S150000x32 [1] [0] [0] [1] [] []
  scatter_S150000_S2400000x1_S2400000_n_0_0_1_wf : ScatterDims.WF S150000 S2400000x1 S2400000 [] [0] [0] 1
  gather_S150000_S2400000x1_S2400000_n_0_n_n_0_1_1_wf : GatherDims.WF S150000 S2400000x1 S2400000 [] [0] [] [0] [] 1 ![1]
  gather_S150000x32_S2400000x1_S2400000x32_1_0_n_n_0_1_132_wf : GatherDims.WF S150000x32 S2400000x1 S2400000x32 [1] [0] [] [0] [] 1 ![1, 32]
  scatter_S150000x32_S2400000x1_S2400000x32_1_0_0_1_wf : ScatterDims.WF S150000x32 S2400000x1 S2400000x32 [1] [0] [0] 1
  dot_S150000x32_S32x32_S150000x32_1_0_0_1_n_n_wf : DotDims.WF S150000x32 S32x32 S150000x32 [1] [0] [0] [1] [] []
  dot_S150000x32_S32x16_S150000x16_1_0_0_1_n_n_wf : DotDims.WF S150000x32 S32x16 S150000x16 [1] [0] [0] [1] [] []
  dot_S150000x16_S16x1_S150000x1_1_0_0_1_n_n_wf : DotDims.WF S150000x16 S16x1 S150000x1 [1] [0] [0] [1] [] []
  dot_S150000x16_S16x6_S150000x6_1_0_0_1_n_n_wf : DotDims.WF S150000x16 S16x6 S150000x6 [1] [0] [0] [1] [] []

variable [Facts₀]

def dot_S150000x6_S6x32_S150000x32_1_0_0_1_n_n : DotDims S150000x6 S6x32 S150000x32 where
  lhsContracting := [1]
  rhsContracting := [0]
  lhsNonContracting := [0]
  rhsNonContracting := [1]
  lhsBatch := []
  rhsBatch := []
  wf := dot_S150000x6_S6x32_S150000x32_1_0_0_1_n_n_wf
def scatter_S150000_S2400000x1_S2400000_n_0_0_1 : ScatterDims S150000 S2400000x1 S2400000 where
  updateWindowDims := []
  insertedWindowDims := [0]
  scatterDimsToOperandDims := [0]
  indexVectorDim := 1
  wf := scatter_S150000_S2400000x1_S2400000_n_0_0_1_wf
def gather_S150000_S2400000x1_S2400000_n_0_n_n_0_1_1 : GatherDims S150000 S2400000x1 S2400000 where
  offsetDims := []
  collapsedSliceDims := [0]
  operandBatchingDims := []
  startIndicesBatchingDims := []
  startIndexMap := [0]
  indexVectorDim := 1
  sliceSizes := ![1]
  wf := gather_S150000_S2400000x1_S2400000_n_0_n_n_0_1_1_wf
def gather_S150000x32_S2400000x1_S2400000x32_1_0_n_n_0_1_132 : GatherDims S150000x32 S2400000x1 S2400000x32 where
  offsetDims := [1]
  collapsedSliceDims := [0]
  operandBatchingDims := []
  startIndicesBatchingDims := []
  startIndexMap := [0]
  indexVectorDim := 1
  sliceSizes := ![1, 32]
  wf := gather_S150000x32_S2400000x1_S2400000x32_1_0_n_n_0_1_132_wf
def scatter_S150000x32_S2400000x1_S2400000x32_1_0_0_1 : ScatterDims S150000x32 S2400000x1 S2400000x32 where
  updateWindowDims := [1]
  insertedWindowDims := [0]
  scatterDimsToOperandDims := [0]
  indexVectorDim := 1
  wf := scatter_S150000x32_S2400000x1_S2400000x32_1_0_0_1_wf
def dot_S150000x32_S32x32_S150000x32_1_0_0_1_n_n : DotDims S150000x32 S32x32 S150000x32 where
  lhsContracting := [1]
  rhsContracting := [0]
  lhsNonContracting := [0]
  rhsNonContracting := [1]
  lhsBatch := []
  rhsBatch := []
  wf := dot_S150000x32_S32x32_S150000x32_1_0_0_1_n_n_wf
def dot_S150000x32_S32x16_S150000x16_1_0_0_1_n_n : DotDims S150000x32 S32x16 S150000x16 where
  lhsContracting := [1]
  rhsContracting := [0]
  lhsNonContracting := [0]
  rhsNonContracting := [1]
  lhsBatch := []
  rhsBatch := []
  wf := dot_S150000x32_S32x16_S150000x16_1_0_0_1_n_n_wf
def dot_S150000x16_S16x1_S150000x1_1_0_0_1_n_n : DotDims S150000x16 S16x1 S150000x1 where
  lhsContracting := [1]
  rhsContracting := [0]
  lhsNonContracting := [0]
  rhsNonContracting := [1]
  lhsBatch := []
  rhsBatch := []
  wf := dot_S150000x16_S16x1_S150000x1_1_0_0_1_n_n_wf
def dot_S150000x16_S16x6_S150000x6_1_0_0_1_n_n : DotDims S150000x16 S16x6 S150000x6 where
  lhsContracting := [1]
  rhsContracting := [0]
  lhsNonContracting := [0]
  rhsNonContracting := [1]
  lhsBatch := []
  rhsBatch := []
  wf := dot_S150000x16_S16x6_S150000x6_1_0_0_1_n_n_wf

class Facts : Prop extends Facts₀ where

variable [Facts]
-- ==== Proof.WholeRun.lean ====
/-
  The idealized kernel's whole run, with every buffer NAMED at the end.

  @main is three Pallas regions among four stretches of host operations. The frame module folds the memory through
  those seven segments: `Gen.W7 m ρ c` is the TensorCore's buffer contents after the last stretch, as a function of
  the launch memory `m`. The frame claim only reads the ARGUMENT arrays off that final valuation; the value claim
  needs the RESULT arrays too. So here the same launch-to-return argument is stated once with the post
  "every unscoped buffer ends at `Gen.W7 m ρ c`", from which both the results and the arguments are read.
-/
import proofs.«132109_j42992622632991_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, and in the final state every unscoped buffer of
    every TensorCore holds what the fold of the seven segments computes from the launch memory. -/
theorem run_named : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

end Cert.KernelIdeal.Whole

end
-- ==== Proof.Chain.lean ====
/-
  The idealized kernel's buffers at each boundary of its run, read back to the argument arrays.

  @main alternates stretches of host operations with three Pallas regions. This module reads what each STRETCH leaves,
  as a function of what the boundary before it holds, and carries the buffers a region or a stretch does not write
  across it. The edge lists (source and destination node of every edge), the inverse square-root degrees and the
  index vectors derived from them are computed by the same host operations in both programs, so they are stated
  directly as the reference's stages of the edge-index argument.
-/
import proofs.«132109_j42992622632991_2_alg».proof.Proof.Gen.KernelIdeal.Frame
import proofs.«132109_j42992622632991_2_alg».proof.Proof.Gen.ReferenceIdeal.Read

set_option maxRecDepth 16384

noncomputable section

namespace Cert.KernelIdeal.Whole

open Cert.KernelIdeal Cert.KernelIdeal.Gen Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The degrees' inverse square roots as the column `[150000, 1]` the regions read. -/
def dcol (e : (⟨S2x2400000, .i32⟩ : BufTy).Contents (Elt Ideal)) : (⟨S150000x1, .f32⟩ : BufTy).Contents (Elt Ideal) :=
  shapeCast S150000x1 (val_main_v11 (F := Ideal) e) shapeCasts_S150000_S150000x1

/-- The host's aggregation of a node table over the edges: row `src e` of the table is gathered for every edge `e`
    and added into row `dst e` of a zero table. -/
def segK (e : (⟨S2x2400000, .i32⟩ : BufTy).Contents (Elt Ideal)) (Y : (⟨S150000x32, .bf16⟩ : BufTy).Contents (Elt Ideal)) :
    (⟨S150000x32, .f32⟩ : BufTy).Contents (Elt Ideal) :=
  Host.scatterAdd (F := Ideal) (φ := .f32) scatter_S150000x32_S2400000x1_S2400000x32_1_0_0_1 (val_main_v37 (F := Ideal)) (val_main_v38 (F := Ideal) e)
    (extf (F := Ideal) (φ := .bf16) .f32 (Host.gather gather_S150000x32_S2400000x1_S2400000x32_1_0_n_n_0_1_132 Y (val_main_v17 (F := Ideal) e)) bitsLt_bf16_f32)

/-! ## Stretch 0: the edge lists and the degree column -/

theorem W1_v1 : W1 (F := Ideal) m ρ c (Proc.devRef .tc main_v1) = val_main_v1 (F := Ideal) (m ((c : Thread nD τ).loc main_arg1)) := by
  show StableHlo.after hostOps0 (W0 m ρ c) (Proc.devRef .tc main_v1) = _
  after_results; rfl
theorem W1_v3 : W1 (F := Ideal) m ρ c (Proc.devRef .tc main_v3) = val_main_v3 (F := Ideal) (m ((c : Thread nD τ).loc main_arg1)) := by
  show StableHlo.after hostOps0 (W0 m ρ c) (Proc.devRef .tc main_v3) = _
  after_results; rfl
theorem W1_v11 : W1 (F := Ideal) m ρ c (Proc.devRef .tc main_v11) = dcol (m ((c : Thread nD τ).loc main_arg1)) := by
  show StableHlo.after hostOps0 (W0 m ρ c) (Proc.devRef .tc main_v11) = _
  after_results; rfl
theorem W1_arg (b : Ref sig .tc) (hb : b = main_arg0 ∨ b = main_arg2) :
    W1 (F := Ideal) m ρ c (Proc.devRef .tc b) = m ((c : Thread nD τ).loc b) := by
  rcases hb with rfl | rfl <;>
  · show StableHlo.after hostOps0 (W0 m ρ c) (Proc.devRef .tc _) = _
    after_results

/-! ## Across region 0 -/

theorem W2_v1 : W2 (F := Ideal) m ρ c (Proc.devRef .tc main_v1) = val_main_v1 (F := Ideal) (m ((c : Thread nD τ).loc main_arg1)) :=
  (W2_of_ne m ρ c main_v1 (by decide)).trans (W1_v1 m ρ c)
theorem W2_v3 : W2 (F := Ideal) m ρ c (Proc.devRef .tc main_v3) = val_main_v3 (F := Ideal) (m ((c : Thread nD τ).loc main_arg1)) :=
  (W2_of_ne m ρ c main_v3 (by decide)).trans (W1_v3 m ρ c)
theorem W2_v11 : W2 (F := Ideal) m ρ c (Proc.devRef .tc main_v11) = dcol (m ((c : Thread nD τ).loc main_arg1)) :=
  ((W2_arr m ρ c 2).trans (((dat0 (V1 m ρ) c).arrAt_in 2 rfl _).trans (A_eq0 (V1 m ρ) c 2))).trans (W1_v11 m ρ c)

/-! ## Stretch 1: the first aggregation and the first bias as a row -/

theorem W3_v23 : W3 (F := Ideal) m ρ c (Proc.devRef .tc main_v23)
    = segK (m ((c : Thread nD τ).loc main_arg1)) (W2 m ρ c (Proc.devRef .tc main_v12)) := by
  show StableHlo.after hostOps1 (W2 m ρ c) (Proc.devRef .tc main_v23) = _
  after_results
  rw [W2_v1, W2_v3]
  rfl
theorem W3_v24 : W3 (F := Ideal) m ρ c (Proc.devRef .tc main_v24)
    = shapeCast S1x32 (W2 m ρ c (Proc.devRef .tc main_arg3)) shapeCasts_S32_S1x32 := by
  show StableHlo.after hostOps1 (W2 m ρ c) (Proc.devRef .tc main_v24) = _
  after_results
  rfl
theorem W3_keep (b : Ref sig .tc) (hb : b = main_v12 ∨ b = main_v11 ∨ b = main_arg4 ∨ b = main_v1 ∨ b = main_v3) :
    W3 (F := Ideal) m ρ c (Proc.devRef .tc b) = W2 m ρ c (Proc.devRef .tc b) := by
  rcases hb with rfl | rfl | rfl | rfl | rfl <;>
  · show StableHlo.after hostOps1 (W2 m ρ c) (Proc.devRef .tc _) = _
    after_results

/-! ## The argument arrays at every boundary

No host operation and no region writes an argument array, so each boundary holds it as launched. -/

theorem W1_args (b : Ref sig .tc) (hb : b = main_arg3 ∨ b = main_arg4 ∨ b = main_arg5 ∨ b = main_arg6 ∨ b = main_arg7 ∨ b = main_arg8
      ∨ b = main_arg9 ∨ b = main_arg10 ∨ b = main_arg11 ∨ b = main_arg12 ∨ b = main_arg13) :
    W1 (F := Ideal) m ρ c (Proc.devRef .tc b) = m ((c : Thread nD τ).loc b) := by
  rcases hb with rfl | rfl | rfl | rfl | rfl | rfl | rfl | rfl | rfl | rfl | rfl <;>
  · show StableHlo.after hostOps0 (W0 m ρ c) (Proc.devRef .tc _) = _
    after_results
theorem W2_args (b : Ref sig .tc) (hb : b = main_arg3 ∨ b = main_arg4 ∨ b = main_arg5 ∨ b = main_arg6 ∨ b = main_arg7 ∨ b = main_arg8
      ∨ b = main_arg9 ∨ b = main_arg10 ∨ b = main_arg11 ∨ b = main_arg12 ∨ b = main_arg13) :
    W2 (F := Ideal) m ρ c (Proc.devRef .tc b) = m ((c : Thread nD τ).loc b) := by
  refine Eq.trans ?_ (W1_args m ρ c b hb)
  rcases hb with rfl | rfl | rfl | rfl | rfl | rfl | rfl | rfl | rfl | rfl | rfl <;>
  exact W2_of_ne m ρ c _ (by decide)
theorem W3_args (b : Ref sig .tc) (hb : b = main_arg3 ∨ b = main_arg4 ∨ b = main_arg5 ∨ b = main_arg6 ∨ b = main_arg7 ∨ b = main_arg8
      ∨ b = main_arg9 ∨ b = main_arg10 ∨ b = main_arg11 ∨ b = main_arg12 ∨ b = main_arg13) :
    W3 (F := Ideal) m ρ c (Proc.devRef .tc b) = m ((c : Thread nD τ).loc b) := by
  refine Eq.trans ?_ (W2_args m ρ c b hb)
  rcases hb with rfl | rfl | rfl | rfl | rfl | rfl | rfl | rfl | rfl | rfl | rfl <;>
  · show StableHlo.after hostOps1 (W2 m ρ c) (Proc.devRef .tc _) = _
    after_results
theorem W4_args (b : Ref sig .tc) (hb : b = main_arg5 ∨ b = main_arg6 ∨ b = main_arg7 ∨ b = main_arg8
      ∨ b = main_arg9 ∨ b = main_arg10 ∨ b = main_arg11 ∨ b = main_arg12 ∨ b = main_arg13) :
    W4 (F := Ideal) m ρ c (Proc.devRef .tc b) = m ((c : Thread nD τ).loc b) := by
  refine Eq.trans ?_ (W3_args m ρ c b (Or.inr (Or.inr hb)))
  rcases hb with rfl | rfl | rfl | rfl | rfl | rfl | rfl | rfl | rfl <;>
  exact W4_of_ne m ρ c _ (by decide)
theorem W5_args (b : Ref sig .tc) (hb : b = main_arg6 ∨ b = main_arg8 ∨ b = main_arg10 ∨ b = main_arg12) :
    W5 (F := Ideal) m ρ c (Proc.devRef .tc b) = m ((c : Thread nD τ).loc b) := by
  refine Eq.trans ?_ (W4_args m ρ c b (by rcases hb with rfl | rfl | rfl | rfl <;> simp))
  rcases hb with rfl | rfl | rfl | rfl <;>
  · show StableHlo.after hostOps2 (W4 m ρ c) (Proc.devRef .tc _) = _
    after_results

/-! ## Across region 1 -/

theorem W4_v1 : W4 (F := Ideal) m ρ c (Proc.devRef .tc main_v1) = val_main_v1 (F := Ideal) (m ((c : Thread nD τ).loc main_arg1)) :=
  (W4_of_ne m ρ c main_v1 (by decide)).trans ((W3_keep m ρ c main_v1 (by simp)).trans (W2_v1 m ρ c))
theorem W4_v3 : W4 (F := Ideal) m ρ c (Proc.devRef .tc main_v3) = val_main_v3 (F := Ideal) (m ((c : Thread nD τ).loc main_arg1)) :=
  (W4_of_ne m ρ c main_v3 (by decide)).trans ((W3_keep m ρ c main_v3 (by simp)).trans (W2_v3 m ρ c))
theorem W4_v11 : W4 (F := Ideal) m ρ c (Proc.devRef .tc main_v11) = dcol (m ((c : Thread nD τ).loc main_arg1)) :=
  ((W4_arr m ρ c 2).trans (((dat1 (V3 m ρ) c).arrAt_in 2 rfl _).trans (A_eq1 (V3 m ρ) c 2))).trans
    ((W3_keep m ρ c main_v11 (by simp)).trans (W2_v11 m ρ c))

/-! ## Stretch 2: the second aggregation and the remaining biases as rows -/

theorem W5_v36 : W5 (F := Ideal) m ρ c (Proc.devRef .tc main_v36)
    = segK (m ((c : Thread nD τ).loc main_arg1)) (W4 m ρ c (Proc.devRef .tc main_v25)) := by
  show StableHlo.after hostOps2 (W4 m ρ c) (Proc.devRef .tc main_v36) = _
  after_results
  rw [W4_v1, W4_v3]
  rfl
theorem W5_v37 : W5 (F := Ideal) m ρ c (Proc.devRef .tc main_v37)
    = shapeCast S1x32 (W4 m ρ c (Proc.devRef .tc main_arg5)) shapeCasts_S32_S1x32 := by
  show StableHlo.after hostOps2 (W4 m ρ c) (Proc.devRef .tc main_v37) = _
  after_results; rfl
theorem W5_v38 : W5 (F := Ideal) m ρ c (Proc.devRef .tc main_v38)
    = shapeCast S1x16 (W4 m ρ c (Proc.devRef .tc main_arg7)) shapeCasts_S16_S1x16 := by
  show StableHlo.after hostOps2 (W4 m ρ c) (Proc.devRef .tc main_v38) = _
  after_results; rfl
theorem W5_v39 : W5 (F := Ideal) m ρ c (Proc.devRef .tc main_v39)
    = shapeCast S1x1 (W4 m ρ c (Proc.devRef .tc main_arg9)) shapeCasts_S1_S1x1 := by
  show StableHlo.after hostOps2 (W4 m ρ c) (Proc.devRef .tc main_v39) = _
  after_results; rfl
theorem W5_v40 : W5 (F := Ideal) m ρ c (Proc.devRef .tc main_v40)
    = shapeCast S1x16 (W4 m ρ c (Proc.devRef .tc main_arg11)) shapeCasts_S16_S1x16 := by
  show StableHlo.after hostOps2 (W4 m ρ c) (Proc.devRef .tc main_v40) = _
  after_results; rfl
theorem W5_v41 : W5 (F := Ideal) m ρ c (Proc.devRef .tc main_v41)
    = shapeCast S1x6 (W4 m ρ c (Proc.devRef .tc main_arg13)) shapeCasts_S6_S1x6 := by
  show StableHlo.after hostOps2 (W4 m ρ c) (Proc.devRef .tc main_v41) = _
  after_results; rfl
theorem W5_keep (b : Ref sig .tc) (hb : b = main_v25 ∨ b = main_v11) :
    W5 (F := Ideal) m ρ c (Proc.devRef .tc b) = W4 m ρ c (Proc.devRef .tc b) := by
  rcases hb with rfl | rfl <;>
  · show StableHlo.after hostOps2 (W4 m ρ c) (Proc.devRef .tc _) = _
    after_results

/-! ## Stretch 3: the three column ranges of the heads array -/

theorem W7_v43 : W7 (F := Ideal) m ρ c (Proc.devRef .tc main_v43)
    = extractStridedSlice S150000x1 ![0, 0] (W6 m ρ c (Proc.devRef .tc main_v42_1)) slices_S150000x7_S150000x1_0_0 := by
  show StableHlo.after hostOps3 (W6 m ρ c) (Proc.devRef .tc main_v43) = _
  after_results
theorem W7_v44 : W7 (F := Ideal) m ρ c (Proc.devRef .tc main_v44)
    = extractStridedSlice S150000x3 ![0, 1] (W6 m ρ c (Proc.devRef .tc main_v42_1)) slices_S150000x7_S150000x3_0_1 := by
  show StableHlo.after hostOps3 (W6 m ρ c) (Proc.devRef .tc main_v44) = _
  after_results
theorem W7_v45 : W7 (F := Ideal) m ρ c (Proc.devRef .tc main_v45)
    = extractStridedSlice S150000x3 ![0, 4] (W6 m ρ c (Proc.devRef .tc main_v42_1)) slices_S150000x7_S150000x3_0_4 := by
  show StableHlo.after hostOps3 (W6 m ρ c) (Proc.devRef .tc main_v45) = _
  after_results
theorem W7_v42_0 : W7 (F := Ideal) m ρ c (Proc.devRef .tc main_v42_0) = W6 m ρ c (Proc.devRef .tc main_v42_0) := by
  show StableHlo.after hostOps3 (W6 m ρ c) (Proc.devRef .tc main_v42_0) = _
  after_results

end Cert.KernelIdeal.Whole

end
-- ==== Proof.Region0.lean ====
/- The first layer's linear map, block by block and as one array.

   Region 0 of the program computes, for a feature matrix X : [150000, 6], a weight matrix W : [6, 32] and a column
   D : [150000, 1] (the inverse square roots of the node degrees), the matrix

       y1[r, q] = (∑ k, X[r, k] · W[k, q]) · D[r, 0]        (r < 150000, q < 32)

   over a grid of 15 points, point t handling rows 10000·t … 10000·t + 9999.  At the ideal values every format change is
   the identity and a matrix product into the zero accumulator is the plain sum, so the block a point writes back is
   exactly the restriction of y1 to its rows; the 15 row blocks tile the array, hence the array after the region is y1.
   The region-entry contents V stay a parameter throughout. -/
import proofs.«132109_j42992622632991_2_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

/-! ## The specification -/

/-- The first layer's output as one function of the three arrays, index by index: row r of X times column q of W,
    scaled by the r-th inverse square-root degree. -/
def y1Of (X : S150000x6.Idx → EReal) (W : S6x32.Idx → EReal) (D : S150000x1.Idx → EReal) : S150000x32.Idx → EReal :=
  fun i => (∑ k : Fin 6, X (ix2 (i 0) k) * W (ix2 k (i 1))) * D (ix2 (i 0) 0)

/-- The same, at an index given by its two coordinates. -/
theorem y1Of_ix2 (X : S150000x6.Idx → EReal) (W : S6x32.Idx → EReal) (D : S150000x1.Idx → EReal) (r : Fin 150000) (q : Fin 32) :
    y1Of X W D (ix2 r q) = (∑ k : Fin 6, X (ix2 r k) * W (ix2 k q)) * D (ix2 r 0) := rfl

namespace Region0

/-! ## One block's arithmetic at an element -/

/-- The [10000, 6] × [6, 32] product's left operand index at output (p, q) and contraction position k is (p, k) … -/
theorem lhs_rows (i : S10000x32.Idx) (κ : dot_S10000x6_S6x32_S10000x32_1_0_0_1_n_n.contr.Idx) :
    (dot_S10000x6_S6x32_S10000x32_1_0_0_1_n_n.lhsIdx i κ 0).val = (i 0).val := by
  unfold DotDims.lhsIdx
  rw [dif_neg (show ¬(0 : Fin S10000x6.rank) ∈ dot_S10000x6_S6x32_S10000x32_1_0_0_1_n_n.lhsBatch by decide), dif_pos (show (0 : Fin S10000x6.rank) ∈ dot_S10000x6_S6x32_S10000x32_1_0_0_1_n_n.lhsNonContracting by decide)]
  rfl

/-- … and its right operand index is (k, q). -/
theorem rhs_cols (i : S10000x32.Idx) (κ : dot_S10000x6_S6x32_S10000x32_1_0_0_1_n_n.contr.Idx) :
    (dot_S10000x6_S6x32_S10000x32_1_0_0_1_n_n.rhsIdx i κ 1).val = (i 1).val := by
  unfold DotDims.rhsIdx
  rw [dif_neg (show ¬(1 : Fin S6x32.rank) ∈ dot_S10000x6_S6x32_S10000x32_1_0_0_1_n_n.rhsBatch by decide), dif_pos (show (1 : Fin S6x32.rank) ∈ dot_S10000x6_S6x32_S10000x32_1_0_0_1_n_n.rhsNonContracting by decide)]
  rfl

/-- The block's matrix product into the zero accumulator, at element (p, q): the sum over the six shared coordinates. -/
theorem blockProduct_apply (L : FVec Ideal S10000x6 .bf16) (R : FVec Ideal S6x32 .bf16) (p : Fin 10000) (q : Fin 32) :
    matmul dot_S10000x6_S6x32_S10000x32_1_0_0_1_n_n none L R (constant (F := Ideal) S10000x32 .f32 0x00000000#32) (ix2 p q)
      = ∑ k : Fin 6, L (ix2 p k) * R (ix2 k q) := by
  simp only [matmul]
  rw [Ideal.matmul_constant_zero_apply, ← Equiv.sum_comp (contrEquiv1 dot_S10000x6_S6x32_S10000x32_1_0_0_1_n_n 6 rfl rfl).symm]
  refine Finset.sum_congr rfl fun k _ => ?_
  have hk := contrEquiv1_symm_val dot_S10000x6_S6x32_S10000x32_1_0_0_1_n_n 6 rfl rfl k
  have el : dot_S10000x6_S6x32_S10000x32_1_0_0_1_n_n.lhsIdx (ix2 p q) ((contrEquiv1 dot_S10000x6_S6x32_S10000x32_1_0_0_1_n_n 6 rfl rfl).symm k) = ix2 p k := funext fun a => Fin.ext (by
    match a with
    | ⟨0, _⟩ => exact lhs_rows _ _
    | ⟨1, _⟩ => exact (dot_S10000x6_S6x32_S10000x32_1_0_0_1_n_n.lhsIdx_val_of_single rfl _ _).trans hk)
  have er : dot_S10000x6_S6x32_S10000x32_1_0_0_1_n_n.rhsIdx (ix2 p q) ((contrEquiv1 dot_S10000x6_S6x32_S10000x32_1_0_0_1_n_n 6 rfl rfl).symm k) = ix2 k q := funext fun a => Fin.ext (by
    match a with
    | ⟨0, _⟩ => exact (dot_S10000x6_S6x32_S10000x32_1_0_0_1_n_n.rhsIdx_val_of_single rfl _ _).trans hk
    | ⟨1, _⟩ => exact rhs_cols _ _)
  rw [el, er]

/-- The column [10000, 1] broadcast along the 32 lanes reads, at (p, q), the column's entry p. -/
theorem columnBroadcast_apply (x : FVec Ideal S10000x1 .f32) (p : Fin 10000) (q : Fin 32) :
    broadcastTo S10000x32 x broadcasts_S10000x1_S10000x32 (ix2 p q) = x (ix2 p 0) :=
  broadcastTo_apply x broadcasts_S10000x1_S10000x32 (ix2 p q) (ix2 p 0) fun a => by
    match a with
    | ⟨0, _⟩ => rfl
    | ⟨1, _⟩ => rfl

/-- WHAT ONE POINT COMPUTES, at element (p, q) of its block: the product of row p of the feature block with column q of
    the weights, scaled by entry p of the column block. -/
theorem linearBlock_apply (x0 : Vec Ideal S10000x6 .f32) (x1 : Vec Ideal S6x32 .f32) (x2 : Vec Ideal S10000x1 .f32) (p : Fin 10000) (q : Fin 32) :
    k0_pay1 (F := Ideal) x0 x1 x2 (ix2 p q) = (∑ k : Fin 6, x0 (ix2 p k) * x1 (ix2 k q)) * x2 (ix2 p 0) := by
  unfold k0_pay1
  rw [truncf_apply, mulf_apply, blockProduct_apply, shapeCast_self, columnBroadcast_apply]
  rfl

/-! ## The blocks as rows of the arrays -/

variable (V : (c : Dev nD) → (b : Ref sig .tc) → Buf (Elt Ideal) ((c : Thread nD τ).loc b))

theorem zeroOffsets : (![0, 0] : Fin 2 → Nat) = fun _ => 0 := funext fun a => by fin_cases a <;> rfl

/-- The block index maps over the 15 points: the feature, column and output windows move down the rows with the point,
    the weight window stays at its one block. -/
theorem blockIndex : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The feature block at point t is rows 10000·t … 10000·t + 9999 of the feature array. -/
theorem featureBlock_apply (c : Dev nD) (t : Fin cfg0.N) (p : Fin 10000) (k : Fin 6) (r : Fin 150000)
    (hr : r.val = t.val * 10000 + p.val) :
    (iblk0 V c 0 t : Vec Ideal S10000x6 .f32) (ix2 p k) = (V c (Pipeline.arrRef spec0 0) : S150000x6.Idx → EReal) (ix2 r k) := by
  obtain ⟨e0, e1, -⟩ := blockIndex t
  unfold iblk0
  rw [View.read_apply]
  show V c (Pipeline.arrRef spec0 0) _ = V c (Pipeline.arrRef spec0 0) _
  congr 1
  funext a
  apply Fin.ext
  match a with
  | ⟨0, _⟩ => show win0_0.index t (0 : Fin 2) * 10000 + 1 * p.val = r.val; rw [e0, hr]; omega
  | ⟨1, _⟩ => show win0_0.index t (1 : Fin 2) * 6 + 1 * k.val = k.val; rw [e1]; omega

/-- The weight block at every point is the whole weight array. -/
theorem weightBlock_apply (c : Dev nD) (t : Fin cfg0.N) (k : Fin 6) (q : Fin 32) :
    (iblk0 V c 1 t : Vec Ideal S6x32 .f32) (ix2 k q) = (V c (Pipeline.arrRef spec0 1) : S6x32.Idx → EReal) (ix2 k q) := by
  obtain ⟨-, -, e2, e3, -⟩ := blockIndex t
  unfold iblk0
  rw [View.read_apply]
  show V c (Pipeline.arrRef spec0 1) _ = V c (Pipeline.arrRef spec0 1) _
  congr 1
  funext a
  apply Fin.ext
  match a with
  | ⟨0, _⟩ => show win0_1.index t (0 : Fin 2) * 6 + 1 * k.val = k.val; rw [e2]; omega
  | ⟨1, _⟩ => show win0_1.index t (1 : Fin 2) * 32 + 1 * q.val = q.val; rw [e3]; omega

/-- The column block at point t is entries 10000·t … 10000·t + 9999 of the column. -/
theorem columnBlock_apply (c : Dev nD) (t : Fin cfg0.N) (p : Fin 10000) (r : Fin 150000)
    (hr : r.val = t.val * 10000 + p.val) :
    (iblk0 V c 2 t : Vec Ideal S10000x1 .f32) (ix2 p 0) = (V c (Pipeline.arrRef spec0 2) : S150000x1.Idx → EReal) (ix2 r 0) := by
  obtain ⟨-, -, -, -, e4, e5, -⟩ := blockIndex t
  unfold iblk0
  rw [View.read_apply]
  show V c (Pipeline.arrRef spec0 2) _ = V c (Pipeline.arrRef spec0 2) _
  congr 1
  funext a
  apply Fin.ext
  match a with
  | ⟨0, _⟩ => show win0_2.index t (0 : Fin 2) * 10000 + 1 * p.val = r.val; rw [e4, hr]; omega
  | ⟨1, _⟩ => show win0_2.index t (1 : Fin 2) * 1 + 1 * 0 = 0; rw [e5]

/-! ## What a point writes back -/

/-- A block computed from rows 10000·n … of the arrays is the same rows of y1: element (p, q) of the block is element
    (10000·n + p, q) of y1. -/
theorem linearBlock_eq (X : S150000x6.Idx → EReal) (W : S6x32.Idx → EReal) (D : S150000x1.Idx → EReal)
    (x0 : Vec Ideal S10000x6 .f32) (x1 : Vec Ideal S6x32 .f32) (x2 : Vec Ideal S10000x1 .f32) (n : Nat)
    (h0 : ∀ (p : Fin 10000) (k : Fin 6) (r : Fin 150000), r.val = n * 10000 + p.val → x0 (ix2 p k) = X (ix2 r k))
    (h1 : ∀ (k : Fin 6) (q : Fin 32), x1 (ix2 k q) = W (ix2 k q))
    (h2 : ∀ (p : Fin 10000) (r : Fin 150000), r.val = n * 10000 + p.val → x2 (ix2 p 0) = D (ix2 r 0))
    (j : S10000x32.Idx) (i : S150000x32.Idx) (hi0 : (i 0).val = n * 10000 + (j 0).val) (hi1 : (i 1).val = (j 1).val) :
    k0_pay1 (F := Ideal) x0 x1 x2 j = y1Of X W D i := by
  obtain ⟨p, q, rfl⟩ : ∃ (p : Fin 10000) (q : Fin 32), j = ix2 p q := ⟨j 0, j 1, eq_ix2 j⟩
  obtain ⟨r, s, rfl⟩ : ∃ (r : Fin 150000) (s : Fin 32), i = ix2 r s := ⟨i 0, i 1, eq_ix2 i⟩
  obtain rfl : s = q := Fin.ext hi1
  rw [linearBlock_apply, y1Of_ix2, h2 p r hi0]
  congr 1
  exact Finset.sum_congr rfl fun k _ => by rw [h0 p k r hi0, h1]

/-- WHAT POINT t WRITES BACK is block t of y1 of the arrays as the region finds them. -/
theorem flushed_eq (c : Dev nD) (t : Fin cfg0.N) :
    (dat0 V c).flushed 3 t = ((cfg0.win 3).blk t).view.read (Elt Ideal)
      (y1Of (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero zeroOffsets]
  simp only [View.ld_unit_zero (S := S10000x6) zeroOffsets, View.ld_unit_zero (S := S6x32) zeroOffsets, View.ld_unit_zero (S := S10000x1) zeroOffsets]
  obtain ⟨-, -, -, -, -, -, e6, e7⟩ := blockIndex t
  funext j
  show k0_pay1 (F := Ideal) (iblk0 V c 0 t) (iblk0 V c 1 t) (iblk0 V c 2 t) j
    = y1Of (V c (Pipeline.arrRef spec0 0)) (V c (Pipeline.arrRef spec0 1)) (V c (Pipeline.arrRef spec0 2)) (((cfg0.win 3).blk t).view.emb j)
  refine linearBlock_eq _ _ _ _ _ _ t.val (fun p k r hr => featureBlock_apply V c t p k r hr) (fun k q => weightBlock_apply V c t k q)
    (fun p r hr => columnBlock_apply V c t p r hr) _ _ ?_ ?_
  · show win0_3.index t (0 : Fin 2) * 10000 + 1 * (j 0).val = t.val * 10000 + (j 0).val; rw [e6]; omega
  · show win0_3.index t (1 : Fin 2) * 32 + 1 * (j 1).val = (j 1).val; rw [e7]; omega

/-! ## The row blocks tile the array -/

/-- An index of the array is in point t's block iff each coordinate is in the block's range on its axis. -/
theorem mem_rowBlock (t : Fin cfg0.N) (i : S150000x32.Idx) :
    i ∈ ((cfg0.win 3).blk t).view.set ↔ ∀ a : Fin 2, win0_3.index t a * S10000x32.size a ≤ (i a).val ∧ (i a).val < win0_3.index t a * S10000x32.size a + S10000x32.size a := by
  show i ∈ ((View.whole main_v12).slice (win0_3.rect t)).set ↔ _
  rw [View.set_slice_whole, Rect.mem_set_unit]
  exact Iff.rfl

/-- Row r lies in the block of point r / 10000, and every point writes its block back. -/
theorem rowBlocks_cover (i : S150000x32.Idx) :
    ∃ t : Fin cfg0.N, (cfg0.win 3).flush t = true ∧ i ∈ ((cfg0.win 3).blk t).view.set := by
  have hi0 : (i 0).val < 150000 := (i 0).isLt
  have hi1 : (i 1).val < 32 := (i 1).isLt
  have hN : cfg0.N = 15 := N_0
  have ht : (i 0).val / 10000 < cfg0.N := by rw [hN]; omega
  obtain ⟨-, -, -, -, -, -, e6, e7⟩ := blockIndex ⟨(i 0).val / 10000, ht⟩
  refine ⟨⟨(i 0).val / 10000, ht⟩, flush0_3 _, ?_⟩
  rw [mem_rowBlock]
  intro a
  match a with
  | ⟨0, _⟩ =>
    show win0_3.index ⟨(i 0).val / 10000, ht⟩ (0 : Fin 2) * 10000 ≤ (i 0).val ∧ (i 0).val < win0_3.index ⟨(i 0).val / 10000, ht⟩ (0 : Fin 2) * 10000 + 10000
    rw [e6]; show (i 0).val / 10000 * 10000 ≤ (i 0).val ∧ (i 0).val < (i 0).val / 10000 * 10000 + 10000; omega
  | ⟨1, _⟩ =>
    show win0_3.index ⟨(i 0).val / 10000, ht⟩ (1 : Fin 2) * 32 ≤ (i 1).val ∧ (i 1).val < win0_3.index ⟨(i 0).val / 10000, ht⟩ (1 : Fin 2) * 32 + 32
    rw [e7]; omega

end Region0

/-! ## The array after the region -/

variable (V : (c : Dev nD) → (b : Ref sig .tc) → Buf (Elt Ideal) ((c : Thread nD τ).loc b))

/-- THE FIRST LAYER'S OUTPUT ARRAY after region 0 is y1 of the feature, weight and column arrays as the region finds them. -/
theorem final0 (c : Dev nD) :
    (dat0 (F := Ideal) V c).arrAt 3 cfg0.N
      = y1Of (V c (Pipeline.arrRef spec0 0)) (V c (Pipeline.arrRef spec0 1)) (V c (Pipeline.arrRef spec0 2)) :=
  (dat0 V c).arrAt_eq_of_cover 3 _ (fun t _ => Region0.flushed_eq V c t) Region0.rowBlocks_cover

end Cert.KernelIdeal.Blocks

end
-- ==== Proof.Region1.lean ====
/- The second layer's input map, block by block and as one array.

   Region 1 of the program takes the segment sums S : [150000, 32], the first layer's output Y : [150000, 32], the column
   D : [150000, 1] of inverse square-root degrees, a bias row B : [1, 32] and a weight matrix W : [32, 32], and computes

       h[r, k]  = max (D[r, 0] · (S[r, k] + Y[r, k]) + B[0, k]) 0          (the normalised, biased, rectified hidden layer)
       y2[r, q] = (∑ k, h[r, k] · W[k, q]) · D[r, 0]                        (r < 150000, q < 32)

   over a grid of 25 points, point t handling rows 6000·t … 6000·t + 5999.  At the ideal values every format change is
   the identity and a matrix product into the zero accumulator is the plain sum, so the block a point writes back is
   exactly the restriction of y2 to its rows; the 25 row blocks tile the array, hence the array after the region is y2.
   The zero of the rectifier is kept as the word it is written with, never evaluated.  The region-entry contents V stay a
   parameter throughout. -/
import proofs.«132109_j42992622632991_2_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

/-! ## The specification -/

/-- The second layer's pre-aggregation output as one function of the five arrays, index by index: row r of the rectified
    hidden layer max (D·(S + Y) + B) 0 times column q of W, scaled by the r-th inverse square-root degree. -/
def y2Of (Sg : S150000x32.Idx → EReal) (Y : S150000x32.Idx → EReal) (D : S150000x1.Idx → EReal) (B : S1x32.Idx → EReal)
    (W : S32x32.Idx → EReal) : S150000x32.Idx → EReal :=
  fun i => (∑ k : Fin 32, max (D (ix2 (i 0) 0) * (Sg (ix2 (i 0) k) + Y (ix2 (i 0) k)) + B (ix2 0 k)) (Ideal.ofBits .f32 0x00000000#32)
      * W (ix2 k (i 1))) * D (ix2 (i 0) 0)

/-- The same, at an index given by its two coordinates. -/
theorem y2Of_ix2 (Sg : S150000x32.Idx → EReal) (Y : S150000x32.Idx → EReal) (D : S150000x1.Idx → EReal) (B : S1x32.Idx → EReal)
    (W : S32x32.Idx → EReal) (r : Fin 150000) (q : Fin 32) :
    y2Of Sg Y D B W (ix2 r q)
      = (∑ k : Fin 32, max (D (ix2 r 0) * (Sg (ix2 r k) + Y (ix2 r k)) + B (ix2 0 k)) (Ideal.ofBits .f32 0x00000000#32) * W (ix2 k q))
        * D (ix2 r 0) := rfl

namespace Region1

/-! ## One block's arithmetic at an element -/

/-- The [6000, 32] × [32, 32] product's left operand index at output (p, q) and contraction position k is (p, k) … -/
theorem lhs_rows (i : S6000x32.Idx) (κ : dot_S6000x32_S32x32_S6000x32_1_0_0_1_n_n.contr.Idx) :
    (dot_S6000x32_S32x32_S6000x32_1_0_0_1_n_n.lhsIdx i κ 0).val = (i 0).val := by
  unfold DotDims.lhsIdx
  rw [dif_neg (show ¬(0 : Fin S6000x32.rank) ∈ dot_S6000x32_S32x32_S6000x32_1_0_0_1_n_n.lhsBatch by decide), dif_pos (show (0 : Fin S6000x32.rank) ∈ dot_S6000x32_S32x32_S6000x32_1_0_0_1_n_n.lhsNonContracting by decide)]
  rfl

/-- … and its right operand index is (k, q). -/
theorem rhs_cols (i : S6000x32.Idx) (κ : dot_S6000x32_S32x32_S6000x32_1_0_0_1_n_n.contr.Idx) :
    (dot_S6000x32_S32x32_S6000x32_1_0_0_1_n_n.rhsIdx i κ 1).val = (i 1).val := by
  unfold DotDims.rhsIdx
  rw [dif_neg (show ¬(1 : Fin S32x32.rank) ∈ dot_S6000x32_S32x32_S6000x32_1_0_0_1_n_n.rhsBatch by decide), dif_pos (show (1 : Fin S32x32.rank) ∈ dot_S6000x32_S32x32_S6000x32_1_0_0_1_n_n.rhsNonContracting by decide)]
  rfl

/-- The block's matrix product into the zero accumulator, at element (p, q): the sum over the 32 shared coordinates. -/
theorem blockProduct_apply (L : FVec Ideal S6000x32 .bf16) (R : FVec Ideal S32x32 .bf16) (p : Fin 6000) (q : Fin 32) :
    matmul dot_S6000x32_S32x32_S6000x32_1_0_0_1_n_n none L R (constant (F := Ideal) S6000x32 .f32 0x00000000#32) (ix2 p q)
      = ∑ k : Fin 32, L (ix2 p k) * R (ix2 k q) := by
  simp only [matmul]
  rw [Ideal.matmul_constant_zero_apply, ← Equiv.sum_comp (contrEquiv1 dot_S6000x32_S32x32_S6000x32_1_0_0_1_n_n 32 rfl rfl).symm]
  refine Finset.sum_congr rfl fun k _ => ?_
  have hk := contrEquiv1_symm_val dot_S6000x32_S32x32_S6000x32_1_0_0_1_n_n 32 rfl rfl k
  have el : dot_S6000x32_S32x32_S6000x32_1_0_0_1_n_n.lhsIdx (ix2 p q) ((contrEquiv1 dot_S6000x32_S32x32_S6000x32_1_0_0_1_n_n 32 rfl rfl).symm k) = ix2 p k := funext fun a => Fin.ext (by
    match a with
    | ⟨0, _⟩ => exact lhs_rows _ _
    | ⟨1, _⟩ => exact (dot_S6000x32_S32x32_S6000x32_1_0_0_1_n_n.lhsIdx_val_of_single rfl _ _).trans hk)
  have er : dot_S6000x32_S32x32_S6000x32_1_0_0_1_n_n.rhsIdx (ix2 p q) ((contrEquiv1 dot_S6000x32_S32x32_S6000x32_1_0_0_1_n_n 32 rfl rfl).symm k) = ix2 k q := funext fun a => Fin.ext (by
    match a with
    | ⟨0, _⟩ => exact (dot_S6000x32_S32x32_S6000x32_1_0_0_1_n_n.rhsIdx_val_of_single rfl _ _).trans hk
    | ⟨1, _⟩ => exact rhs_cols _ _)
  rw [el, er]

/-- The column [6000, 1] broadcast along the 32 lanes reads, at (p, q), the column's entry p. -/
theorem columnBroadcast_apply (x : FVec Ideal S6000x1 .f32) (p : Fin 6000) (q : Fin 32) :
    broadcastTo S6000x32 x broadcasts_S6000x1_S6000x32 (ix2 p q) = x (ix2 p 0) :=
  broadcastTo_apply x broadcasts_S6000x1_S6000x32 (ix2 p q) (ix2 p 0) fun a => by
    match a with
    | ⟨0, _⟩ => rfl
    | ⟨1, _⟩ => rfl

/-- The row [1, 32] broadcast down the 6000 rows reads, at (p, q), the row's entry q. -/
theorem rowBroadcast_apply (x : FVec Ideal S1x32 .f32) (p : Fin 6000) (q : Fin 32) :
    broadcastTo S6000x32 x broadcasts_S1x32_S6000x32 (ix2 p q) = x (ix2 0 q) :=
  broadcastTo_apply x broadcasts_S1x32_S6000x32 (ix2 p q) (ix2 0 q) fun a => by
    match a with
    | ⟨0, _⟩ => rfl
    | ⟨1, _⟩ => rfl

/-- WHAT ONE POINT COMPUTES, at element (p, q) of its block: row p of the rectified hidden block
    max (d·(s + y) + b) 0 times column q of the weights, scaled by entry p of the column block. -/
theorem hiddenLinearBlock_apply (xS : Vec Ideal S6000x32 .f32) (xY : Vec Ideal S6000x32 .bf16) (xD : Vec Ideal S6000x1 .f32)
    (xB : Vec Ideal S1x32 .f32) (xW : Vec Ideal S32x32 .f32) (p : Fin 6000) (q : Fin 32) :
    k1_pay1 (F := Ideal) xD xS xY xB xW xD (ix2 p q)
      = (∑ k : Fin 32, max (xD (ix2 p 0) * (xS (ix2 p k) + xY (ix2 p k)) + xB (ix2 0 k)) (Ideal.ofBits .f32 0x00000000#32) * xW (ix2 k q))
        * xD (ix2 p 0) := by
  unfold k1_pay1
  rw [truncf_apply, mulf_apply, blockProduct_apply, shapeCast_self, columnBroadcast_apply]
  congr 1
  refine Finset.sum_congr rfl fun k _ => ?_
  rw [truncf_apply, truncf_apply, maximumf_apply, addf_apply, mulf_apply, addf_apply, extf_apply, shapeCast_self, shapeCast_self,
    shapeCast_self, columnBroadcast_apply, rowBroadcast_apply]
  rfl

/-! ## The blocks as rows of the arrays -/

variable (V : (c : Dev nD) → (b : Ref sig .tc) → Buf (Elt Ideal) ((c : Thread nD τ).loc b))

theorem zeroOffsets : (![0, 0] : Fin 2 → Nat) = fun _ => 0 := funext fun a => by fin_cases a <;> rfl

/-- The block index maps over the 25 points: the segment-sum, first-layer, column and output windows move down the rows
    with the point, the bias and weight windows stay at their one block. -/
theorem blockIndex : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The segment-sum block at point t is rows 6000·t … 6000·t + 5999 of the segment-sum array. -/
theorem segmentBlock_apply (c : Dev nD) (t : Fin cfg1.N) (p : Fin 6000) (k : Fin 32) (r : Fin 150000)
    (hr : r.val = t.val * 6000 + p.val) :
    (iblk1 V c 0 t : Vec Ideal S6000x32 .f32) (ix2 p k) = (V c (Pipeline.arrRef spec1 0) : S150000x32.Idx → EReal) (ix2 r k) := by
  obtain ⟨e0, e1, -⟩ := blockIndex t
  unfold iblk1
  rw [View.read_apply]
  show V c (Pipeline.arrRef spec1 0) _ = V c (Pipeline.arrRef spec1 0) _
  congr 1
  funext a
  apply Fin.ext
  match a with
  | ⟨0, _⟩ => show win1_0.index t (0 : Fin 2) * 6000 + 1 * p.val = r.val; rw [e0, hr]; omega
  | ⟨1, _⟩ => show win1_0.index t (1 : Fin 2) * 32 + 1 * k.val = k.val; rw [e1]; omega

/-- The first-layer block at point t is the same rows of the first layer's output array. -/
theorem firstLayerBlock_apply (c : Dev nD) (t : Fin cfg1.N) (p : Fin 6000) (k : Fin 32) (r : Fin 150000)
    (hr : r.val = t.val * 6000 + p.val) :
    (iblk1 V c 1 t : Vec Ideal S6000x32 .bf16) (ix2 p k) = (V c (Pipeline.arrRef spec1 1) : S150000x32.Idx → EReal) (ix2 r k) := by
  obtain ⟨-, -, e2, e3, -⟩ := blockIndex t
  unfold iblk1
  rw [View.read_apply]
  show V c (Pipeline.arrRef spec1 1) _ = V c (Pipeline.arrRef spec1 1) _
  congr 1
  funext a
  apply Fin.ext
  match a with
  | ⟨0, _⟩ => show win1_1.index t (0 : Fin 2) * 6000 + 1 * p.val = r.val; rw [e2, hr]; omega
  | ⟨1, _⟩ => show win1_1.index t (1 : Fin 2) * 32 + 1 * k.val = k.val; rw [e3]; omega

/-- The column block at point t is entries 6000·t … 6000·t + 5999 of the column. -/
theorem columnBlock_apply (c : Dev nD) (t : Fin cfg1.N) (p : Fin 6000) (r : Fin 150000)
    (hr : r.val = t.val * 6000 + p.val) :
    (iblk1 V c 2 t : Vec Ideal S6000x1 .f32) (ix2 p 0) = (V c (Pipeline.arrRef spec1 2) : S150000x1.Idx → EReal) (ix2 r 0) := by
  obtain ⟨-, -, -, -, e4, e5, -⟩ := blockIndex t
  unfold iblk1
  rw [View.read_apply]
  show V c (Pipeline.arrRef spec1 2) _ = V c (Pipeline.arrRef spec1 2) _
  congr 1
  funext a
  apply Fin.ext
  match a with
  | ⟨0, _⟩ => show win1_2.index t (0 : Fin 2) * 6000 + 1 * p.val = r.val; rw [e4, hr]; omega
  | ⟨1, _⟩ => show win1_2.index t (1 : Fin 2) * 1 + 1 * 0 = 0; rw [e5]

/-- The bias block at every point is the whole bias row. -/
theorem biasBlock_apply (c : Dev nD) (t : Fin cfg1.N) (k : Fin 32) :
    (iblk1 V c 3 t : Vec Ideal S1x32 .f32) (ix2 0 k) = (V c (Pipeline.arrRef spec1 3) : S1x32.Idx → EReal) (ix2 0 k) := by
  obtain ⟨-, -, -, -, -, -, e6, e7, -⟩ := blockIndex t
  unfold iblk1
  rw [View.read_apply]
  show V c (Pipeline.arrRef spec1 3) _ = V c (Pipeline.arrRef spec1 3) _
  congr 1
  funext a
  apply Fin.ext
  match a with
  | ⟨0, _⟩ => show win1_3.index t (0 : Fin 2) * 1 + 1 * 0 = 0; rw [e6]
  | ⟨1, _⟩ => show win1_3.index t (1 : Fin 2) * 32 + 1 * k.val = k.val; rw [e7]; omega

/-- The weight block at every point is the whole weight array. -/
theorem weightBlock_apply (c : Dev nD) (t : Fin cfg1.N) (k : Fin 32) (q : Fin 32) :
    (iblk1 V c 4 t : Vec Ideal S32x32 .f32) (ix2 k q) = (V c (Pipeline.arrRef spec1 4) : S32x32.Idx → EReal) (ix2 k q) := by
  obtain ⟨-, -, -, -, -, -, -, -, e8, e9, -⟩ := blockIndex t
  unfold iblk1
  rw [View.read_apply]
  show V c (Pipeline.arrRef spec1 4) _ = V c (Pipeline.arrRef spec1 4) _
  congr 1
  funext a
  apply Fin.ext
  match a with
  | ⟨0, _⟩ => show win1_4.index t (0 : Fin 2) * 32 + 1 * k.val = k.val; rw [e8]; omega
  | ⟨1, _⟩ => show win1_4.index t (1 : Fin 2) * 32 + 1 * q.val = q.val; rw [e9]; omega

/-! ## What a point writes back -/

/-- A block computed from rows 6000·n … of the arrays is the same rows of y2: element (p, q) of the block is element
    (6000·n + p, q) of y2. -/
theorem hiddenLinearBlock_eq (Sg : S150000x32.Idx → EReal) (Y : S150000x32.Idx → EReal) (D : S150000x1.Idx → EReal)
    (B : S1x32.Idx → EReal) (W : S32x32.Idx → EReal)
    (xS : Vec Ideal S6000x32 .f32) (xY : Vec Ideal S6000x32 .bf16) (xD : Vec Ideal S6000x1 .f32) (xB : Vec Ideal S1x32 .f32)
    (xW : Vec Ideal S32x32 .f32) (n : Nat)
    (hS : ∀ (p : Fin 6000) (k : Fin 32) (r : Fin 150000), r.val = n * 6000 + p.val → xS (ix2 p k) = Sg (ix2 r k))
    (hY : ∀ (p : Fin 6000) (k : Fin 32) (r : Fin 150000), r.val = n * 6000 + p.val → xY (ix2 p k) = Y (ix2 r k))
    (hD : ∀ (p : Fin 6000) (r : Fin 150000), r.val = n * 6000 + p.val → xD (ix2 p 0) = D (ix2 r 0))
    (hB : ∀ k : Fin 32, xB (ix2 0 k) = B (ix2 0 k))
    (hW : ∀ (k : Fin 32) (q : Fin 32), xW (ix2 k q) = W (ix2 k q))
    (j : S6000x32.Idx) (i : S150000x32.Idx) (hi0 : (i 0).val = n * 6000 + (j 0).val) (hi1 : (i 1).val = (j 1).val) :
    k1_pay1 (F := Ideal) xD xS xY xB xW xD j = y2Of Sg Y D B W i := by
  obtain ⟨p, q, rfl⟩ : ∃ (p : Fin 6000) (q : Fin 32), j = ix2 p q := ⟨j 0, j 1, eq_ix2 j⟩
  obtain ⟨r, s, rfl⟩ : ∃ (r : Fin 150000) (s : Fin 32), i = ix2 r s := ⟨i 0, i 1, eq_ix2 i⟩
  obtain rfl : s = q := Fin.ext hi1
  rw [hiddenLinearBlock_apply, y2Of_ix2, hD p r hi0]
  congr 1
  exact Finset.sum_congr rfl fun k _ => by rw [hS p k r hi0, hY p k r hi0, hB, hW]

/-- WHAT POINT t WRITES BACK is block t of y2 of the arrays as the region finds them. -/
theorem flushed_eq (c : Dev nD) (t : Fin cfg1.N) :
    (dat1 V c).flushed 5 t = ((cfg1.win 5).blk t).view.read (Elt Ideal)
      (y2Of (V c (Pipeline.arrRef spec1 0)) (V c (Pipeline.arrRef spec1 1)) (V c (Pipeline.arrRef spec1 2))
        (V c (Pipeline.arrRef spec1 3)) (V c (Pipeline.arrRef spec1 4))) := by
  show (cfg1.win 5).cut (grid1.coords t) ((dat1 V c).after 5 t) = _
  rw [after1_5]
  unfold out1_5
  rw [View.canon_unit_zero zeroOffsets]
  simp only [View.ld_unit_zero (S := S6000x32) zeroOffsets, View.ld_unit_zero (S := S6000x1) zeroOffsets,
    View.ld_unit_zero (S := S1x32) zeroOffsets, View.ld_unit_zero (S := S32x32) zeroOffsets]
  obtain ⟨-, -, -, -, -, -, -, -, -, -, e10, e11⟩ := blockIndex t
  funext j
  show k1_pay1 (F := Ideal) (iblk1 V c 2 t) (iblk1 V c 0 t) (iblk1 V c 1 t) (iblk1 V c 3 t) (iblk1 V c 4 t) (iblk1 V c 2 t) j
    = y2Of (V c (Pipeline.arrRef spec1 0)) (V c (Pipeline.arrRef spec1 1)) (V c (Pipeline.arrRef spec1 2))
        (V c (Pipeline.arrRef spec1 3)) (V c (Pipeline.arrRef spec1 4)) (((cfg1.win 5).blk t).view.emb j)
  refine hiddenLinearBlock_eq _ _ _ _ _ _ _ _ _ _ t.val
    (fun p k r hr => segmentBlock_apply V c t p k r hr) (fun p k r hr => firstLayerBlock_apply V c t p k r hr)
    (fun p r hr => columnBlock_apply V c t p r hr) (fun k => biasBlock_apply V c t k) (fun k q => weightBlock_apply V c t k q) _ _ ?_ ?_
  · show win1_5.index t (0 : Fin 2) * 6000 + 1 * (j 0).val = t.val * 6000 + (j 0).val; rw [e10]; omega
  · show win1_5.index t (1 : Fin 2) * 32 + 1 * (j 1).val = (j 1).val; rw [e11]; omega

/-! ## The row blocks tile the array -/

/-- An index of the array is in point t's block iff each coordinate is in the block's range on its axis. -/
theorem mem_rowBlock (t : Fin cfg1.N) (i : S150000x32.Idx) :
    i ∈ ((cfg1.win 5).blk t).view.set ↔ ∀ a : Fin 2, win1_5.index t a * S6000x32.size a ≤ (i a).val ∧ (i a).val < win1_5.index t a * S6000x32.size a + S6000x32.size a := by
  show i ∈ ((View.whole main_v25).slice (win1_5.rect t)).set ↔ _
  rw [View.set_slice_whole, Rect.mem_set_unit]
  exact Iff.rfl

/-- Row r lies in the block of point r / 6000, and every point writes its block back. -/
theorem rowBlocks_cover (i : S150000x32.Idx) :
    ∃ t : Fin cfg1.N, (cfg1.win 5).flush t = true ∧ i ∈ ((cfg1.win 5).blk t).view.set := by
  have hi0 : (i 0).val < 150000 := (i 0).isLt
  have hi1 : (i 1).val < 32 := (i 1).isLt
  have hN : cfg1.N = 25 := N_1
  have ht : (i 0).val / 6000 < cfg1.N := by rw [hN]; omega
  obtain ⟨-, -, -, -, -, -, -, -, -, -, e10, e11⟩ := blockIndex ⟨(i 0).val / 6000, ht⟩
  refine ⟨⟨(i 0).val / 6000, ht⟩, flush1_5 _, ?_⟩
  rw [mem_rowBlock]
  intro a
  match a with
  | ⟨0, _⟩ =>
    show win1_5.index ⟨(i 0).val / 6000, ht⟩ (0 : Fin 2) * 6000 ≤ (i 0).val ∧ (i 0).val < win1_5.index ⟨(i 0).val / 6000, ht⟩ (0 : Fin 2) * 6000 + 6000
    rw [e10]; show (i 0).val / 6000 * 6000 ≤ (i 0).val ∧ (i 0).val < (i 0).val / 6000 * 6000 + 6000; omega
  | ⟨1, _⟩ =>
    show win1_5.index ⟨(i 0).val / 6000, ht⟩ (1 : Fin 2) * 32 ≤ (i 1).val ∧ (i 1).val < win1_5.index ⟨(i 0).val / 6000, ht⟩ (1 : Fin 2) * 32 + 32
    rw [e11]; omega

end Region1

/-! ## The array after the region -/

variable (V : (c : Dev nD) → (b : Ref sig .tc) → Buf (Elt Ideal) ((c : Thread nD τ).loc b))

/-- THE SECOND LAYER'S PRE-AGGREGATION ARRAY after region 1 is y2 of the segment-sum, first-layer, column, bias and weight
    arrays as the region finds them. -/
theorem final1 (c : Dev nD) :
    (dat1 (F := Ideal) V c).arrAt 5 cfg1.N
      = y2Of (V c (Pipeline.arrRef spec1 0)) (V c (Pipeline.arrRef spec1 1)) (V c (Pipeline.arrRef spec1 2))
          (V c (Pipeline.arrRef spec1 3)) (V c (Pipeline.arrRef spec1 4)) :=
  (dat1 V c).arrAt_eq_of_cover 5 _ (fun t _ => Region1.flushed_eq V c t) Region1.rowBlocks_cover

end Cert.KernelIdeal.Blocks

end
-- ==== Proof.Values.lean ====
/-
  What each Pallas region leaves, as a function of the argument arrays.

  Each region's output array is one index-by-index function of the arrays the region finds at its entry; the entry
  contents are what the host stretch before it computed. Composing the two along the run names the first layer's
  scaled node table `y1K` and the second layer's `y2K` in terms of the arguments alone.
-/
import proofs.«132109_j42992622632991_2_alg».proof.Proof.Chain
import proofs.«132109_j42992622632991_2_alg».proof.Proof.Region0
import proofs.«132109_j42992622632991_2_alg».proof.Proof.Region1

set_option maxRecDepth 16384

noncomputable section

namespace Cert.KernelIdeal.Whole

open Cert.KernelIdeal Cert.KernelIdeal.Gen Cert.ReferenceIdeal.Read Cert.KernelIdeal.Blocks
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The first layer's node table scaled by the degree factor: `(x · W1) · dinv`, row by row. -/
def y1K : S150000x32.Idx → EReal :=
  y1Of (m ((c : Thread nD τ).loc main_arg0)) (m ((c : Thread nD τ).loc main_arg2)) (dcol (m ((c : Thread nD τ).loc main_arg1)))

/-- The first bias as the row `[1, 32]` region 1 reads. -/
def b1row : S1x32.Idx → EReal := shapeCast S1x32 (m ((c : Thread nD τ).loc main_arg3)) shapeCasts_S32_S1x32

/-- The second layer's scaled node table: `(relu (dinv · (Σ_edges y1 + y1) + b1) · W2) · dinv`. -/
def y2K : S150000x32.Idx → EReal :=
  y2Of (segK (m ((c : Thread nD τ).loc main_arg1)) (y1K m c)) (y1K m c) (dcol (m ((c : Thread nD τ).loc main_arg1)))
    (b1row m c) (m ((c : Thread nD τ).loc main_arg4))

theorem W2_v12 : W2 (F := Ideal) m ρ c (Proc.devRef .tc main_v12) = y1K m c := by
  refine (W2_arr m ρ c 3).trans ?_
  rw [final0 (V1 m ρ) c]
  show y1Of (W1 m ρ c (Proc.devRef .tc main_arg0)) (W1 m ρ c (Proc.devRef .tc main_arg2)) (W1 m ρ c (Proc.devRef .tc main_v11)) = _
  rw [W1_arg m ρ c main_arg0 (Or.inl rfl), W1_arg m ρ c main_arg2 (Or.inr rfl), W1_v11]
  rfl

theorem W4_v25 : W4 (F := Ideal) m ρ c (Proc.devRef .tc main_v25) = y2K m c := by
  refine (W4_arr m ρ c 5).trans ?_
  rw [final1 (V3 m ρ) c]
  show y2Of (W3 m ρ c (Proc.devRef .tc main_v23)) (W3 m ρ c (Proc.devRef .tc main_v12)) (W3 m ρ c (Proc.devRef .tc main_v11))
    (W3 m ρ c (Proc.devRef .tc main_v24)) (W3 m ρ c (Proc.devRef .tc main_arg4)) = _
  rw [W3_v23, W3_keep m ρ c main_v12 (Or.inl rfl), W3_keep m ρ c main_v11 (Or.inr (Or.inl rfl)), W3_v24,
    W3_args m ρ c main_arg4 (Or.inr (Or.inl rfl)), W2_v12, W2_v11, W2_args m ρ c main_arg3 (Or.inl rfl)]
  rfl

end Cert.KernelIdeal.Whole

end
-- ==== Proof.Region2Payload.lean ====
/-
  One row block of the second graph-convolution layer and of the two heads, read at one entry, at the ideal values.

  A row block holds 6000 nodes. Its feature rows are
      feat p q = d p * (s p q + y p q) + b q
  (the node's inverse-root degree times the sum of its neighbour sum and its own row, plus the bias). Each head is a
  two-layer perceptron on a feature row: hidden unit k is  max (∑ c, feat p c * W₁ c k + b₁ k) 0  and output column q
  is  ∑ k, hidden k * W₂ k q + b₂ q.  At the ideal values a narrowing or widening format change is the identity, and a
  block product into the zero accumulator is the plain sum over the contracted axis; the zero that the rectifier
  compares against is kept as the word it is printed as.
-/
import proofs.«132109_j42992622632991_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.Blocks

open Cert.KernelIdeal Cert.KernelIdeal.Gen

/-! ## The specification: the feature rows, a head's hidden layer and the heads' rows, over whole arrays -/

/-- The second layer's output rows: the inverse-root degree times (neighbour sum + own row), plus the bias. -/
def featOf (S : S150000x32.Idx → EReal) (Y : S150000x32.Idx → EReal) (D : S150000x1.Idx → EReal)
    (B2 : S1x32.Idx → EReal) : S150000x32.Idx → EReal :=
  fun i => D (ix2 (i 0) 0) * (S i + Y i) + B2 (ix2 0 (i 1))

/-- A head's hidden layer on the feature rows: hidden unit `k` of node `p`, rectified against the zero word. -/
def hid (Fe : S150000x32.Idx → EReal) (Wh : S32x16.Idx → EReal) (bh : S1x16.Idx → EReal) :
    Fin 150000 → Fin 16 → EReal :=
  fun p k => max ((∑ c : Fin 32, Fe (ix2 p c) * Wh (ix2 c k)) + bh (ix2 0 k)) (Ideal.ofBits .f32 0x00000000#32)

/-- The heads' rows: column 0 is the topology head of the node's feature row, column `q + 1` is output `q` of the
    attribute head; each head is its hidden layer times its second weights, plus its second bias. -/
def headsOf (Fe : S150000x32.Idx → EReal) (Wt1 : S32x16.Idx → EReal) (bt1 : S1x16.Idx → EReal) (Wt2 : S16x1.Idx → EReal)
    (bt2 : S1x1.Idx → EReal) (Wa1 : S32x16.Idx → EReal) (ba1 : S1x16.Idx → EReal) (Wa2 : S16x6.Idx → EReal)
    (ba2 : S1x6.Idx → EReal) : S150000x7.Idx → EReal :=
  fun i =>
    if (i 1).val = 0 then (∑ k : Fin 16, hid Fe Wt1 bt1 (i 0) k * Wt2 (ix2 k 0)) + bt2 (ix2 0 0)
    else (∑ k : Fin 16, hid Fe Wa1 ba1 (i 0) k * Wa2 (ix2 k ⟨(i 1).val - 1, by have := idx2_lt1 i; omega⟩))
      + ba2 (ix2 0 ⟨(i 1).val - 1, by have := idx2_lt1 i; omega⟩)

/-- The heads' rows in column 0: the topology head. -/
theorem headsOf_topo (Fe : S150000x32.Idx → EReal) (Wt1 : S32x16.Idx → EReal) (bt1 : S1x16.Idx → EReal)
    (Wt2 : S16x1.Idx → EReal) (bt2 : S1x1.Idx → EReal) (Wa1 : S32x16.Idx → EReal) (ba1 : S1x16.Idx → EReal)
    (Wa2 : S16x6.Idx → EReal) (ba2 : S1x6.Idx → EReal) (p : Fin 150000) (r : Fin 7) (hr : r.val = 0) :
    headsOf Fe Wt1 bt1 Wt2 bt2 Wa1 ba1 Wa2 ba2 (ix2 p r)
      = (∑ k : Fin 16, hid Fe Wt1 bt1 p k * Wt2 (ix2 k 0)) + bt2 (ix2 0 0) :=
  if_pos hr

/-- The heads' rows in column `q + 1`: output `q` of the attribute head. -/
theorem headsOf_attr (Fe : S150000x32.Idx → EReal) (Wt1 : S32x16.Idx → EReal) (bt1 : S1x16.Idx → EReal)
    (Wt2 : S16x1.Idx → EReal) (bt2 : S1x1.Idx → EReal) (Wa1 : S32x16.Idx → EReal) (ba1 : S1x16.Idx → EReal)
    (Wa2 : S16x6.Idx → EReal) (ba2 : S1x6.Idx → EReal) (p : Fin 150000) (r : Fin 7) (q : Fin 6) (hr : r.val = q.val + 1) :
    headsOf Fe Wt1 bt1 Wt2 bt2 Wa1 ba1 Wa2 ba2 (ix2 p r)
      = (∑ k : Fin 16, hid Fe Wa1 ba1 p k * Wa2 (ix2 k q)) + ba2 (ix2 0 q) := by
  have hq : (⟨r.val - 1, by have := r.isLt; omega⟩ : Fin 6) = q := Fin.ext (by show r.val - 1 = q.val; omega)
  refine (if_neg (show ¬r.val = 0 by omega)).trans ?_
  show (∑ k : Fin 16, hid Fe Wa1 ba1 p k * Wa2 (ix2 k ⟨r.val - 1, _⟩)) + ba2 (ix2 0 ⟨r.val - 1, _⟩) = _
  rw [hq]

/-! ## Layout operations at an entry -/

/-- One column broadcast over many: a `[a, 1]` array broadcast to `[a, b]` reads, at `(p, c)`, row `p`'s one entry. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A block product into the zero accumulator is the sum over the contracted axis -/

/-- For a rows-by-columns product whose contraction index is one coordinate (`e`), with the operands' entries at an
    output entry and a contraction coordinate named (`hl`, `hr`): the product's entry is the sum of the products. -/
private theorem matmul_zero_rows_cols {M K N : ℕ} {φ₁ φ₂ : FTy}
    (d : DotDims ⟨2, ![M, K]⟩ ⟨2, ![K, N]⟩ ⟨2, ![M, N]⟩) (e : d.contr.Idx ≃ Fin K)
    (hl : ∀ (p : Fin M) (q : Fin N) (k : Fin K), d.lhsIdx (ix2 p q) (e.symm k) = ix2 p k)
    (hr : ∀ (p : Fin M) (q : Fin N) (k : Fin K), d.rhsIdx (ix2 p q) (e.symm k) = ix2 k q)
    (L : FVec Ideal ⟨2, ![M, K]⟩ φ₁) (R : FVec Ideal ⟨2, ![K, N]⟩ φ₂) (p : Fin M) (q : Fin N) :
    matmul d none L R (constant ⟨2, ![M, N]⟩ .f32 0x00000000#32) (ix2 p q) = ∑ k : Fin K, L (ix2 p k) * R (ix2 k q) := by
  refine (Ideal.matmul_constant_zero_apply d none L R (ix2 p q)).trans ?_
  rw [← Equiv.sum_comp e.symm]
  exact Finset.sum_congr rfl fun k _ => by rw [hl p q k, hr p q k]

private theorem matmul_32_16_lhs_row (j : S6000x16.Idx) (q : dot_S6000x32_S32x16_S6000x16_1_0_0_1_n_n.contr.Idx) :
    (dot_S6000x32_S32x16_S6000x16_1_0_0_1_n_n.lhsIdx j q 0).val = (j 0).val := by
  unfold DotDims.lhsIdx
  rw [dif_neg (show ¬(0 : Fin S6000x32.rank) ∈ dot_S6000x32_S32x16_S6000x16_1_0_0_1_n_n.lhsBatch by decide),
    dif_pos (show (0 : Fin S6000x32.rank) ∈ dot_S6000x32_S32x16_S6000x16_1_0_0_1_n_n.lhsNonContracting by decide)]
  rfl

private theorem matmul_32_16_rhs_col (j : S6000x16.Idx) (q : dot_S6000x32_S32x16_S6000x16_1_0_0_1_n_n.contr.Idx) :
    (dot_S6000x32_S32x16_S6000x16_1_0_0_1_n_n.rhsIdx j q 1).val = (j 1).val := by
  unfold DotDims.rhsIdx
  rw [dif_neg (show ¬(1 : Fin S32x16.rank) ∈ dot_S6000x32_S32x16_S6000x16_1_0_0_1_n_n.rhsBatch by decide),
    dif_pos (show (1 : Fin S32x16.rank) ∈ dot_S6000x32_S32x16_S6000x16_1_0_0_1_n_n.rhsNonContracting by decide)]
  rfl

/-- The feature rows times a head's first weights: `[6000, 32] × [32, 16]`. -/
private theorem matmul_32_16_apply {φ₁ φ₂ : FTy} (L : FVec Ideal S6000x32 φ₁) (R : FVec Ideal S32x16 φ₂) (p : Fin 6000) (q : Fin 16) :
    matmul dot_S6000x32_S32x16_S6000x16_1_0_0_1_n_n none L R (constant S6000x16 .f32 0x00000000#32) (ix2 p q)
      = ∑ k : Fin 32, L (ix2 p k) * R (ix2 k q) :=
  matmul_zero_rows_cols dot_S6000x32_S32x16_S6000x16_1_0_0_1_n_n
    (contrEquiv1 dot_S6000x32_S32x16_S6000x16_1_0_0_1_n_n 32 rfl rfl)
    (fun p q k => funext fun a => Fin.ext (by
      match a with
      | ⟨0, _⟩ => exact matmul_32_16_lhs_row _ _
      | ⟨1, _⟩ =>
        exact (dot_S6000x32_S32x16_S6000x16_1_0_0_1_n_n.lhsIdx_val_of_single rfl _ _).trans
          (contrEquiv1_symm_val dot_S6000x32_S32x16_S6000x16_1_0_0_1_n_n 32 rfl rfl k)))
    (fun p q k => funext fun a => Fin.ext (by
      match a with
      | ⟨0, _⟩ =>
        exact (dot_S6000x32_S32x16_S6000x16_1_0_0_1_n_n.rhsIdx_val_of_single rfl _ _).trans
          (contrEquiv1_symm_val dot_S6000x32_S32x16_S6000x16_1_0_0_1_n_n 32 rfl rfl k)
      | ⟨1, _⟩ => exact matmul_32_16_rhs_col _ _))
    L R p q

private theorem matmul_16_1_lhs_row (j : S6000x1.Idx) (q : dot_S6000x16_S16x1_S6000x1_1_0_0_1_n_n.contr.Idx) :
    (dot_S6000x16_S16x1_S6000x1_1_0_0_1_n_n.lhsIdx j q 0).val = (j 0).val := by
  unfold DotDims.lhsIdx
  rw [dif_neg (show ¬(0 : Fin S6000x16.rank) ∈ dot_S6000x16_S16x1_S6000x1_1_0_0_1_n_n.lhsBatch by decide),
    dif_pos (show (0 : Fin S6000x16.rank) ∈ dot_S6000x16_S16x1_S6000x1_1_0_0_1_n_n.lhsNonContracting by decide)]
  rfl

private theorem matmul_16_1_rhs_col (j : S6000x1.Idx) (q : dot_S6000x16_S16x1_S6000x1_1_0_0_1_n_n.contr.Idx) :
    (dot_S6000x16_S16x1_S6000x1_1_0_0_1_n_n.rhsIdx j q 1).val = (j 1).val := by
  unfold DotDims.rhsIdx
  rw [dif_neg (show ¬(1 : Fin S16x1.rank) ∈ dot_S6000x16_S16x1_S6000x1_1_0_0_1_n_n.rhsBatch by decide),
    dif_pos (show (1 : Fin S16x1.rank) ∈ dot_S6000x16_S16x1_S6000x1_1_0_0_1_n_n.rhsNonContracting by decide)]
  rfl

/-- The hidden rows times the topology head's second weights: `[6000, 16] × [16, 1]`. -/
private theorem matmul_16_1_apply {φ₁ φ₂ : FTy} (L : FVec Ideal S6000x16 φ₁) (R : FVec Ideal S16x1 φ₂) (p : Fin 6000) (q : Fin 1) :
    matmul dot_S6000x16_S16x1_S6000x1_1_0_0_1_n_n none L R (constant S6000x1 .f32 0x00000000#32) (ix2 p q)
      = ∑ k : Fin 16, L (ix2 p k) * R (ix2 k q) :=
  matmul_zero_rows_cols dot_S6000x16_S16x1_S6000x1_1_0_0_1_n_n
    (contrEquiv1 dot_S6000x16_S16x1_S6000x1_1_0_0_1_n_n 16 rfl rfl)
    (fun p q k => funext fun a => Fin.ext (by
      match a with
      | ⟨0, _⟩ => exact matmul_16_1_lhs_row _ _
      | ⟨1, _⟩ =>
        exact (dot_S6000x16_S16x1_S6000x1_1_0_0_1_n_n.lhsIdx_val_of_single rfl _ _).trans
          (contrEquiv1_symm_val dot_S6000x16_S16x1_S6000x1_1_0_0_1_n_n 16 rfl rfl k)))
    (fun p q k => funext fun a => Fin.ext (by
      match a with
      | ⟨0, _⟩ =>
        exact (dot_S6000x16_S16x1_S6000x1_1_0_0_1_n_n.rhsIdx_val_of_single rfl _ _).trans
          (contrEquiv1_symm_val dot_S6000x16_S16x1_S6000x1_1_0_0_1_n_n 16 rfl rfl k)
      | ⟨1, _⟩ => exact matmul_16_1_rhs_col _ _))
    L R p q

private theorem matmul_16_6_lhs_row (j : S6000x6.Idx) (q : dot_S6000x16_S16x6_S6000x6_1_0_0_1_n_n.contr.Idx) :
    (dot_S6000x16_S16x6_S6000x6_1_0_0_1_n_n.lhsIdx j q 0).val = (j 0).val := by
  unfold DotDims.lhsIdx
  rw [dif_neg (show ¬(0 : Fin S6000x16.rank) ∈ dot_S6000x16_S16x6_S6000x6_1_0_0_1_n_n.lhsBatch by decide),
    dif_pos (show (0 : Fin S6000x16.rank) ∈ dot_S6000x16_S16x6_S6000x6_1_0_0_1_n_n.lhsNonContracting by decide)]
  rfl

private theorem matmul_16_6_rhs_col (j : S6000x6.Idx) (q : dot_S6000x16_S16x6_S6000x6_1_0_0_1_n_n.contr.Idx) :
    (dot_S6000x16_S16x6_S6000x6_1_0_0_1_n_n.rhsIdx j q 1).val = (j 1).val := by
  unfold DotDims.rhsIdx
  rw [dif_neg (show ¬(1 : Fin S16x6.rank) ∈ dot_S6000x16_S16x6_S6000x6_1_0_0_1_n_n.rhsBatch by decide),
    dif_pos (show (1 : Fin S16x6.rank) ∈ dot_S6000x16_S16x6_S6000x6_1_0_0_1_n_n.rhsNonContracting by decide)]
  rfl

/-- The hidden rows times the attribute head's second weights: `[6000, 16] × [16, 6]`. -/
private theorem matmul_16_6_apply {φ₁ φ₂ : FTy} (L : FVec Ideal S6000x16 φ₁) (R : FVec Ideal S16x6 φ₂) (p : Fin 6000) (q : Fin 6) :
    matmul dot_S6000x16_S16x6_S6000x6_1_0_0_1_n_n none L R (constant S6000x6 .f32 0x00000000#32) (ix2 p q)
      = ∑ k : Fin 16, L (ix2 p k) * R (ix2 k q) :=
  matmul_zero_rows_cols dot_S6000x16_S16x6_S6000x6_1_0_0_1_n_n
    (contrEquiv1 dot_S6000x16_S16x6_S6000x6_1_0_0_1_n_n 16 rfl rfl)
    (fun p q k => funext fun a => Fin.ext (by
      match a with
      | ⟨0, _⟩ => exact matmul_16_6_lhs_row _ _
      | ⟨1, _⟩ =>
        exact (dot_S6000x16_S16x6_S6000x6_1_0_0_1_n_n.lhsIdx_val_of_single rfl _ _).trans
          (contrEquiv1_symm_val dot_S6000x16_S16x6_S6000x6_1_0_0_1_n_n 16 rfl rfl k)))
    (fun p q k => funext fun a => Fin.ext (by
      match a with
      | ⟨0, _⟩ =>
        exact (dot_S6000x16_S16x6_S6000x6_1_0_0_1_n_n.rhsIdx_val_of_single rfl _ _).trans
          (contrEquiv1_symm_val dot_S6000x16_S16x6_S6000x6_1_0_0_1_n_n 16 rfl rfl k)
      | ⟨1, _⟩ => exact matmul_16_6_rhs_col _ _))
    L R p q

/-! ## The block's entries -/

/-- The feature block at `(p, q)`: the inverse-root degree of row `p` times (neighbour sum + own row), plus the bias. -/
theorem featBlock_apply (d : Vec Ideal S6000x1 .f32) (s : Vec Ideal S6000x32 .f32) (y : Vec Ideal S6000x32 .bf16)
    (b : Vec Ideal S1x32 .f32) (p : Fin 6000) (q : Fin 32) :
    k2_pay2 d s y b (ix2 p q) = d (ix2 p 0) * (s (ix2 p q) + y (ix2 p q)) + b (ix2 0 q) := by
  unfold k2_pay2
  rw [shapeCast_self, shapeCast_self, shapeCast_self, shapeCast_self]
  show broadcastTo S6000x32 d broadcasts_S6000x1_S6000x32 (ix2 p q) * (s (ix2 p q) + y (ix2 p q))
      + broadcastTo S6000x32 b broadcasts_S1x32_S6000x32 (ix2 p q) = _
  rw [broadcastTo_a1_ab_apply, broadcastTo_1b_ab_apply]

/-- The attribute head's hidden block before bias and rectifier: the feature rows times the first weights. -/
theorem attrHiddenBlock_apply (d : Vec Ideal S6000x1 .f32) (s : Vec Ideal S6000x32 .f32) (y : Vec Ideal S6000x32 .bf16)
    (b : Vec Ideal S1x32 .f32) (w1 : Vec Ideal S32x16 .f32) (p : Fin 6000) (k : Fin 16) :
    k2_pay5 d s y b w1 (ix2 p k) = ∑ c : Fin 32, k2_pay2 d s y b (ix2 p c) * w1 (ix2 c k) := by
  unfold k2_pay5 k2_pay3
  exact matmul_32_16_apply _ _ p k

/-- The attribute head's block at `(p, q)`, from its hidden block before bias and rectifier. -/
theorem attrBlock_apply (h : FVec Ideal S6000x16 .f32) (b1 : Vec Ideal S1x16 .f32) (w2 : Vec Ideal S16x6 .f32)
    (b2 : Vec Ideal S1x6 .f32) (p : Fin 6000) (q : Fin 6) :
    k2_pay1 h b1 w2 b2 (ix2 p q)
      = (∑ k : Fin 16, max (h (ix2 p k) + b1 (ix2 0 k)) (Ideal.ofBits .f32 0x00000000#32) * w2 (ix2 k q)) + b2 (ix2 0 q) := by
  unfold k2_pay1
  rw [shapeCast_self, shapeCast_self]
  show matmul (F := Ideal) _ none _ _ _ (ix2 p q) + broadcastTo S6000x6 b2 broadcasts_S1x6_S6000x6 (ix2 p q) = _
  rw [matmul_16_6_apply, broadcastTo_1b_ab_apply]
  refine congrArg (· + b2 (ix2 0 q)) (Finset.sum_congr rfl fun k _ => ?_)
  show max (h (ix2 p k) + broadcastTo S6000x16 b1 broadcasts_S1x16_S6000x16 (ix2 p k)) _ * w2 (ix2 k q) = _
  rw [broadcastTo_1b_ab_apply]
  rfl

/-- The topology head's block at `(p, q)` (its one column), from the feature block. -/
theorem topoBlock_apply (d : Vec Ideal S6000x1 .f32) (s : Vec Ideal S6000x32 .f32) (y : Vec Ideal S6000x32 .bf16)
    (b : Vec Ideal S1x32 .f32) (w1 : Vec Ideal S32x16 .f32) (b1 : Vec Ideal S1x16 .f32) (w2 : Vec Ideal S16x1 .f32)
    (b2 : Vec Ideal S1x1 .f32) (p : Fin 6000) (q : Fin 1) :
    k2_pay4 d s y b w1 b1 w2 b2 (ix2 p q)
      = (∑ k : Fin 16, max ((∑ c : Fin 32, k2_pay2 d s y b (ix2 p c) * w1 (ix2 c k)) + b1 (ix2 0 k))
            (Ideal.ofBits .f32 0x00000000#32) * w2 (ix2 k q)) + b2 (ix2 0 q) := by
  unfold k2_pay4 k2_pay3
  rw [shapeCast_self, shapeCast_self]
  show matmul (F := Ideal) _ none _ _ _ (ix2 p q) + broadcastTo S6000x1 b2 broadcasts_S1x1_S6000x1 (ix2 p q) = _
  rw [matmul_16_1_apply, broadcastTo_1b_ab_apply]
  refine congrArg (· + b2 (ix2 0 q)) (Finset.sum_congr rfl fun k _ => ?_)
  show max (matmul (F := Ideal) _ none _ _ _ (ix2 p k) + broadcastTo S6000x16 b1 broadcasts_S1x16_S6000x16 (ix2 p k)) _ * w2 (ix2 k q) = _
  rw [matmul_32_16_apply, broadcastTo_1b_ab_apply]
  rfl

end Cert.KernelIdeal.Blocks

end
-- ==== Proof.Region2Blocks.lean ====
/-
  The third region's windows: which rows of its arrays a row block reads.

  The region walks 25 row blocks of 6000 nodes. The windows over the neighbour sums, the layer's own rows, the
  inverse-root degrees and the two outputs move with the point: row `p` of the block at point `t` is row `6000 t + p` of
  the array. The windows over the bias and over the two heads' weights and biases stay: their one block is the whole
  array. So the feature block computed from the blocks read at point `t` is rows `6000 t … 6000 t + 5999` of the
  feature rows of the arrays the region finds.
-/
import proofs.«132109_j42992622632991_2_alg».proof.Proof.Gen.KernelIdeal.Frame
import proofs.«132109_j42992622632991_2_alg».proof.Proof.Region2Payload
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

/-- A store or a load through a whole staging buffer starts at row 0, column 0. -/
theorem zero_offsets2 : (![0, 0] : Fin 2 → Nat) = fun _ => 0 := funext fun a => by fin_cases a <;> rfl

/-! ## The blocks read, as rows of the entry arrays -/

section Blocks

variable (V : (c : Dev nD) → (b : Ref sig .tc) → Buf (Elt Ideal) ((c : Thread nD τ).loc b))

/-- The windows' block indices, decided over the 25 points: the row windows' (the neighbour sums, the layer's own rows,
    the inverse-root degrees, the two outputs) are (the point, 0); the bias's and the weights' are (0, 0). -/
theorem blockIndex2 : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0)
    ∧ (win2_9.index t (0 : Fin 2) = 0 ∧ win2_9.index t (1 : Fin 2) = 0)
    ∧ (win2_10.index t (0 : Fin 2) = 0 ∧ win2_10.index t (1 : Fin 2) = 0)
    ∧ (win2_11.index t (0 : Fin 2) = 0 ∧ win2_11.index t (1 : Fin 2) = 0)
    ∧ (win2_12.index t (0 : Fin 2) = t.val ∧ win2_12.index t (1 : Fin 2) = 0)
    ∧ (win2_13.index t (0 : Fin 2) = t.val ∧ win2_13.index t (1 : Fin 2) = 0) :=
  (by decide +kernel : ∀ t : Fin grid2.N, _)

/-! Row `p` of a row window's block at point `t` is row `6000 t + p` of its array. -/

theorem segRows2_apply (c : Dev nD) (t : Fin cfg2.N) (p : Fin 6000) (q : Fin 32) (r : Fin 150000)
    (hr : r.val = t.val * 6000 + p.val) :
    iblk2 V c 0 t (ix2 p q) = V c main_v36 (ix2 r q) := by
  obtain ⟨⟨e0, e1⟩, -, -, -, -, -, -, -, -, -, -, -, -, -⟩ := blockIndex2 t
  unfold iblk2
  rw [View.read_apply]
  show V c main_v36 _ = V c main_v36 _
  congr 1
  funext a
  apply Fin.ext
  match a with
  | ⟨0, _⟩ => show win2_0.index t (0 : Fin 2) * 6000 + 1 * p.val = r.val; rw [e0, hr]; omega
  | ⟨1, _⟩ => show win2_0.index t (1 : Fin 2) * 32 + 1 * q.val = q.val; rw [e1]; omega

theorem ownRows2_apply (c : Dev nD) (t : Fin cfg2.N) (p : Fin 6000) (q : Fin 32) (r : Fin 150000)
    (hr : r.val = t.val * 6000 + p.val) :
    iblk2 V c 1 t (ix2 p q) = V c main_v25 (ix2 r q) := by
  obtain ⟨-, ⟨e0, e1⟩, -, -, -, -, -, -, -, -, -, -, -, -⟩ := blockIndex2 t
  unfold iblk2
  rw [View.read_apply]
  show V c main_v25 _ = V c main_v25 _
  congr 1
  funext a
  apply Fin.ext
  match a with
  | ⟨0, _⟩ => show win2_1.index t (0 : Fin 2) * 6000 + 1 * p.val = r.val; rw [e0, hr]; omega
  | ⟨1, _⟩ => show win2_1.index t (1 : Fin 2) * 32 + 1 * q.val = q.val; rw [e1]; omega

theorem dinvRows2_apply (c : Dev nD) (t : Fin cfg2.N) (p : Fin 6000) (q : Fin 1) (r : Fin 150000)
    (hr : r.val = t.val * 6000 + p.val) :
    iblk2 V c 2 t (ix2 p q) = V c main_v11 (ix2 r q) := by
  obtain ⟨-, -, ⟨e0, e1⟩, -, -, -, -, -, -, -, -, -, -, -⟩ := blockIndex2 t
  unfold iblk2
  rw [View.read_apply]
  show V c main_v11 _ = V c main_v11 _
  congr 1
  funext a
  apply Fin.ext
  match a with
  | ⟨0, _⟩ => show win2_2.index t (0 : Fin 2) * 6000 + 1 * p.val = r.val; rw [e0, hr]; omega
  | ⟨1, _⟩ => show win2_2.index t (1 : Fin 2) * 1 + 1 * q.val = q.val; rw [e1]; omega

/-! The bias's and the weights' one block is their whole array. -/

theorem bias2_block_eq (c : Dev nD) (t : Fin cfg2.N) : iblk2 V c 3 t = V c main_v37 := by
  obtain ⟨-, -, -, ⟨e0, e1⟩, -, -, -, -, -, -, -, -, -, -⟩ := blockIndex2 t
  funext j
  unfold iblk2
  rw [View.read_apply]
  show V c main_v37 _ = V c main_v37 _
  congr 1
  funext a
  apply Fin.ext
  match a with
  | ⟨0, _⟩ => show win2_3.index t (0 : Fin 2) * 1 + 1 * (j 0).val = (j 0).val; rw [e0]; omega
  | ⟨1, _⟩ => show win2_3.index t (1 : Fin 2) * 32 + 1 * (j 1).val = (j 1).val; rw [e1]; omega

theorem topoW1_block_eq (c : Dev nD) (t : Fin cfg2.N) : iblk2 V c 4 t = V c main_arg6 := by
  obtain ⟨-, -, -, -, ⟨e0, e1⟩, -, -, -, -, -, -, -, -, -⟩ := blockIndex2 t
  funext j
  unfold iblk2
  rw [View.read_apply]
  show V c main_arg6 _ = V c main_arg6 _
  congr 1
  funext a
  apply Fin.ext
  match a with
  | ⟨0, _⟩ => show win2_4.index t (0 : Fin 2) * 32 + 1 * (j 0).val = (j 0).val; rw [e0]; omega
  | ⟨1, _⟩ => show win2_4.index t (1 : Fin 2) * 16 + 1 * (j 1).val = (j 1).val; rw [e1]; omega

theorem topoB1_block_eq (c : Dev nD) (t : Fin cfg2.N) : iblk2 V c 5 t = V c main_v38 := by
  obtain ⟨-, -, -, -, -, ⟨e0, e1⟩, -, -, -, -, -, -, -, -⟩ := blockIndex2 t
  funext j
  unfold iblk2
  rw [View.read_apply]
  show V c main_v38 _ = V c main_v38 _
  congr 1
  funext a
  apply Fin.ext
  match a with
  | ⟨0, _⟩ => show win2_5.index t (0 : Fin 2) * 1 + 1 * (j 0).val = (j 0).val; rw [e0]; omega
  | ⟨1, _⟩ => show win2_5.index t (1 : Fin 2) * 16 + 1 * (j 1).val = (j 1).val; rw [e1]; omega

theorem topoW2_block_eq (c : Dev nD) (t : Fin cfg2.N) : iblk2 V c 6 t = V c main_arg8 := by
  obtain ⟨-, -, -, -, -, -, ⟨e0, e1⟩, -, -, -, -, -, -, -⟩ := blockIndex2 t
  funext j
  unfold iblk2
  rw [View.read_apply]
  show V c main_arg8 _ = V c main_arg8 _
  congr 1
  funext a
  apply Fin.ext
  match a with
  | ⟨0, _⟩ => show win2_6.index t (0 : Fin 2) * 16 + 1 * (j 0).val = (j 0).val; rw [e0]; omega
  | ⟨1, _⟩ => show win2_6.index t (1 : Fin 2) * 1 + 1 * (j 1).val = (j 1).val; rw [e1]; omega

theorem topoB2_block_eq (c : Dev nD) (t : Fin cfg2.N) : iblk2 V c 7 t = V c main_v39 := by
  obtain ⟨-, -, -, -, -, -, -, ⟨e0, e1⟩, -, -, -, -, -, -⟩ := blockIndex2 t
  funext j
  unfold iblk2
  rw [View.read_apply]
  show V c main_v39 _ = V c main_v39 _
  congr 1
  funext a
  apply Fin.ext
  match a with
  | ⟨0, _⟩ => show win2_7.index t (0 : Fin 2) * 1 + 1 * (j 0).val = (j 0).val; rw [e0]; omega
  | ⟨1, _⟩ => show win2_7.index t (1 : Fin 2) * 1 + 1 * (j 1).val = (j 1).val; rw [e1]; omega

theorem attrW1_block_eq (c : Dev nD) (t : Fin cfg2.N) : iblk2 V c 8 t = V c main_arg10 := by
  obtain ⟨-, -, -, -, -, -, -, -, ⟨e0, e1⟩, -, -, -, -, -⟩ := blockIndex2 t
  funext j
  unfold iblk2
  rw [View.read_apply]
  show V c main_arg10 _ = V c main_arg10 _
  congr 1
  funext a
  apply Fin.ext
  match a with
  | ⟨0, _⟩ => show win2_8.index t (0 : Fin 2) * 32 + 1 * (j 0).val = (j 0).val; rw [e0]; omega
  | ⟨1, _⟩ => show win2_8.index t (1 : Fin 2) * 16 + 1 * (j 1).val = (j 1).val; rw [e1]; omega

theorem attrB1_block_eq (c : Dev nD) (t : Fin cfg2.N) : iblk2 V c 9 t = V c main_v40 := by
  obtain ⟨-, -, -, -, -, -, -, -, -, ⟨e0, e1⟩, -, -, -, -⟩ := blockIndex2 t
  funext j
  unfold iblk2
  rw [View.read_apply]
  show V c main_v40 _ = V c main_v40 _
  congr 1
  funext a
  apply Fin.ext
  match a with
  | ⟨0, _⟩ => show win2_9.index t (0 : Fin 2) * 1 + 1 * (j 0).val = (j 0).val; rw [e0]; omega
  | ⟨1, _⟩ => show win2_9.index t (1 : Fin 2) * 16 + 1 * (j 1).val = (j 1).val; rw [e1]; omega

theorem attrW2_block_eq (c : Dev nD) (t : Fin cfg2.N) : iblk2 V c 10 t = V c main_arg12 := by
  obtain ⟨-, -, -, -, -, -, -, -, -, -, ⟨e0, e1⟩, -, -, -⟩ := blockIndex2 t
  funext j
  unfold iblk2
  rw [View.read_apply]
  show V c main_arg12 _ = V c main_arg12 _
  congr 1
  funext a
  apply Fin.ext
  match a with
  | ⟨0, _⟩ => show win2_10.index t (0 : Fin 2) * 16 + 1 * (j 0).val = (j 0).val; rw [e0]; omega
  | ⟨1, _⟩ => show win2_10.index t (1 : Fin 2) * 6 + 1 * (j 1).val = (j 1).val; rw [e1]; omega

theorem attrB2_block_eq (c : Dev nD) (t : Fin cfg2.N) : iblk2 V c 11 t = V c main_v41 := by
  obtain ⟨-, -, -, -, -, -, -, -, -, -, -, ⟨e0, e1⟩, -, -⟩ := blockIndex2 t
  funext j
  unfold iblk2
  rw [View.read_apply]
  show V c main_v41 _ = V c main_v41 _
  congr 1
  funext a
  apply Fin.ext
  match a with
  | ⟨0, _⟩ => show win2_11.index t (0 : Fin 2) * 1 + 1 * (j 0).val = (j 0).val; rw [e0]; omega
  | ⟨1, _⟩ => show win2_11.index t (1 : Fin 2) * 6 + 1 * (j 1).val = (j 1).val; rw [e1]; omega

/-! ## The feature block, as rows of the feature rows -/

/-- The feature block of the blocks read at point `t`, at `(p, q)`, is the feature rows' entry at row `6000 t + p`. -/
theorem featRows_eq (c : Dev nD) (t : Fin cfg2.N) (p : Fin 6000) (q : Fin 32) (r : Fin 150000)
    (hr : r.val = t.val * 6000 + p.val) :
    k2_pay2 (iblk2 V c 2 t) (iblk2 V c 0 t) (iblk2 V c 1 t) (iblk2 V c 3 t) (ix2 p q)
      = featOf (V c main_v36) (V c main_v25) (V c main_v11) (V c main_v37) (ix2 r q) := by
  rw [featBlock_apply (iblk2 V c 2 t) (iblk2 V c 0 t) (iblk2 V c 1 t) (iblk2 V c 3 t) p q,
    dinvRows2_apply V c t p 0 r hr, segRows2_apply V c t p q r hr, ownRows2_apply V c t p q r hr, bias2_block_eq V c t]
  rfl

end Blocks

end Cert.KernelIdeal.Blocks

end
-- ==== Proof.Region2.lean ====
/-
  The third region's feature array, entry by entry, as a function of the arrays the region finds.

  At a row block the body leaves the feature rows  feat = d * (s + y) + b  of the blocks it read, in one store over
  the whole staging buffer. The write-back of point `t` is therefore block `t` of the feature rows of the entry arrays;
  the 25 blocks tile the array, every entry lying in the block of point `row / 6000`; so the array ends as the feature
  rows.
-/
import proofs.«132109_j42992622632991_2_alg».proof.Proof.Gen.KernelIdeal.Frame
import proofs.«132109_j42992622632991_2_alg».proof.Proof.Region2Payload
import proofs.«132109_j42992622632991_2_alg».proof.Proof.Region2Blocks
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

/-! ## What one row block's stores leave, as the block arithmetic of the blocks read -/

section Pieces

variable {F : FTy → Type} [FloatOps F]

/-- The feature buffer after the body: its one store's payload, the feature block of the blocks read. -/
theorem featStore_eq (c : Dev nD) (i : grid2.Coords) (arg1 : Memref sig .tc .vmem S6000x32 .f32) (harg1 : arg1.IsWhole) (arg2 : Memref sig .tc .vmem S6000x32 .bf16) (harg2 : arg2.IsWhole) (arg3 : Memref sig .tc .vmem S6000x1 .f32) (harg3 : arg3.IsWhole) (arg4 : Memref sig .tc .vmem S1x32 .f32) (harg4 : arg4.IsWhole) (arg5 : Memref sig .tc .vmem S32x16 .f32) (harg5 : arg5.IsWhole) (arg6 : Memref sig .tc .vmem S1x16 .f32) (harg6 : arg6.IsWhole) (arg7 : Memref sig .tc .vmem S16x1 .f32) (harg7 : arg7.IsWhole) (arg8 : Memref sig .tc .vmem S1x1 .f32) (harg8 : arg8.IsWhole) (arg9 : Memref sig .tc .vmem S32x16 .f32) (harg9 : arg9.IsWhole) (arg10 : Memref sig .tc .vmem S1x16 .f32) (harg10 : arg10.IsWhole) (arg11 : Memref sig .tc .vmem S16x6 .f32) (harg11 : arg11.IsWhole) (arg12 : Memref sig .tc .vmem S1x6 .f32) (harg12 : arg12.IsWhole) (arg13 : Memref sig .tc .vmem S6000x32 .f32) (harg13 : arg13.IsWhole) (arg14 : Memref sig .tc .vmem S6000x7 .f32) (harg14 : arg14.IsWhole)
    (x0 : Vec F S6000x32 .f32) (x1 : Vec F S6000x32 .bf16) (x2 : Vec F S6000x1 .f32) (x3 : Vec F S1x32 .f32) (x4 : Vec F S32x16 .f32) (x5 : Vec F S1x16 .f32) (x6 : Vec F S16x1 .f32) (x7 : Vec F S1x1 .f32) (x8 : Vec F S32x16 .f32) (x9 : Vec F S1x16 .f32) (x10 : Vec F S16x6 .f32) (x11 : Vec F S1x6 .f32) :
    out2_A_12 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 = k2_pay2 x2 x0 x1 x3 := by
  unfold out2_A_12
  rw [View.read_writes_eq_canon _ _ _ (cover2_A_12 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11)]
  unfold kernelRun2_A
  dsimp only
  sl_unfold_words
  rw [View.canon_unit_zero zero_offsets2]
  simp only [View.readAt_eq_ld, harg1.read_unread, harg2.read_unread, harg3.read_unread, harg4.read_unread,
    View.ld_unit_zero (S := S6000x32) zero_offsets2, View.ld_unit_zero (S := S6000x1) zero_offsets2,
    View.ld_unit_zero (S := S1x32) zero_offsets2]

end Pieces

/-! ## The feature array -/

section Feat

variable (V : (c : Dev nD) → (b : Ref sig .tc) → Buf (Elt Ideal) ((c : Thread nD τ).loc b))

/-- What point `t` writes back to the feature array is block `t` of the feature rows. -/
theorem featFlushed_eq (c : Dev nD) (t : Fin cfg2.N) :
    (dat2 V c).flushed 12 t
      = ((cfg2.win 12).blk t).view.read (Elt Ideal)
          (featOf (V c main_v36) (V c main_v25) (V c main_v11) (V c main_v37)) := by
  have hN : cfg2.N = 25 := N_2
  obtain ⟨-, -, -, -, -, -, -, -, -, -, -, -, ⟨e0, e1⟩, -⟩ := blockIndex2 t
  show (cfg2.win 12).cut (grid2.coords t) ((dat2 V c).after 12 t) = _
  rw [after2_12]
  unfold outsAt2
  dsimp only
  rw [featStore_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t)]
  funext j
  obtain ⟨p, q, rfl⟩ : ∃ (p : Fin 6000) (q : Fin 32), j = ix2 p q := ⟨j 0, j 1, eq_ix2 j⟩
  have hr : t.val * 6000 + p.val < 150000 := by have := t.isLt; omega
  have hemb : ((cfg2.win 12).blk t).view.emb (ix2 p q) = ix2 (⟨t.val * 6000 + p.val, hr⟩ : Fin 150000) q := by
    funext a
    apply Fin.ext
    match a with
    | ⟨0, _⟩ => show win2_12.index t (0 : Fin 2) * 6000 + 1 * p.val = t.val * 6000 + p.val; rw [e0]; omega
    | ⟨1, _⟩ => show win2_12.index t (1 : Fin 2) * 32 + 1 * q.val = q.val; rw [e1]; omega
  show k2_pay2 (iblk2 V c 2 t) (iblk2 V c 0 t) (iblk2 V c 1 t) (iblk2 V c 3 t) (ix2 p q)
    = featOf (V c main_v36) (V c main_v25) (V c main_v11) (V c main_v37) (((cfg2.win 12).blk t).view.emb (ix2 p q))
  rw [hemb]
  exact featRows_eq V c t p q ⟨t.val * 6000 + p.val, hr⟩ rfl

/-- An entry of the feature array is in point `t`'s block iff each coordinate is in the block's range on its axis. -/
theorem mem_featBlock (t : Fin cfg2.N) (i : S150000x32.Idx) :
    i ∈ ((cfg2.win 12).blk t).view.set ↔ ∀ a : Fin 2, win2_12.index t a * S6000x32.size a ≤ (i a).val
      ∧ (i a).val < win2_12.index t a * S6000x32.size a + S6000x32.size a := by
  show i ∈ ((View.whole main_v42_0).slice (win2_12.rect t)).set ↔ _
  rw [View.set_slice_whole, Rect.mem_set_unit]
  exact Iff.rfl

/-- Every entry of the feature array is in the block of the point that holds its row: point `row / 6000`. -/
theorem featBlocks_cover (i : S150000x32.Idx) :
    ∃ t : Fin cfg2.N, (cfg2.win 12).flush t = true ∧ i ∈ ((cfg2.win 12).blk t).view.set := by
  have hN : cfg2.N = 25 := N_2
  have hi0 : (i 0).val < 150000 := idx2_lt0 i
  have hi1 : (i 1).val < 32 := idx2_lt1 i
  have ht : (i 0).val / 6000 < cfg2.N := by omega
  obtain ⟨-, -, -, -, -, -, -, -, -, -, -, -, ⟨e0, e1⟩, -⟩ := blockIndex2 ⟨(i 0).val / 6000, ht⟩
  refine ⟨⟨(i 0).val / 6000, ht⟩, flush2_12 _, ?_⟩
  rw [mem_featBlock]
  intro a
  match a with
  | ⟨0, _⟩ =>
    show win2_12.index ⟨(i 0).val / 6000, ht⟩ (0 : Fin 2) * 6000 ≤ (i 0).val
      ∧ (i 0).val < win2_12.index ⟨(i 0).val / 6000, ht⟩ (0 : Fin 2) * 6000 + 6000
    rw [e0]
    show (i 0).val / 6000 * 6000 ≤ (i 0).val ∧ (i 0).val < (i 0).val / 6000 * 6000 + 6000
    omega
  | ⟨1, _⟩ =>
    show win2_12.index ⟨(i 0).val / 6000, ht⟩ (1 : Fin 2) * 32 ≤ (i 1).val
      ∧ (i 1).val < win2_12.index ⟨(i 0).val / 6000, ht⟩ (1 : Fin 2) * 32 + 32
    rw [e1]
    omega

/-- THE FEATURE ARRAY after the region: the feature rows of the arrays the region finds. -/
theorem final2_feat (c : Dev nD) :
    (dat2 (F := Ideal) V c).arrAt 12 cfg2.N
      = featOf (V c main_v36) (V c main_v25) (V c main_v11) (V c main_v37) :=
  (dat2 V c).arrAt_eq_of_cover 12 (featOf (V c main_v36) (V c main_v25) (V c main_v11) (V c main_v37))
    (fun t _ => featFlushed_eq V c t) featBlocks_cover

end Feat

end Cert.KernelIdeal.Blocks

end
-- ==== Proof.Region2Heads.lean ====
/-
  The third region's heads array, entry by entry, as a function of the arrays the region finds.

  At a row block the body leaves the two heads of the block's feature rows side by side in one staging buffer of
  seven columns: a first store writes column 0, the topology head; a second store writes columns 1 to 6, the
  attribute head. The two stores do not overlap, so column 0 keeps the first store's payload and column `q + 1` reads
  the second store's payload at column `q`. Each head is  ∑ k, hidden k * W₂ k q + b₂ q  over its hidden layer
  hidden k = max (∑ c, feat c * W₁ c k + b₁ k) 0  of the feature row. The write-back of point `t` is block `t` of
  the heads' rows of the entry arrays, the 25 blocks tile the array, and so the array ends as the heads' rows.
-/
import proofs.«132109_j42992622632991_2_alg».proof.Proof.Gen.KernelIdeal.Frame
import proofs.«132109_j42992622632991_2_alg».proof.Proof.Region2Payload
import proofs.«132109_j42992622632991_2_alg».proof.Proof.Region2Blocks
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

/-! ## What one row block's two stores leave in the heads' buffer -/

section Pieces

variable {F : FTy → Type} [FloatOps F]

/-- The heads' buffer after the body, in column 0: the second store (columns 1 to 6) does not reach it, and the first
    store's payload there is the topology head's block. -/
theorem topoStore_apply (c : Dev nD) (i : grid2.Coords) (arg1 : Memref sig .tc .vmem S6000x32 .f32) (harg1 : arg1.IsWhole) (arg2 : Memref sig .tc .vmem S6000x32 .bf16) (harg2 : arg2.IsWhole) (arg3 : Memref sig .tc .vmem S6000x1 .f32) (harg3 : arg3.IsWhole) (arg4 : Memref sig .tc .vmem S1x32 .f32) (harg4 : arg4.IsWhole) (arg5 : Memref sig .tc .vmem S32x16 .f32) (harg5 : arg5.IsWhole) (arg6 : Memref sig .tc .vmem S1x16 .f32) (harg6 : arg6.IsWhole) (arg7 : Memref sig .tc .vmem S16x1 .f32) (harg7 : arg7.IsWhole) (arg8 : Memref sig .tc .vmem S1x1 .f32) (harg8 : arg8.IsWhole) (arg9 : Memref sig .tc .vmem S32x16 .f32) (harg9 : arg9.IsWhole) (arg10 : Memref sig .tc .vmem S1x16 .f32) (harg10 : arg10.IsWhole) (arg11 : Memref sig .tc .vmem S16x6 .f32) (harg11 : arg11.IsWhole) (arg12 : Memref sig .tc .vmem S1x6 .f32) (harg12 : arg12.IsWhole) (arg13 : Memref sig .tc .vmem S6000x32 .f32) (harg13 : arg13.IsWhole) (arg14 : Memref sig .tc .vmem S6000x7 .f32) (harg14 : arg14.IsWhole)
    (x0 : Vec F S6000x32 .f32) (x1 : Vec F S6000x32 .bf16) (x2 : Vec F S6000x1 .f32) (x3 : Vec F S1x32 .f32) (x4 : Vec F S32x16 .f32) (x5 : Vec F S1x16 .f32) (x6 : Vec F S16x1 .f32) (x7 : Vec F S1x1 .f32) (x8 : Vec F S32x16 .f32) (x9 : Vec F S1x16 .f32) (x10 : Vec F S16x6 .f32) (x11 : Vec F S1x6 .f32)
    (p : Fin 6000) (r : Fin 7) (hr : r.val = 0) :
    out2_A_13 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 (ix2 p r)
      = k2_pay4 x2 x0 x1 x3 x4 x5 x6 x7 (ix2 p (0 : Fin 1)) := by
  unfold out2_A_13
  rw [View.read_writes_eq_canon _ _ _ (cover2_A_13 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11)]
  unfold kernelRun2_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread,
    View.ld_unit_zero (S := S6000x32) zero_offsets2,
    View.ld_unit_zero (S := S6000x1) zero_offsets2,
    View.ld_unit_zero (S := S1x32) zero_offsets2,
    View.ld_unit_zero (S := S32x16) zero_offsets2,
    View.ld_unit_zero (S := S1x16) zero_offsets2,
    View.ld_unit_zero (S := S16x1) zero_offsets2,
    View.ld_unit_zero (S := S1x1) zero_offsets2,
    View.ld_unit_zero (S := S16x6) zero_offsets2,
    View.ld_unit_zero (S := S1x6) zero_offsets2]
  rw [View.canon_cons_of_not_mem _ _ (fun h => by
    have h' : ix2 p r ∈ (Rect.unit (s := S6000x7) ![0, 1] ![6000, 6] inb_S6000x7_S6000x6_0_1).set := h
    have h1 : 1 ≤ r.val := (Rect.mem_set_unit.mp h' (1 : Fin 2)).1
    omega)]
  have he : (Rect.unit (s := S6000x7) ![0, 0] ![6000, 1] inb_S6000x7_S6000x1_0_0).emb (ix2 p (0 : Fin 1)) = ix2 p r :=
    funext fun a => Fin.ext (by
      match a with
      | ⟨0, _⟩ => show 0 + 1 * p.val = p.val; omega
      | ⟨1, _⟩ => show 0 + 1 * 0 = r.val; omega)
  rw [← he]
  exact View.canon_cons_emb (Rect.unit (s := S6000x7) ![0, 0] ![6000, 1] inb_S6000x7_S6000x1_0_0) _ [] (ix2 p (0 : Fin 1))

/-- The heads' buffer after the body, in column `q + 1`: the second store's payload at column `q`, the attribute
    head's block. -/
theorem attrStore_apply (c : Dev nD) (i : grid2.Coords) (arg1 : Memref sig .tc .vmem S6000x32 .f32) (harg1 : arg1.IsWhole) (arg2 : Memref sig .tc .vmem S6000x32 .bf16) (harg2 : arg2.IsWhole) (arg3 : Memref sig .tc .vmem S6000x1 .f32) (harg3 : arg3.IsWhole) (arg4 : Memref sig .tc .vmem S1x32 .f32) (harg4 : arg4.IsWhole) (arg5 : Memref sig .tc .vmem S32x16 .f32) (harg5 : arg5.IsWhole) (arg6 : Memref sig .tc .vmem S1x16 .f32) (harg6 : arg6.IsWhole) (arg7 : Memref sig .tc .vmem S16x1 .f32) (harg7 : arg7.IsWhole) (arg8 : Memref sig .tc .vmem S1x1 .f32) (harg8 : arg8.IsWhole) (arg9 : Memref sig .tc .vmem S32x16 .f32) (harg9 : arg9.IsWhole) (arg10 : Memref sig .tc .vmem S1x16 .f32) (harg10 : arg10.IsWhole) (arg11 : Memref sig .tc .vmem S16x6 .f32) (harg11 : arg11.IsWhole) (arg12 : Memref sig .tc .vmem S1x6 .f32) (harg12 : arg12.IsWhole) (arg13 : Memref sig .tc .vmem S6000x32 .f32) (harg13 : arg13.IsWhole) (arg14 : Memref sig .tc .vmem S6000x7 .f32) (harg14 : arg14.IsWhole)
    (x0 : Vec F S6000x32 .f32) (x1 : Vec F S6000x32 .bf16) (x2 : Vec F S6000x1 .f32) (x3 : Vec F S1x32 .f32) (x4 : Vec F S32x16 .f32) (x5 : Vec F S1x16 .f32) (x6 : Vec F S16x1 .f32) (x7 : Vec F S1x1 .f32) (x8 : Vec F S32x16 .f32) (x9 : Vec F S1x16 .f32) (x10 : Vec F S16x6 .f32) (x11 : Vec F S1x6 .f32)
    (p : Fin 6000) (r : Fin 7) (q : Fin 6) (hr : r.val = q.val + 1) :
    out2_A_13 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 (ix2 p r)
      = k2_pay1 (k2_pay5 x2 x0 x1 x3 x8) x9 x10 x11 (ix2 p q) := by
  unfold out2_A_13
  rw [View.read_writes_eq_canon _ _ _ (cover2_A_13 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11)]
  unfold kernelRun2_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread,
    View.ld_unit_zero (S := S6000x32) zero_offsets2,
    View.ld_unit_zero (S := S6000x1) zero_offsets2,
    View.ld_unit_zero (S := S1x32) zero_offsets2,
    View.ld_unit_zero (S := S32x16) zero_offsets2,
    View.ld_unit_zero (S := S1x16) zero_offsets2,
    View.ld_unit_zero (S := S16x1) zero_offsets2,
    View.ld_unit_zero (S := S1x1) zero_offsets2,
    View.ld_unit_zero (S := S16x6) zero_offsets2,
    View.ld_unit_zero (S := S1x6) zero_offsets2]
  have he : (Rect.unit (s := S6000x7) ![0, 1] ![6000, 6] inb_S6000x7_S6000x6_0_1).emb (ix2 p q) = ix2 p r :=
    funext fun a => Fin.ext (by
      match a with
      | ⟨0, _⟩ => show 0 + 1 * p.val = p.val; omega
      | ⟨1, _⟩ => show 1 + 1 * q.val = r.val; omega)
  rw [← he]
  exact View.canon_cons_emb (Rect.unit (s := S6000x7) ![0, 1] ![6000, 6] inb_S6000x7_S6000x6_0_1) _ _ (ix2 p q)

end Pieces

/-! ## The heads' blocks, as rows of the heads' rows -/

section Heads

variable (V : (c : Dev nD) → (b : Ref sig .tc) → Buf (Elt Ideal) ((c : Thread nD τ).loc b))

/-- The topology head's block of the blocks read at point `t`, at row `p`, is the topology head of row `6000 t + p`. -/
theorem topoRows_eq (c : Dev nD) (t : Fin cfg2.N) (p : Fin 6000) (r : Fin 150000) (hr : r.val = t.val * 6000 + p.val) :
    k2_pay4 (iblk2 V c 2 t) (iblk2 V c 0 t) (iblk2 V c 1 t) (iblk2 V c 3 t) (iblk2 V c 4 t) (iblk2 V c 5 t) (iblk2 V c 6 t) (iblk2 V c 7 t) (ix2 p (0 : Fin 1))
      = (∑ k : Fin 16, hid (featOf (V c main_v36) (V c main_v25) (V c main_v11) (V c main_v37)) (V c main_arg6) (V c main_v38) r k * V c main_arg8 (ix2 k 0))
        + V c main_v39 (ix2 0 0) := by
  unfold hid
  rw [topoBlock_apply (iblk2 V c 2 t) (iblk2 V c 0 t) (iblk2 V c 1 t) (iblk2 V c 3 t) (iblk2 V c 4 t) (iblk2 V c 5 t) (iblk2 V c 6 t) (iblk2 V c 7 t) p 0,
    topoW1_block_eq V c t, topoB1_block_eq V c t, topoW2_block_eq V c t, topoB2_block_eq V c t]
  refine congrArg (· + V c main_v39 (ix2 0 0)) (Finset.sum_congr rfl fun k _ => ?_)
  refine congrArg (fun x => max (x + V c main_v38 (ix2 0 k)) (Ideal.ofBits .f32 0x00000000#32) * V c main_arg8 (ix2 k 0))
    (Finset.sum_congr rfl fun c' _ => ?_)
  rw [featRows_eq V c t p c' r hr]

/-- The attribute head's block of the blocks read at point `t`, at `(p, q)`, is output `q` of the attribute head of
    row `6000 t + p`. -/
theorem attrRows_eq (c : Dev nD) (t : Fin cfg2.N) (p : Fin 6000) (q : Fin 6) (r : Fin 150000)
    (hr : r.val = t.val * 6000 + p.val) :
    k2_pay1 (k2_pay5 (iblk2 V c 2 t) (iblk2 V c 0 t) (iblk2 V c 1 t) (iblk2 V c 3 t) (iblk2 V c 8 t)) (iblk2 V c 9 t) (iblk2 V c 10 t) (iblk2 V c 11 t) (ix2 p q)
      = (∑ k : Fin 16, hid (featOf (V c main_v36) (V c main_v25) (V c main_v11) (V c main_v37)) (V c main_arg10) (V c main_v40) r k * V c main_arg12 (ix2 k q))
        + V c main_v41 (ix2 0 q) := by
  unfold hid
  rw [attrBlock_apply (k2_pay5 (iblk2 V c 2 t) (iblk2 V c 0 t) (iblk2 V c 1 t) (iblk2 V c 3 t) (iblk2 V c 8 t)) (iblk2 V c 9 t) (iblk2 V c 10 t) (iblk2 V c 11 t) p q,
    attrB1_block_eq V c t, attrW2_block_eq V c t, attrB2_block_eq V c t]
  refine congrArg (· + V c main_v41 (ix2 0 q)) (Finset.sum_congr rfl fun k _ => ?_)
  rw [attrHiddenBlock_apply (iblk2 V c 2 t) (iblk2 V c 0 t) (iblk2 V c 1 t) (iblk2 V c 3 t) (iblk2 V c 8 t) p k, attrW1_block_eq V c t]
  refine congrArg (fun x => max (x + V c main_v40 (ix2 0 k)) (Ideal.ofBits .f32 0x00000000#32) * V c main_arg12 (ix2 k q))
    (Finset.sum_congr rfl fun c' _ => ?_)
  rw [featRows_eq V c t p c' r hr]

/-! ## The heads' array -/

/-- What point `t` writes back to the heads' array is block `t` of the heads' rows. -/
theorem headsFlushed_eq (c : Dev nD) (t : Fin cfg2.N) :
    (dat2 V c).flushed 13 t
      = ((cfg2.win 13).blk t).view.read (Elt Ideal) (headsOf (featOf (V c main_v36) (V c main_v25) (V c main_v11) (V c main_v37)) (V c main_arg6) (V c main_v38) (V c main_arg8) (V c main_v39) (V c main_arg10) (V c main_v40) (V c main_arg12) (V c main_v41)) := by
  have hN : cfg2.N = 25 := N_2
  obtain ⟨-, -, -, -, -, -, -, -, -, -, -, -, -, ⟨e0, e1⟩⟩ := blockIndex2 t
  show (cfg2.win 13).cut (grid2.coords t) ((dat2 V c).after 13 t) = _
  rw [after2_13]
  unfold outsAt2
  dsimp only
  funext j
  obtain ⟨p, r, rfl⟩ : ∃ (p : Fin 6000) (r : Fin 7), j = ix2 p r := ⟨j 0, j 1, eq_ix2 j⟩
  have hR : t.val * 6000 + p.val < 150000 := by have := t.isLt; omega
  have hemb : ((cfg2.win 13).blk t).view.emb (ix2 p r) = ix2 (⟨t.val * 6000 + p.val, hR⟩ : Fin 150000) r := by
    funext a
    apply Fin.ext
    match a with
    | ⟨0, _⟩ => show win2_13.index t (0 : Fin 2) * 6000 + 1 * p.val = t.val * 6000 + p.val; rw [e0]; omega
    | ⟨1, _⟩ => show win2_13.index t (1 : Fin 2) * 7 + 1 * r.val = r.val; rw [e1]; omega
  show out2_A_13 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (ix2 p r)
    = headsOf (featOf (V c main_v36) (V c main_v25) (V c main_v11) (V c main_v37)) (V c main_arg6) (V c main_v38) (V c main_arg8) (V c main_v39) (V c main_arg10) (V c main_v40) (V c main_arg12) (V c main_v41) (((cfg2.win 13).blk t).view.emb (ix2 p r))
  rw [hemb]
  by_cases h0 : r.val = 0
  · rw [topoStore_apply (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) p r h0,
      headsOf_topo (featOf (V c main_v36) (V c main_v25) (V c main_v11) (V c main_v37)) (V c main_arg6) (V c main_v38) (V c main_arg8) (V c main_v39) (V c main_arg10) (V c main_v40) (V c main_arg12) (V c main_v41) ⟨t.val * 6000 + p.val, hR⟩ r h0]
    exact topoRows_eq V c t p ⟨t.val * 6000 + p.val, hR⟩ rfl
  · have hq : r.val - 1 < 6 := by have := r.isLt; omega
    have hr : r.val = (⟨r.val - 1, hq⟩ : Fin 6).val + 1 := by show r.val = r.val - 1 + 1; omega
    rw [attrStore_apply (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) p r ⟨r.val - 1, hq⟩ hr,
      headsOf_attr (featOf (V c main_v36) (V c main_v25) (V c main_v11) (V c main_v37)) (V c main_arg6) (V c main_v38) (V c main_arg8) (V c main_v39) (V c main_arg10) (V c main_v40) (V c main_arg12) (V c main_v41) ⟨t.val * 6000 + p.val, hR⟩ r ⟨r.val - 1, hq⟩ hr]
    exact attrRows_eq V c t p ⟨r.val - 1, hq⟩ ⟨t.val * 6000 + p.val, hR⟩ rfl

/-- An entry of the heads' array is in point `t`'s block iff each coordinate is in the block's range on its axis. -/
theorem mem_headsBlock (t : Fin cfg2.N) (i : S150000x7.Idx) :
    i ∈ ((cfg2.win 13).blk t).view.set ↔ ∀ a : Fin 2, win2_13.index t a * S6000x7.size a ≤ (i a).val
      ∧ (i a).val < win2_13.index t a * S6000x7.size a + S6000x7.size a := by
  show i ∈ ((View.whole main_v42_1).slice (win2_13.rect t)).set ↔ _
  rw [View.set_slice_whole, Rect.mem_set_unit]
  exact Iff.rfl

/-- Every entry of the heads' array is in the block of the point that holds its row: point `row / 6000`. -/
theorem headsBlocks_cover (i : S150000x7.Idx) :
    ∃ t : Fin cfg2.N, (cfg2.win 13).flush t = true ∧ i ∈ ((cfg2.win 13).blk t).view.set := by
  have hN : cfg2.N = 25 := N_2
  have hi0 : (i 0).val < 150000 := idx2_lt0 i
  have hi1 : (i 1).val < 7 := idx2_lt1 i
  have ht : (i 0).val / 6000 < cfg2.N := by omega
  obtain ⟨-, -, -, -, -, -, -, -, -, -, -, -, -, ⟨e0, e1⟩⟩ := blockIndex2 ⟨(i 0).val / 6000, ht⟩
  refine ⟨⟨(i 0).val / 6000, ht⟩, flush2_13 _, ?_⟩
  rw [mem_headsBlock]
  intro a
  match a with
  | ⟨0, _⟩ =>
    show win2_13.index ⟨(i 0).val / 6000, ht⟩ (0 : Fin 2) * 6000 ≤ (i 0).val
      ∧ (i 0).val < win2_13.index ⟨(i 0).val / 6000, ht⟩ (0 : Fin 2) * 6000 + 6000
    rw [e0]
    show (i 0).val / 6000 * 6000 ≤ (i 0).val ∧ (i 0).val < (i 0).val / 6000 * 6000 + 6000
    omega
  | ⟨1, _⟩ =>
    show win2_13.index ⟨(i 0).val / 6000, ht⟩ (1 : Fin 2) * 7 ≤ (i 1).val
      ∧ (i 1).val < win2_13.index ⟨(i 0).val / 6000, ht⟩ (1 : Fin 2) * 7 + 7
    rw [e1]
    omega

/-- THE HEADS' ARRAY after the region: the heads' rows of the arrays the region finds. -/
theorem final2_heads (c : Dev nD) :
    (dat2 (F := Ideal) V c).arrAt 13 cfg2.N = headsOf (featOf (V c main_v36) (V c main_v25) (V c main_v11) (V c main_v37)) (V c main_arg6) (V c main_v38) (V c main_arg8) (V c main_v39) (V c main_arg10) (V c main_v40) (V c main_arg12) (V c main_v41) :=
  (dat2 V c).arrAt_eq_of_cover 13 (headsOf (featOf (V c main_v36) (V c main_v25) (V c main_v11) (V c main_v37)) (V c main_arg6) (V c main_v38) (V c main_arg8) (V c main_v39) (V c main_arg10) (V c main_v40) (V c main_arg12) (V c main_v41))
    (fun t _ => headsFlushed_eq V c t) headsBlocks_cover

/-- Column 0 of the heads' array: the topology head of the node's feature row. -/
theorem final2_topo (c : Dev nD) (p : Fin 150000) :
    (dat2 (F := Ideal) V c).arrAt 13 cfg2.N (ix2 p (0 : Fin 7))
      = (∑ k : Fin 16, hid (featOf (V c main_v36) (V c main_v25) (V c main_v11) (V c main_v37)) (V c main_arg6) (V c main_v38) p k * V c main_arg8 (ix2 k 0))
        + V c main_v39 (ix2 0 0) := by
  rw [final2_heads V c]
  exact headsOf_topo (featOf (V c main_v36) (V c main_v25) (V c main_v11) (V c main_v37)) (V c main_arg6) (V c main_v38) (V c main_arg8) (V c main_v39) (V c main_arg10) (V c main_v40) (V c main_arg12) (V c main_v41) p 0 rfl

/-- Column `q + 1` of the heads' array: output `q` of the attribute head of the node's feature row. -/
theorem final2_attr (c : Dev nD) (p : Fin 150000) (q : Fin 6) :
    (dat2 (F := Ideal) V c).arrAt 13 cfg2.N (ix2 p (⟨q.val + 1, by omega⟩ : Fin 7))
      = (∑ k : Fin 16, hid (featOf (V c main_v36) (V c main_v25) (V c main_v11) (V c main_v37)) (V c main_arg10) (V c main_v40) p k * V c main_arg12 (ix2 k q))
        + V c main_v41 (ix2 0 q) := by
  rw [final2_heads V c]
  exact headsOf_attr (featOf (V c main_v36) (V c main_v25) (V c main_v11) (V c main_v37)) (V c main_arg6) (V c main_v38) (V c main_arg8) (V c main_v39) (V c main_arg10) (V c main_v40) (V c main_arg12) (V c main_v41) p ⟨q.val + 1, by omega⟩ q rfl

end Heads

end Cert.KernelIdeal.Blocks

end
-- ==== Proof.Bridge1.lean ====
/-
  The first layer's scaled node table, in the reference's words.

  Region 0 computes, for node `p` and column `q`, the row–column product of the features with the first weight
  matrix, scaled by the node's inverse square-root degree. The reference computes the same product (its
  `dot_general`) and the same degrees, so the kernel's table is the reference's product times its degree factor.
-/
import proofs.«132109_j42992622632991_2_alg».proof.Proof.Chain
import proofs.«132109_j42992622632991_2_alg».proof.Proof.Region0
import Idealize.ShloMosaic.Lib.Pipeline.Value
import Idealize.ShloMosaic.Lib.ValueIdx

set_option maxRecDepth 16384

noncomputable section

namespace Cert.KernelIdeal.Whole

open Cert.KernelIdeal Cert.KernelIdeal.Gen Cert.ReferenceIdeal.Read Cert.KernelIdeal.Blocks
open Idealize.ShloMosaic Idealize.ShloMosaic.TcCoe Idealize.SL.Sem Idealize.ShloMosaic.ValueIdx

/-- The degree column at row `p` is the degree vector at `p`. -/
theorem dcol_apply (e : (⟨S2x2400000, .i32⟩ : BufTy).Contents (Elt Ideal)) (p : Fin 150000) :
    dcol e (ix2 p (0 : Fin 1)) = val_main_v11 (F := Ideal) e (ix1 p) := by
  unfold dcol
  exact shapeCast_apply _ shapeCasts_S150000_S150000x1 (ix2 p (0 : Fin 1)) (ix1 p)
    (by rewrite [Shape.rowMajor_val_two, Shape.rowMajor_val_one]; show p.val = p.val * 1 + 0; omega)

/-- Region 0's table is the reference's first product scaled by the degree factor, entry by entry. -/
theorem y1_eq (a0 : (⟨S150000x6, .f32⟩ : BufTy).Contents (Elt Ideal)) (a1 : (⟨S2x2400000, .i32⟩ : BufTy).Contents (Elt Ideal))
    (a2 : (⟨S6x32, .f32⟩ : BufTy).Contents (Elt Ideal)) (p : Fin 150000) (q : Fin 32) :
    y1Of a0 a2 (dcol a1) (ix2 p q) = val_main_v4 (F := Ideal) a0 a2 (ix2 p q) * val_main_v11 (F := Ideal) a1 (ix1 p) := by
  rw [y1Of_ix2, dcol_apply, val_main_v4_apply]
  have hl : ∀ k : Fin 6, lidx_main_v4 (ix2 p q) k = ix2 p k := fun k => funext fun a => match a with | ⟨0, _⟩ => rfl | ⟨1, _⟩ => rfl
  have hr : ∀ k : Fin 6, ridx_main_v4 (ix2 p q) k = ix2 k q := fun k => funext fun a => match a with | ⟨0, _⟩ => rfl | ⟨1, _⟩ => rfl
  simp only [hl, hr]

end Cert.KernelIdeal.Whole

end
-- ==== Proof.LibGraphOps.lean ====
/-
  The host's row gather and accumulating scatter read at an index, and the facts on index words and degree counts that go
  with them.

  Reading the rows `idx[e, 0]` of an array `x : [N, C]` (or the elements of an `x : [N]`) at a column of integers
  `idx : [E, 1]` is a `stablehlo.gather` with the row axis collapsed: result row `e` is the operand's row at `idx[e, 0]`, read
  as a signed integer and clamped into `[0, N − 1]`. Adding the rows `u[e]` of an array `u : [E, C]` into the rows
  `idx[e, 0]` of an array `z : [N, C]` is a `stablehlo.scatter` with an `add` body and the row axis inserted: update row `e`
  lands on the operand's row `idx[e, 0]`, read signed and NOT clamped, and is dropped when that is outside the operand. So
  an update that lands on row `n` has `idx[e, 0] = n` as an integer; such a word is not negative, so the negative-index wrap
  `if v < 0 then v + N else v` leaves it alone, and the gather's clamp reads row `n` too.
  Last, the degree a scatter of ones accumulates is a natural number, and the inverse square root of a real `≥ 1` is a
  nonnegative finite extended real.
-/
import Idealize.ShloMosaic.PureOps.Ideal
import Idealize.ShloMosaic.PureOps.Ideal.Laws
import Idealize.ShloMosaic.Lib.ValueIdx

noncomputable section

open scoped BigOperators

namespace Cert.Lib

open Idealize.ShloMosaic Idealize.ShloMosaic.ValueIdx

/-! ## The row gather of a rank-2 (or rank-1) operand at a column of start indices -/

section Gather
variable {α : Type}

/-- The row gather's dimension numbers for an operand `[N, C]`, start indices `[E, 1]` and result `[E, C]`: the row axis
    collapsed, the column axis an offset axis, whole rows sliced. -/
abbrev rowsGatherDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row gather at `(e, k)`: the operand at row `idx[e, 0]`, read signed and clamped into `[0, N − 1]`, column `k`. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowsGatherDims N C E wf) x idx (ix2 e k)
      = x (ix2 ⟨min (idx (ix2 e (⟨0, Nat.one_pos⟩ : Fin 1))).toInt.toNat (N - 1), by omega⟩ k) := by
  unfold Host.gather
  congr 1
  funext a
  refine Fin.ext ?_
  match a with
  | ⟨0, _⟩ =>
    show (rowsGatherDims N C E wf).start (ix2 e k) idx 0 + (rowsGatherDims N C E wf).batchCoord (ix2 e k) 0
      + (rowsGatherDims N C E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGatherDims N C E wf).startIndexMap from List.mem_singleton.mpr rfl)]
    have hsi : (rowsGatherDims N C E wf).siIdx (ix2 e k) ⟨List.idxOf (0 : Fin 2) (rowsGatherDims N C E wf).startIndexMap,
        List.idxOf_lt_length_iff.2 (List.mem_singleton.mpr rfl)⟩ = ix2 e (⟨0, Nat.one_pos⟩ : Fin 1) := by
      funext b; refine Fin.ext ?_
      match b with
      | ⟨0, _⟩ => rfl
      | ⟨1, _⟩ => rfl
    rw [hsi]
    rfl
  | ⟨1, _⟩ =>
    show (rowsGatherDims N C E wf).start (ix2 e k) idx 1 + (rowsGatherDims N C E wf).batchCoord (ix2 e k) 1
      + (rowsGatherDims N C E wf).offCoord (ix2 e k) 1 = _
    rw [GatherDims.batchCoord_eq_zero _ _ _ List.not_mem_nil]
    unfold GatherDims.start
    rw [dif_neg (show (1 : Fin 2) ∉ (rowsGatherDims N C E wf).startIndexMap from (by decide : (1 : Fin 2) ∉ ([0] : List (Fin 2))))]
    simp only [Nat.add_zero, Nat.zero_add]
    unfold GatherDims.offCoord
    rw [dif_pos ((GatherDims.mem_sKept _ _).2 ⟨(by decide : (1 : Fin 2) ∉ ([0] : List (Fin 2))), List.not_mem_nil⟩)]
    rfl

/-- The gather's dimension numbers for a flat operand `[N]`, start indices `[E, 1]` and result `[E]`: the one axis
    collapsed, single elements sliced. -/
abbrev vecGatherDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The flat gather at `e`: the operand at `idx[e, 0]`, read signed and clamped into `[0, N − 1]`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 ⟨min (idx (ix2 e (⟨0, Nat.one_pos⟩ : Fin 1))).toInt.toNat (N - 1), by omega⟩) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (⟨0, Nat.one_pos⟩ : Fin 1) := by
    funext b; refine Fin.ext ?_
    match b with
    | ⟨0, _⟩ => rfl
    | ⟨1, _⟩ => rfl
  rw [hsi]
  rfl

end Gather

/-! ## The accumulating scatter at a column of scatter indices: where an update lands -/

section Scatter

/-- The row scatter's dimension numbers for an operand `[N, C]`, scatter indices `[E, 1]` and updates `[E, C]`: the
    row axis inserted, the column axis a window axis. -/
abbrev rowsScatterDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N C E w : Nat} (wf : ScatterDims.WF ⟨2, ![N, C]⟩ ⟨2, ![E, 1]⟩ ⟨2, ![E, C]⟩ [1] [0] [0] 1)

/-- On the row axis the window of update `(e, k)` starts at `idx[e, 0]` read as a signed integer … -/
theorem rowsScatter_start0 (j : (⟨2, ![E, C]⟩ : Shape).Idx) (idx : IVec ⟨2, ![E, 1]⟩ w) :
    (rowsScatterDims N C E wf).start j idx 0 = (idx (ix2 (j 0) (⟨0, Nat.one_pos⟩ : Fin 1))).toInt := by
  unfold ScatterDims.start
  rw [dif_pos (show (0 : Fin 2) ∈ (rowsScatterDims N C E wf).scatterDimsToOperandDims from List.mem_singleton.mpr rfl)]
  have hsi : (rowsScatterDims N C E wf).siIdx j ⟨List.idxOf (0 : Fin 2) (rowsScatterDims N C E wf).scatterDimsToOperandDims,
      List.idxOf_lt_length_iff.2 (List.mem_singleton.mpr rfl)⟩ = ix2 (j 0) (⟨0, Nat.one_pos⟩ : Fin 1) := by
    funext b; refine Fin.ext ?_
    match b with
    | ⟨0, _⟩ => rfl
    | ⟨1, _⟩ => rfl
  rw [hsi]
  rfl
/-- … and on the column axis at `0`; -/
theorem rowsScatter_start1 (j : (⟨2, ![E, C]⟩ : Shape).Idx) (idx : IVec ⟨2, ![E, 1]⟩ w) :
    (rowsScatterDims N C E wf).start j idx 1 = 0 := by
  unfold ScatterDims.start
  rw [dif_neg (show (1 : Fin 2) ∉ (rowsScatterDims N C E wf).scatterDimsToOperandDims from
    (by decide : (1 : Fin 2) ∉ ([0] : List (Fin 2))))]
/-- the window coordinate is `0` on the (inserted) row axis … -/
theorem rowsScatter_window0 (j : (⟨2, ![E, C]⟩ : Shape).Idx) : (rowsScatterDims N C E wf).window j 0 = 0 := by
  unfold ScatterDims.window
  rw [dif_neg (show (0 : Fin 2) ∉ (rowsScatterDims N C E wf).sKept from
    (by decide : (0 : Fin 2) ∉ ([1] : List (Fin 2))))]
/-- … and the update's column on the column axis. -/
theorem rowsScatter_window1 (j : (⟨2, ![E, C]⟩ : Shape).Idx) : (rowsScatterDims N C E wf).window j 1 = (j 1).val := by
  unfold ScatterDims.window
  rw [dif_pos (show (1 : Fin 2) ∈ (rowsScatterDims N C E wf).sKept from
    (by decide : (1 : Fin 2) ∈ ([1] : List (Fin 2))))]
  rfl

/-- WHERE A ROW UPDATE LANDS: update `j = (e, k)` lands on operand element `p` exactly when `idx[e, 0]`, read signed, is
    `p`'s row and `k` is `p`'s column. -/
theorem scatter_rows_resultIdx_iff (j : (⟨2, ![E, C]⟩ : Shape).Idx) (idx : IVec ⟨2, ![E, 1]⟩ w)
    (p : (⟨2, ![N, C]⟩ : Shape).Idx) :
    (rowsScatterDims N C E wf).resultIdx? j idx = some p
      ↔ (idx (ix2 (j 0) (⟨0, Nat.one_pos⟩ : Fin 1))).toInt = ((p 0).val : Int) ∧ (j 1).val = (p 1).val := by
  have hp0 := idx2_lt0 p
  have hp1 := idx2_lt1 p
  have hj1 := idx2_lt1 j
  unfold ScatterDims.resultIdx?
  constructor
  · intro h
    split at h
    · rename_i hall
      have heq := Option.some.inj h
      have h0 : ((rowsScatterDims N C E wf).start j idx 0 + ((rowsScatterDims N C E wf).window j 0 : Int)).toNat = (p 0).val :=
        congrArg Fin.val (congrFun heq 0)
      have h1 : ((rowsScatterDims N C E wf).start j idx 1 + ((rowsScatterDims N C E wf).window j 1 : Int)).toNat = (p 1).val :=
        congrArg Fin.val (congrFun heq 1)
      have hn0 := (hall 0).1
      rw [rowsScatter_start0, rowsScatter_window0] at h0 hn0
      rw [rowsScatter_start1, rowsScatter_window1] at h1
      constructor <;> omega
    · exact absurd h (by simp)
  · rintro ⟨h0, h1⟩
    have hall : ∀ a : Fin 2, 0 ≤ (rowsScatterDims N C E wf).start j idx a + ((rowsScatterDims N C E wf).window j a : Int)
        ∧ (rowsScatterDims N C E wf).start j idx a + ((rowsScatterDims N C E wf).window j a : Int)
          < ((⟨2, ![N, C]⟩ : Shape).size a : Int) := by
      intro a
      match a with
      | ⟨0, _⟩ =>
        show 0 ≤ (rowsScatterDims N C E wf).start j idx 0 + ((rowsScatterDims N C E wf).window j 0 : Int)
          ∧ (rowsScatterDims N C E wf).start j idx 0 + ((rowsScatterDims N C E wf).window j 0 : Int) < (N : Int)
        rw [rowsScatter_start0, rowsScatter_window0, h0]; omega
      | ⟨1, _⟩ =>
        show 0 ≤ (rowsScatterDims N C E wf).start j idx 1 + ((rowsScatterDims N C E wf).window j 1 : Int)
          ∧ (rowsScatterDims N C E wf).start j idx 1 + ((rowsScatterDims N C E wf).window j 1 : Int) < (C : Int)
        rw [rowsScatter_start1, rowsScatter_window1]; omega
    rw [dif_pos hall]
    congr 1
    funext a
    refine Fin.ext ?_
    match a with
    | ⟨0, _⟩ =>
      show ((rowsScatterDims N C E wf).start j idx 0 + ((rowsScatterDims N C E wf).window j 0 : Int)).toNat = (p 0).val
      rw [rowsScatter_start0, rowsScatter_window0, h0]; omega
    | ⟨1, _⟩ =>
      show ((rowsScatterDims N C E wf).start j idx 1 + ((rowsScatterDims N C E wf).window j 1 : Int)).toNat = (p 1).val
      rw [rowsScatter_start1, rowsScatter_window1]; omega

/-- A row update that lands on `p` has the integer `idx[e, 0]` equal to `p`'s row. -/
theorem scatter_rows_landing (j : (⟨2, ![E, C]⟩ : Shape).Idx) (idx : IVec ⟨2, ![E, 1]⟩ w) (p : (⟨2, ![N, C]⟩ : Shape).Idx)
    (h : (rowsScatterDims N C E wf).resultIdx? j idx = some p) :
    (idx (ix2 (j 0) (⟨0, Nat.one_pos⟩ : Fin 1))).toInt = ((p 0).val : Int) :=
  ((scatter_rows_resultIdx_iff wf j idx p).1 h).1

/-- A row update that lands on `p` has `p`'s column. -/
theorem scatter_rows_landing_col (j : (⟨2, ![E, C]⟩ : Shape).Idx) (idx : IVec ⟨2, ![E, 1]⟩ w) (p : (⟨2, ![N, C]⟩ : Shape).Idx)
    (h : (rowsScatterDims N C E wf).resultIdx? j idx = some p) : (j 1).val = (p 1).val :=
  ((scatter_rows_resultIdx_iff wf j idx p).1 h).2

end Scatter

section ScatterVec

/-- The dimension numbers of the same scatter into a flat operand `[N]`, scatter indices `[E, 1]` and updates `[E]`:
    the one axis inserted, no window axis. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

/-- The window of update `e` starts at `idx[e, 0]` read as a signed integer … -/
theorem vecScatter_start0 (j : (⟨1, ![E]⟩ : Shape).Idx) (idx : IVec ⟨2, ![E, 1]⟩ w) :
    (vecScatterDims N E wf).start j idx 0 = (idx (ix2 (j 0) (⟨0, Nat.one_pos⟩ : Fin 1))).toInt := by
  unfold ScatterDims.start
  rw [dif_pos (show (0 : Fin 1) ∈ (vecScatterDims N E wf).scatterDimsToOperandDims from List.mem_singleton.mpr rfl)]
  have hsi : (vecScatterDims N E wf).siIdx j ⟨List.idxOf (0 : Fin 1) (vecScatterDims N E wf).scatterDimsToOperandDims,
      List.idxOf_lt_length_iff.2 (List.mem_singleton.mpr rfl)⟩ = ix2 (j 0) (⟨0, Nat.one_pos⟩ : Fin 1) := by
    funext b; refine Fin.ext ?_
    match b with
    | ⟨0, _⟩ => rfl
    | ⟨1, _⟩ => rfl
  rw [hsi]
  rfl
/-- … and its window coordinate on the (inserted) axis is `0`. -/
theorem vecScatter_window0 (j : (⟨1, ![E]⟩ : Shape).Idx) : (vecScatterDims N E wf).window j 0 = 0 := by
  unfold ScatterDims.window
  rw [dif_neg (show (0 : Fin 1) ∉ (vecScatterDims N E wf).sKept from
    (by decide : (0 : Fin 1) ∉ ([] : List (Fin 1))))]

/-- WHERE A FLAT UPDATE LANDS: update `e` lands on operand element `p` exactly when `idx[e, 0]`, read signed, is `p`. -/
theorem scatter_vec_resultIdx_iff (j : (⟨1, ![E]⟩ : Shape).Idx) (idx : IVec ⟨2, ![E, 1]⟩ w) (p : (⟨1, ![N]⟩ : Shape).Idx) :
    (vecScatterDims N E wf).resultIdx? j idx = some p
      ↔ (idx (ix2 (j 0) (⟨0, Nat.one_pos⟩ : Fin 1))).toInt = ((p 0).val : Int) := by
  have hp0 : (p 0).val < N := (p 0).isLt
  unfold ScatterDims.resultIdx?
  constructor
  · intro h
    split at h
    · rename_i hall
      have h0 : ((vecScatterDims N E wf).start j idx 0 + ((vecScatterDims N E wf).window j 0 : Int)).toNat = (p 0).val :=
        congrArg Fin.val (congrFun (Option.some.inj h) 0)
      have hn0 := (hall 0).1
      rw [vecScatter_start0, vecScatter_window0] at h0 hn0
      omega
    · exact absurd h (by simp)
  · intro h0
    have hall : ∀ a : Fin 1, 0 ≤ (vecScatterDims N E wf).start j idx a + ((vecScatterDims N E wf).window j a : Int)
        ∧ (vecScatterDims N E wf).start j idx a + ((vecScatterDims N E wf).window j a : Int)
          < ((⟨1, ![N]⟩ : Shape).size a : Int) := by
      intro a
      obtain rfl : a = 0 := Subsingleton.elim _ _
      show 0 ≤ (vecScatterDims N E wf).start j idx 0 + ((vecScatterDims N E wf).window j 0 : Int)
        ∧ (vecScatterDims N E wf).start j idx 0 + ((vecScatterDims N E wf).window j 0 : Int) < (N : Int)
      rw [vecScatter_start0, vecScatter_window0, h0]; omega
    rw [dif_pos hall]
    congr 1
    funext a
    obtain rfl : a = 0 := Subsingleton.elim _ _
    refine Fin.ext ?_
    show ((vecScatterDims N E wf).start j idx 0 + ((vecScatterDims N E wf).window j 0 : Int)).toNat = (p 0).val
    rw [vecScatter_start0, vecScatter_window0, h0]; omega

/-- A flat update that lands on `p` has the integer `idx[e, 0]` equal to `p`. -/
theorem scatter_vec_landing (j : (⟨1, ![E]⟩ : Shape).Idx) (idx : IVec ⟨2, ![E, 1]⟩ w) (p : (⟨1, ![N]⟩ : Shape).Idx)
    (h : (vecScatterDims N E wf).resultIdx? j idx = some p) :
    (idx (ix2 (j 0) (⟨0, Nat.one_pos⟩ : Fin 1))).toInt = ((p 0).val : Int) :=
  (scatter_vec_resultIdx_iff wf j idx p).1 h

end ScatterVec

/-! ## The accumulating scatter and the column broadcast at an index -/

section Reads

/-- The accumulating float scatter at the ideal instance, read at operand element `i`: the operand's element plus the sum
    of the updates that land on `i`. -/
theorem scatterAdd_apply {s si u : Shape} {w : Nat} {φ : FTy} (d : ScatterDims s si u) (x : FVec Ideal s φ)
    (idx : IVec si w) (upd : FVec Ideal u φ) (i : s.Idx) :
    Host.scatterAdd d x idx upd i = x i + ∑ j ∈ Finset.univ.filter (fun j => d.resultIdx? j idx = some i), upd j := rfl

/-- A vector `[E]` broadcast to the column `[E, 1]` reads at `(e, 0)` its element `e`. -/
theorem broadcastInDim_col_apply {α : Type} {E : Nat} (h : (⟨1, ![E]⟩ : Shape).BroadcastsInDim ⟨2, ![E, 1]⟩ ![0])
    (x : (⟨1, ![E]⟩ : Shape).Idx → α) (e : Fin E) :
    broadcastInDim ⟨2, ![E, 1]⟩ ![0] h x (ix2 e (⟨0, Nat.one_pos⟩ : Fin 1)) = x (ix1 e) := by
  unfold broadcastInDim
  congr 1
  funext a
  obtain rfl : a = 0 := Subsingleton.elim _ _
  refine Fin.ext ?_
  by_cases h1 : E = 1
  · rw [dif_pos (show (⟨1, ![E]⟩ : Shape).size 0 = 1 from h1)]
    show 0 = e.val
    have := e.isLt; omega
  · rw [dif_neg (show ¬ (⟨1, ![E]⟩ : Shape).size 0 = 1 from h1)]
    rfl

end Reads

/-! ## An index word that equals a row number: not negative, and its own clamp -/

section Words

/-- A word whose signed value is the natural number `i < N` is its own clamp into `[0, N − 1]`. -/
theorem clamp_of_toInt_eq {w N i : Nat} (hi : i < N) (v : BitVec w) (h : v.toInt = (i : Int)) :
    min v.toInt.toNat (N - 1) = i := by
  rw [h]; omega

/-- A word whose signed value is not negative is not below zero in the signed order. -/
theorem slt_zero_of_nonneg {w : Nat} (v : BitVec w) (h : 0 ≤ v.toInt) : v.slt 0#w = false := by
  rw [BitVec.slt_eq_decide, BitVec.toInt_zero]
  exact decide_eq_false (by omega)

/-- The negative-index wrap `if v < 0 then v + n else v` (signed comparison) leaves a word that is not negative alone. -/
theorem wrap_of_nonneg {w : Nat} (v n : BitVec w) (h : 0 ≤ v.toInt) :
    Scalar.select (IntOp.cmpi .slt v 0#w) (IntOp.addi v n) v = v := by
  unfold IntOp.cmpi
  simp only [slt_zero_of_nonneg v h]
  exact select_zero _ _

/-- The same on vectors, read at an index: where the comparand `z` is `0` and `v` is not negative, the wrapped vector
    is `v`. -/
theorem select_wrap_apply {s : Shape} {w : Nat} (v z m : IVec s w) (i : s.Idx) (hz : z i = 0#w) (h : 0 ≤ (v i).toInt) :
    select (cmpi .slt v z) (addi v m) v i = v i := by
  show Scalar.select (IntOp.cmpi .slt (v i) (z i)) (IntOp.addi (v i) (m i)) (v i) = v i
  rw [hz]
  exact wrap_of_nonneg _ _ h

/-- The same against the constant vectors `0` and `n`. -/
theorem select_wrap_const_apply {s : Shape} {w : Nat} (v : IVec s w) (n : BitVec w) (i : s.Idx) (h : 0 ≤ (v i).toInt) :
    select (cmpi .slt v (fun _ => 0#w)) (addi v (fun _ => n)) v i = v i :=
  select_wrap_apply v _ _ i rfl h

end Words

/-! ## Degrees: a count of ones, and the inverse square root of a real at least one -/

section Degree

/-- Accumulating the constant `1` over a finite set into `0` gives the set's cardinality, a real number. -/
theorem zero_add_sum_one {J : Type} (S : Finset J) : (0 : EReal) + ∑ _j ∈ S, (1 : EReal) = ((S.card : ℝ) : EReal) := by
  rw [zero_add, Finset.sum_const, EReal.nsmul_eq_mul, mul_one, EReal.coe_natCast]

/-- … so the degree with the self loop, `(0 + Σ_{j ∈ S} 1) + 1`, is the real number `|S| + 1`. -/
theorem zero_add_sum_one_add_one {J : Type} (S : Finset J) :
    ((0 : EReal) + ∑ _j ∈ S, (1 : EReal)) + 1 = (((S.card : ℝ) + 1 : ℝ) : EReal) := by
  rw [zero_add_sum_one, EReal.coe_add, EReal.coe_one]

/-- The inverse square root of a real `r ≥ 1` is a nonnegative extended real other than `⊤`. -/
theorem rsqrt_nonneg_ne_top {r : ℝ} (hr : 1 ≤ r) : 0 ≤ Ideal.rsqrt (r : EReal) ∧ Ideal.rsqrt (r : EReal) ≠ ⊤ := by
  rw [Ideal.rsqrt_coe, if_neg (by linarith), if_neg (by linarith)]
  exact ⟨EReal.coe_nonneg.2 (inv_nonneg.2 (Real.sqrt_nonneg r)), EReal.coe_ne_top _⟩

/-- It is the real number `(√r)⁻¹`. -/
theorem rsqrt_coe_of_one_le {r : ℝ} (hr : 1 ≤ r) : Ideal.rsqrt (r : EReal) = (((Real.sqrt r)⁻¹ : ℝ) : EReal) := by
  rw [Ideal.rsqrt_coe, if_neg (by linarith), if_neg (by linarith)]

/-- The inverse square root of a degree with the self loop is nonnegative and finite. -/
theorem rsqrt_degree_nonneg_ne_top {J : Type} (S : Finset J) :
    0 ≤ Ideal.rsqrt (((0 : EReal) + ∑ _j ∈ S, (1 : EReal)) + 1)
      ∧ Ideal.rsqrt (((0 : EReal) + ∑ _j ∈ S, (1 : EReal)) + 1) ≠ ⊤ := by
  rw [zero_add_sum_one_add_one]
  exact rsqrt_nonneg_ne_top (by have : (0 : ℝ) ≤ (S.card : ℝ) := Nat.cast_nonneg _; linarith)

end Degree

end Cert.Lib

end
-- ==== Proof.LibGcnNorm.lean ====
/-
  The algebra of a symmetrically normalised graph convolution on the extended reals, over abstract finite index types.

  On the extended reals multiplication does not distribute over addition in general (`⊤ + ⊥` is `⊥`), but a factor that is
  nonnegative and finite does distribute, over a sum of any length. A graph convolution normalised by the inverse square
  roots of the degrees multiplies the message of every edge by the factor of its source node and by the factor of its
  destination node; over the edges that land on one node the destination factor is one constant, nonnegative and finite, so
  it may be applied once to the accumulated sum instead of edge by edge.
-/
import Mathlib.Data.EReal.Inv
import Mathlib.Algebra.BigOperators.Group.Finset.Basic

noncomputable section

open scoped BigOperators

namespace Cert.Lib

/-- A nonnegative finite factor distributes over a finite sum of extended reals: `c · Σ_{j ∈ S} f j = Σ_{j ∈ S} c · f j`. -/
theorem mul_sum_of_nonneg_ne_top {J : Type} [DecidableEq J] (S : Finset J) (f : J → EReal) {c : EReal} (hc0 : 0 ≤ c)
    (hct : c ≠ ⊤) : c * ∑ j ∈ S, f j = ∑ j ∈ S, c * f j := by
  induction S using Finset.induction_on with
  | empty => simp
  | insert a S ha ih =>
    rw [Finset.sum_insert ha, Finset.sum_insert ha, EReal.left_distrib_of_nonneg_of_ne_top hc0 hct, ih]

/-- The same with the factor on the right: `(Σ_{j ∈ S} f j) · c = Σ_{j ∈ S} f j · c`. -/
theorem sum_mul_of_nonneg_ne_top {J : Type} [DecidableEq J] (S : Finset J) (f : J → EReal) {c : EReal} (hc0 : 0 ≤ c)
    (hct : c ≠ ⊤) : (∑ j ∈ S, f j) * c = ∑ j ∈ S, f j * c := by
  rw [mul_comm, mul_sum_of_nonneg_ne_top S f hc0 hct]
  exact Finset.sum_congr rfl fun j _ => mul_comm _ _

/-- The symmetric normalisation of a graph convolution, without the accumulator's leading zero: the destination factor
    `c` (nonnegative, finite, and the value of `d` on every edge of `S`) applied once to the sum of the messages
    `a j · s j` plus the self term `self · c` is the sum of the messages normalised edge by edge, `a j · (s j · d j)`, plus
    `self · (c · c)`. -/
theorem gcn_norm' {J : Type} [DecidableEq J] (S : Finset J) (a s d : J → EReal) (c self : EReal) (hc0 : 0 ≤ c)
    (hct : c ≠ ⊤) (hd : ∀ j ∈ S, d j = c) :
    c * ((∑ j ∈ S, a j * s j) + self * c) = (∑ j ∈ S, a j * (s j * d j)) + self * (c * c) := by
  rw [EReal.left_distrib_of_nonneg_of_ne_top hc0 hct, mul_sum_of_nonneg_ne_top S _ hc0 hct]
  congr 1
  · refine Finset.sum_congr rfl fun j hj => ?_
    rw [hd j hj, mul_comm c, mul_assoc]
  · rw [mul_left_comm]

/-- The symmetric normalisation of a graph convolution, as an accumulation into zero reads: the destination factor `c`
    (nonnegative, finite, and the value of `d` on every edge of `S`) applied once to `(0 + Σ_{j ∈ S} a j · s j) + self · c`
    is `(0 + Σ_{j ∈ S} a j · (s j · d j)) + self · (c · c)`. -/
theorem gcn_norm {J : Type} [DecidableEq J] (S : Finset J) (a s d : J → EReal) (c self : EReal) (hc0 : 0 ≤ c)
    (hct : c ≠ ⊤) (hd : ∀ j ∈ S, d j = c) :
    c * ((0 + ∑ j ∈ S, a j * s j) + self * c) = (0 + ∑ j ∈ S, a j * (s j * d j)) + self * (c * c) := by
  rw [zero_add, zero_add]
  exact gcn_norm' S a s d c self hc0 hct hd

end Cert.Lib

end
-- ==== Proof.GcnLayer.lean ====
/-
  One layer of the graph convolution, in the two arrangements the programs use.

  Write `xw` for a node table (one row per node), `dinv` for the inverse square roots of the degrees, `s e` for the row
  an edge's source index selects and `F i` for the edges whose destination index lands on node `i`. One program scales
  the table by `dinv` first, sums the gathered rows over `F i`, adds the node's own scaled row and scales the total by
  `dinv i`:            dinv i · ( Σ_{e ∈ F i} xw (s e) · dinv (s e)  +  xw i · dinv i ).
  The other weighs every gathered row by the product of the two ends' factors and adds the self term separately:
                         Σ_{e ∈ F i} xw (s e) · (dinv (s e) · dinv (d e))  +  xw i · (dinv i · dinv i).
  For an edge in `F i` the destination factor `dinv (d e)` is `dinv i`, a nonnegative real, so it distributes over the
  sum: the two are equal on the extended reals whatever the table holds.
-/
import proofs.«132109_j42992622632991_2_alg».proof.Proof.LibGraphOps
import proofs.«132109_j42992622632991_2_alg».proof.Proof.LibGcnNorm

noncomputable section

namespace Cert.Lib

open Idealize.ShloMosaic Idealize.ShloMosaic.ValueIdx

/-- The row an index word selects: read signed, clamped into `[0, N − 1]`. -/
def rowOf {N : Nat} (hN : 0 < N) (v : BitVec 32) : Fin N := ⟨min v.toInt.toNat (N - 1), by omega⟩

section Layer

variable {N C E : Nat} (hN : 0 < N)
  (gwf : GatherDims.WF ⟨2, ![N, C]⟩ ⟨2, ![E, 1]⟩ ⟨2, ![E, C]⟩ [1] [0] [] [0] [] 1 ![1, C])
  (vwf : GatherDims.WF ⟨1, ![N]⟩ ⟨2, ![E, 1]⟩ ⟨1, ![E]⟩ [] [0] [] [0] [] 1 ![1])
  (swf : ScatterDims.WF ⟨2, ![N, C]⟩ ⟨2, ![E, 1]⟩ ⟨2, ![E, C]⟩ [1] [0] [0] 1)

include hN in
/-- The graph-convolution layer in its two arrangements agrees at every node and column: the destination's factor
    is the node's own on every edge that lands there, and a nonnegative real factor distributes over the sum.
    `updK` is the table one program scatters (row `src e` of `xw`, already scaled by `dinv (src e)`), `updR` the other's
    (the same row weighed by both ends' factors); `rowOf` reads an index word signed and clamped. -/
theorem layer_eq (dinv : (⟨1, ![N]⟩ : Shape).Idx → EReal) (h0 : ∀ i, 0 ≤ dinv i) (ht : ∀ i, dinv i ≠ ⊤)
    (srcI dstRaw dstN : IVec ⟨2, ![E, 1]⟩ 32)
    (hdst : ∀ e : Fin E, 0 ≤ (dstRaw (ix2 e (⟨0, Nat.one_pos⟩ : Fin 1))).toInt →
      dstN (ix2 e (⟨0, Nat.one_pos⟩ : Fin 1)) = dstRaw (ix2 e (⟨0, Nat.one_pos⟩ : Fin 1)))
    (xw zero : (⟨2, ![N, C]⟩ : Shape).Idx → EReal) (hz : ∀ i, zero i = 0)
    (updK updR : (⟨2, ![E, C]⟩ : Shape).Idx → EReal)
    (hK : ∀ (e : Fin E) (q : Fin C), updK (ix2 e q)
      = xw (ix2 (rowOf hN (srcI (ix2 e (⟨0, Nat.one_pos⟩ : Fin 1)))) q) * dinv (ix1 (rowOf hN (srcI (ix2 e (⟨0, Nat.one_pos⟩ : Fin 1))))))
    (hR : ∀ (e : Fin E) (q : Fin C), updR (ix2 e q)
      = xw (ix2 (rowOf hN (srcI (ix2 e (⟨0, Nat.one_pos⟩ : Fin 1)))) q)
        * (dinv (ix1 (rowOf hN (srcI (ix2 e (⟨0, Nat.one_pos⟩ : Fin 1))))) * dinv (ix1 (rowOf hN (dstN (ix2 e (⟨0, Nat.one_pos⟩ : Fin 1)))))))
    (i : Fin N) (k : Fin C) :
    dinv (ix1 i) * (Host.scatterAdd (F := Ideal) (φ := .f32) (rowsScatterDims N C E swf) zero dstRaw updK (ix2 i k)
      + xw (ix2 i k) * dinv (ix1 i))
    = Host.scatterAdd (F := Ideal) (φ := .f32) (rowsScatterDims N C E swf) zero dstRaw updR (ix2 i k)
      + xw (ix2 i k) * (dinv (ix1 i) * dinv (ix1 i)) := by
  rw [scatterAdd_apply, scatterAdd_apply, hz]
  have key := gcn_norm (Finset.univ.filter (fun j : (⟨2, ![E, C]⟩ : Shape).Idx => (rowsScatterDims N C E swf).resultIdx? j dstRaw = some (ix2 i k)))
    (fun j => xw (ix2 (rowOf hN (srcI (ix2 ⟨(j 0).val, idx2_lt0 j⟩ (⟨0, Nat.one_pos⟩ : Fin 1)))) ⟨(j 1).val, idx2_lt1 j⟩))
    (fun j => dinv (ix1 (rowOf hN (srcI (ix2 ⟨(j 0).val, idx2_lt0 j⟩ (⟨0, Nat.one_pos⟩ : Fin 1))))))
    (fun j => dinv (ix1 (rowOf hN (dstN (ix2 ⟨(j 0).val, idx2_lt0 j⟩ (⟨0, Nat.one_pos⟩ : Fin 1))))))
    (dinv (ix1 i)) (xw (ix2 i k)) (h0 _) (ht _) (fun j hj => by
      obtain ⟨e, q, rfl⟩ : ∃ (e : Fin E) (q : Fin C), j = ix2 e q := ⟨⟨(j 0).val, idx2_lt0 j⟩, ⟨(j 1).val, idx2_lt1 j⟩, eq_ix2 j⟩
      have hl : (dstRaw (ix2 e (⟨0, Nat.one_pos⟩ : Fin 1))).toInt = ((i.val : Nat) : Int) :=
        scatter_rows_landing swf (ix2 e q) dstRaw (ix2 i k) (Finset.mem_filter.mp hj).2
      have hn : dstN (ix2 e (⟨0, Nat.one_pos⟩ : Fin 1)) = dstRaw (ix2 e (⟨0, Nat.one_pos⟩ : Fin 1)) :=
        hdst e (by rw [hl]; exact Int.natCast_nonneg _)
      have hrow : rowOf hN (dstN (ix2 e (⟨0, Nat.one_pos⟩ : Fin 1))) = i := Fin.ext (by
        show min (dstN (ix2 e (⟨0, Nat.one_pos⟩ : Fin 1))).toInt.toNat (N - 1) = i.val
        rw [hn]; exact clamp_of_toInt_eq i.isLt _ hl)
      show dinv (ix1 (rowOf hN (dstN (ix2 e (⟨0, Nat.one_pos⟩ : Fin 1))))) = dinv (ix1 i)
      rw [hrow])
  refine Eq.trans ?_ (key.trans ?_)
  · refine congrArg (fun t => dinv (ix1 i) * ((0 + t) + xw (ix2 i k) * dinv (ix1 i))) (Finset.sum_congr rfl fun j _ => ?_)
    obtain ⟨e, q, rfl⟩ : ∃ (e : Fin E) (q : Fin C), j = ix2 e q := ⟨⟨(j 0).val, idx2_lt0 j⟩, ⟨(j 1).val, idx2_lt1 j⟩, eq_ix2 j⟩
    exact hK e q
  · refine congrArg (fun t => (0 + t) + xw (ix2 i k) * (dinv (ix1 i) * dinv (ix1 i))) (Finset.sum_congr rfl fun j _ => ?_)
    obtain ⟨e, q, rfl⟩ : ∃ (e : Fin E) (q : Fin C), j = ix2 e q := ⟨⟨(j 0).val, idx2_lt0 j⟩, ⟨(j 1).val, idx2_lt1 j⟩, eq_ix2 j⟩
    exact (hR e q).symm

end Layer

end Cert.Lib

end
-- ==== Proof.RefAgg.lean ====
/-
  The reference's normalisation factors and neighbourhood aggregates, read at a node.

  The reference computes the degree of every node by scattering ones over the destination indices and adding one for the
  self loop, and takes the inverse square root: a nonnegative finite factor per node. Each layer then gathers, for every
  edge, the source row of the layer's feature table and the factors of the edge's two ends, scatters the products over the
  destination indices, and adds the self term. Here each layer's aggregate is read at a node and a column in one normal
  form — the accumulating scatter of the per-edge products, plus the node's own row times its factor squared — with the
  second layer's recomputed degrees and index columns identified with the first layer's.
-/
import proofs.«132109_j42992622632991_2_alg».proof.Proof.Gen.ReferenceIdeal.Read
import proofs.«132109_j42992622632991_2_alg».proof.Proof.LibGraphOps
import proofs.«132109_j42992622632991_2_alg».proof.Proof.GcnLayer
import Idealize.ShloMosaic.Lib.IdealHost

noncomputable section

open scoped BigOperators

namespace Cert.ReferenceIdeal.Agg

open Cert.ReferenceIdeal Cert.ReferenceIdeal.Gen Cert.ReferenceIdeal.Read Cert.Lib
open Idealize.ShloMosaic Idealize.ShloMosaic.ValueIdx

/-- The degree scatter's dimension numbers are the flat scatter's. -/
theorem scatter_vec_eq : scatter_S150000_S2400000x1_S2400000_n_0_0_1
    = vecScatterDims 150000 2400000 Facts₀.scatter_S150000_S2400000x1_S2400000_n_0_0_1_wf := rfl

/-- The reference's normalisation factor at a node is the inverse square root of `(0 + Σ 1) + 1`, the sum over the edges
    that land on the node: nonnegative and finite. -/
theorem dinv_nonneg_ne_top (x1 : (⟨S2x2400000, .i32⟩ : BufTy).Contents (Elt Ideal)) (i : S150000.Idx) :
    0 ≤ val_main_v11 (F := Ideal) x1 i ∧ val_main_v11 (F := Ideal) x1 i ≠ ⊤ := by
  have h : val_main_v11 (F := Ideal) x1 i
      = Ideal.rsqrt (((0 : EReal) + ∑ _j ∈ Finset.univ.filter (fun j =>
          scatter_S150000_S2400000x1_S2400000_n_0_0_1.resultIdx? j (val_main_v7 (F := Ideal) x1) = some i), (1 : EReal)) + 1) := by
    rw [val_main_v11_apply, val_main_v10_apply, Ideal.hostUnary_rsqrt_def, Ideal.addf_def]
    unfold val_main_v8
    rw [scatterAdd_apply, val_main_v6_apply, val_main_cst_0_apply, val_main_v9_apply, val_main_cst_1_apply]
    simp only [val_main_v5_apply, val_main_cst_apply, Ideal.ofBits_def, Ideal.ofBits_zero_f32, Ideal.ofBits_one_f32]
  rw [h]
  exact rsqrt_degree_nonneg_ne_top _

/-- The gathers' and the row scatter's dimension numbers are the general ones. -/
theorem gather_rows_eq : gather_S150000x32_S2400000x1_S2400000x32_1_0_n_n_0_1_132 = rowsGatherDims 150000 32 2400000 Facts₀.gather_S150000x32_S2400000x1_S2400000x32_1_0_n_n_0_1_132_wf := rfl
theorem gather_vec_eq : gather_S150000_S2400000x1_S2400000_n_0_n_n_0_1_1 = vecGatherDims 150000 2400000 Facts₀.gather_S150000_S2400000x1_S2400000_n_0_n_n_0_1_1_wf := rfl
theorem scatter_rows_eq : scatter_S150000x32_S2400000x1_S2400000x32_1_0_0_1 = rowsScatterDims 150000 32 2400000 Facts₀.scatter_S150000x32_S2400000x1_S2400000x32_1_0_0_1_wf := rfl

/-- Where the raw destination index is not negative, the wrapped destination index is the raw one. -/
theorem dst_wrap (x1 : (⟨S2x2400000, .i32⟩ : BufTy).Contents (Elt Ideal)) (e : Fin 2400000)
    (h : 0 ≤ (val_main_v38 (F := Ideal) x1 (ix2 e (⟨0, Nat.one_pos⟩ : Fin 1))).toInt) :
    val_main_v24 (F := Ideal) x1 (ix2 e (⟨0, Nat.one_pos⟩ : Fin 1)) = val_main_v38 (F := Ideal) x1 (ix2 e (⟨0, Nat.one_pos⟩ : Fin 1)) := by
  have h24 : idx_main_v24 (ix2 e (⟨0, Nat.one_pos⟩ : Fin 1)) = ix1 e := by funext a; match a with | ⟨0, _⟩ => rfl
  have h38 : idx_main_v38 (ix2 e (⟨0, Nat.one_pos⟩ : Fin 1)) = ix1 e := by funext a; match a with | ⟨0, _⟩ => rfl
  rw [val_main_v38_apply, h38] at h ⊢
  rw [val_main_v24_apply, h24]
  unfold val_main_v23 val_main_v20 val_main_v22
  exact select_wrap_apply (val_main_v3 (F := Ideal) x1) (val_main_v19 (F := Ideal)) (val_main_v21 (F := Ideal)) (ix1 e)
    (by rw [val_main_v19_apply]; rfl) h

/-- The scatters' initial table is zero. -/
theorem v37_zero (i : S150000x32.Idx) : val_main_v37 (F := Ideal) i = 0 := by
  rw [val_main_v37_apply, val_main_cst_7_apply, Ideal.ofBits_def, Ideal.ofBits_zero_f32]

/-! ## Layer 1 -/

/-- The first layer's second copy of the wrapped source index column is the first (the same operations). -/
theorem v32_eq (x1 : (⟨S2x2400000, .i32⟩ : BufTy).Contents (Elt Ideal)) : val_main_v32 (F := Ideal) x1 = val_main_v17 (F := Ideal) x1 := rfl

/-- The first layer's aggregate at node `i`, column `k`: the accumulating scatter of the per-edge table over the raw
    destination indices, plus the node's own row times its factor squared. -/
theorem v44_split (x0 : (⟨S150000x6, .f32⟩ : BufTy).Contents (Elt Ideal)) (x1 : (⟨S2x2400000, .i32⟩ : BufTy).Contents (Elt Ideal)) (x2 : (⟨S6x32, .f32⟩ : BufTy).Contents (Elt Ideal)) (i : Fin 150000) (k : Fin 32) :
    val_main_v44 (F := Ideal) x0 x1 x2 (ix2 i k)
      = Host.scatterAdd (F := Ideal) (φ := .f32) scatter_S150000x32_S2400000x1_S2400000x32_1_0_0_1 (val_main_v37 (F := Ideal)) (val_main_v38 (F := Ideal) x1)
          (val_main_v36 (F := Ideal) x0 x1 x2) (ix2 i k)
        + val_main_v4 (F := Ideal) x0 x2 (ix2 i k)
          * (val_main_v11 (F := Ideal) x1 (ix1 i) * val_main_v11 (F := Ideal) x1 (ix1 i)) := by
  have hidx : idx_main_v41 (idx_main_v42 (ix2 i k)) = ix1 i := by funext a; match a with | ⟨0, _⟩ => rfl
  rw [val_main_v44_apply, val_main_v43_apply, val_main_v42_apply, val_main_v41_apply, val_main_v40_apply, hidx]
  rfl

/-- The first layer's per-edge table at edge `e`, column `q`: the source row of the node table times the factors of the
    edge's two ends. -/
theorem v36_at (x0 : (⟨S150000x6, .f32⟩ : BufTy).Contents (Elt Ideal)) (x1 : (⟨S2x2400000, .i32⟩ : BufTy).Contents (Elt Ideal)) (x2 : (⟨S6x32, .f32⟩ : BufTy).Contents (Elt Ideal)) (e : Fin 2400000) (q : Fin 32) :
    val_main_v36 (F := Ideal) x0 x1 x2 (ix2 e q)
      = val_main_v4 (F := Ideal) x0 x2 (ix2 (rowOf (N := 150000) (by decide) (val_main_v17 (F := Ideal) x1 (ix2 e (⟨0, Nat.one_pos⟩ : Fin 1)))) q)
        * (val_main_v11 (F := Ideal) x1 (ix1 (rowOf (N := 150000) (by decide) (val_main_v17 (F := Ideal) x1 (ix2 e (⟨0, Nat.one_pos⟩ : Fin 1)))))
          * val_main_v11 (F := Ideal) x1 (ix1 (rowOf (N := 150000) (by decide) (val_main_v24 (F := Ideal) x1 (ix2 e (⟨0, Nat.one_pos⟩ : Fin 1)))))) := by
  have hidx : idx_main_v34 (idx_main_v35 (ix2 e q)) = ix1 e := by funext a; match a with | ⟨0, _⟩ => rfl
  rw [val_main_v36_apply, val_main_v35_apply, val_main_v34_apply, val_main_v26_apply, hidx, Ideal.mulf_def, Ideal.mulf_def]
  unfold val_main_v33 val_main_v18 val_main_v25
  rw [v32_eq, gather_rows_eq, gather_vec_eq, gather_rows_apply (show 0 < 150000 by decide),
    gather_vec_apply (show 0 < 150000 by decide), gather_vec_apply (show 0 < 150000 by decide)]
  rfl

/-! ## Layer 2: the recomputed degrees and index columns are the first layer's -/

/-- The second layer's normalisation factors are the first layer's (the same operations on the same argument). -/
theorem v56_eq (x1 : (⟨S2x2400000, .i32⟩ : BufTy).Contents (Elt Ideal)) : val_main_v56 (F := Ideal) x1 = val_main_v11 (F := Ideal) x1 := rfl
/-- The second layer's wrapped source index columns are the first layer's … -/
theorem v62_eq (x1 : (⟨S2x2400000, .i32⟩ : BufTy).Contents (Elt Ideal)) : val_main_v62 (F := Ideal) x1 = val_main_v17 (F := Ideal) x1 := rfl
theorem v77_eq (x1 : (⟨S2x2400000, .i32⟩ : BufTy).Contents (Elt Ideal)) : val_main_v77 (F := Ideal) x1 = val_main_v17 (F := Ideal) x1 := rfl
/-- its wrapped destination index column is the first layer's … -/
theorem v69_eq (x1 : (⟨S2x2400000, .i32⟩ : BufTy).Contents (Elt Ideal)) : val_main_v69 (F := Ideal) x1 = val_main_v24 (F := Ideal) x1 := rfl
/-- … its raw destination index column too … -/
theorem v83_eq (x1 : (⟨S2x2400000, .i32⟩ : BufTy).Contents (Elt Ideal)) : val_main_v83 (F := Ideal) x1 = val_main_v38 (F := Ideal) x1 := rfl
/-- … and its zero table. -/
theorem v82_eq : val_main_v82 (F := Ideal) = val_main_v37 (F := Ideal) := rfl

/-- The second layer's aggregate at node `i`, column `k`, in the first layer's vocabulary: the accumulating scatter of
    the per-edge table over the raw destination indices, plus the node's own row times its factor squared. -/
theorem v89_split (x0 : (⟨S150000x6, .f32⟩ : BufTy).Contents (Elt Ideal)) (x1 : (⟨S2x2400000, .i32⟩ : BufTy).Contents (Elt Ideal)) (x2 : (⟨S6x32, .f32⟩ : BufTy).Contents (Elt Ideal)) (x3 : (⟨S32, .f32⟩ : BufTy).Contents (Elt Ideal)) (x4 : (⟨S32x32, .f32⟩ : BufTy).Contents (Elt Ideal)) (i : Fin 150000) (k : Fin 32) :
    val_main_v89 (F := Ideal) x0 x1 x2 x3 x4 (ix2 i k)
      = Host.scatterAdd (F := Ideal) (φ := .f32) scatter_S150000x32_S2400000x1_S2400000x32_1_0_0_1 (val_main_v37 (F := Ideal)) (val_main_v38 (F := Ideal) x1)
          (val_main_v81 (F := Ideal) x0 x1 x2 x3 x4) (ix2 i k)
        + val_main_v49 (F := Ideal) x0 x1 x2 x3 x4 (ix2 i k)
          * (val_main_v11 (F := Ideal) x1 (ix1 i) * val_main_v11 (F := Ideal) x1 (ix1 i)) := by
  have hidx : idx_main_v86 (idx_main_v87 (ix2 i k)) = ix1 i := by funext a; match a with | ⟨0, _⟩ => rfl
  rw [val_main_v89_apply, val_main_v88_apply, val_main_v87_apply, val_main_v86_apply, val_main_v85_apply, hidx, v56_eq]
  unfold val_main_v84
  rw [v82_eq, v83_eq]
  rfl

/-- The second layer's per-edge table at edge `e`, column `q`, in the first layer's vocabulary: the source row of the
    node table times the factors of the edge's two ends. -/
theorem v81_at (x0 : (⟨S150000x6, .f32⟩ : BufTy).Contents (Elt Ideal)) (x1 : (⟨S2x2400000, .i32⟩ : BufTy).Contents (Elt Ideal)) (x2 : (⟨S6x32, .f32⟩ : BufTy).Contents (Elt Ideal)) (x3 : (⟨S32, .f32⟩ : BufTy).Contents (Elt Ideal)) (x4 : (⟨S32x32, .f32⟩ : BufTy).Contents (Elt Ideal)) (e : Fin 2400000) (q : Fin 32) :
    val_main_v81 (F := Ideal) x0 x1 x2 x3 x4 (ix2 e q)
      = val_main_v49 (F := Ideal) x0 x1 x2 x3 x4 (ix2 (rowOf (N := 150000) (by decide) (val_main_v17 (F := Ideal) x1 (ix2 e (⟨0, Nat.one_pos⟩ : Fin 1)))) q)
        * (val_main_v11 (F := Ideal) x1 (ix1 (rowOf (N := 150000) (by decide) (val_main_v17 (F := Ideal) x1 (ix2 e (⟨0, Nat.one_pos⟩ : Fin 1)))))
          * val_main_v11 (F := Ideal) x1 (ix1 (rowOf (N := 150000) (by decide) (val_main_v24 (F := Ideal) x1 (ix2 e (⟨0, Nat.one_pos⟩ : Fin 1)))))) := by
  have hidx : idx_main_v79 (idx_main_v80 (ix2 e q)) = ix1 e := by funext a; match a with | ⟨0, _⟩ => rfl
  rw [val_main_v81_apply, val_main_v80_apply, val_main_v79_apply, val_main_v71_apply, hidx, Ideal.mulf_def, Ideal.mulf_def]
  unfold val_main_v78 val_main_v63 val_main_v70
  rw [v77_eq, v62_eq, v69_eq, v56_eq, gather_rows_eq, gather_vec_eq, gather_rows_apply (show 0 < 150000 by decide),
    gather_vec_apply (show 0 < 150000 by decide), gather_vec_apply (show 0 < 150000 by decide)]
  rfl

end Cert.ReferenceIdeal.Agg

end
-- ==== Proof.Bridge2.lean ====
/-
  The two layers' aggregates, and the hidden layer between them, in the reference's words.

  For a node table `xw` write `Y = xw · dinv` (row by row). One program forms `dinv p · (Σ_{edges into p} Y (src e) + Y p)`,
  the other `Σ_{edges into p} xw (src e) · (dinv (src e) · dinv (dst e)) + xw p · (dinv p · dinv p)`; they agree because the
  degree factors are nonnegative reals (`agg_eq`, from the layer law). With `xw` the first product this gives the first
  aggregate; adding the bias and taking the positive part gives the hidden layer; its product with the second weight
  matrix, scaled again, is the second scaled table.
-/
import proofs.«132109_j42992622632991_2_alg».proof.Proof.Bridge1
import proofs.«132109_j42992622632991_2_alg».proof.Proof.Region1
import proofs.«132109_j42992622632991_2_alg».proof.Proof.GcnLayer
import proofs.«132109_j42992622632991_2_alg».proof.Proof.RefAgg

set_option maxRecDepth 16384

noncomputable section

namespace Cert.KernelIdeal.Whole

open Cert.KernelIdeal Cert.KernelIdeal.Gen Cert.ReferenceIdeal.Read Cert.KernelIdeal.Blocks Cert.ReferenceIdeal.Agg Cert.Lib
open Idealize.ShloMosaic Idealize.ShloMosaic.TcCoe Idealize.SL.Sem Idealize.ShloMosaic.ValueIdx

theorem rowsGather_wf : GatherDims.WF ⟨2, ![150000, 32]⟩ ⟨2, ![2400000, 1]⟩ ⟨2, ![2400000, 32]⟩ [1] [0] [] [0] [] 1 ![1, 32] := by decide
theorem vecGather_wf : GatherDims.WF ⟨1, ![150000]⟩ ⟨2, ![2400000, 1]⟩ ⟨1, ![2400000]⟩ [] [0] [] [0] [] 1 ![1] := by decide
theorem rowsScatter_wf : ScatterDims.WF ⟨2, ![150000, 32]⟩ ⟨2, ![2400000, 1]⟩ ⟨2, ![2400000, 32]⟩ [1] [0] [0] 1 := by decide

/-- The row of the node table an edge-index word selects. -/
abbrev nodeOf (v : BitVec 32) : Fin 150000 := rowOf (N := 150000) (by decide) v

/-- One layer's aggregate in the kernel's arrangement equals the reference's arrangement, for any node table `xw`
    whose scaled copy is `Y` and any table `updR` that reads, edge by edge, the gathered row weighed by both ends'
    degree factors. -/
theorem agg_eq (a1 : (⟨S2x2400000, .i32⟩ : BufTy).Contents (Elt Ideal)) (xw Y : S150000x32.Idx → EReal)
    (hY : ∀ (p : Fin 150000) (q : Fin 32), Y (ix2 p q) = xw (ix2 p q) * val_main_v11 (F := Ideal) a1 (ix1 p))
    (updR : S2400000x32.Idx → EReal)
    (hR : ∀ (e : Fin 2400000) (q : Fin 32), updR (ix2 e q)
      = xw (ix2 (nodeOf (val_main_v17 (F := Ideal) a1 (ix2 e (⟨0, Nat.one_pos⟩ : Fin 1)))) q)
        * (val_main_v11 (F := Ideal) a1 (ix1 (nodeOf (val_main_v17 (F := Ideal) a1 (ix2 e (⟨0, Nat.one_pos⟩ : Fin 1)))))
          * val_main_v11 (F := Ideal) a1 (ix1 (nodeOf (val_main_v24 (F := Ideal) a1 (ix2 e (⟨0, Nat.one_pos⟩ : Fin 1)))))))
    (p : Fin 150000) (q : Fin 32) :
    dcol a1 (ix2 p (0 : Fin 1)) * (segK a1 Y (ix2 p q) + Y (ix2 p q))
      = Host.scatterAdd (F := Ideal) (φ := .f32) scatter_S150000x32_S2400000x1_S2400000x32_1_0_0_1 (val_main_v37 (F := Ideal))
          (val_main_v38 (F := Ideal) a1) updR (ix2 p q)
        + xw (ix2 p q) * (val_main_v11 (F := Ideal) a1 (ix1 p) * val_main_v11 (F := Ideal) a1 (ix1 p)) := by
  rw [dcol_apply, hY p q]
  exact layer_eq (N := 150000) (C := 32) (E := 2400000) (by decide) rowsScatter_wf
    (val_main_v11 (F := Ideal) a1) (fun i => (dinv_nonneg_ne_top a1 i).1) (fun i => (dinv_nonneg_ne_top a1 i).2)
    (val_main_v17 (F := Ideal) a1) (val_main_v38 (F := Ideal) a1) (val_main_v24 (F := Ideal) a1) (dst_wrap a1)
    xw (val_main_v37 (F := Ideal)) v37_zero
    (extf (F := Ideal) (φ := .bf16) .f32 (Host.gather gather_S150000x32_S2400000x1_S2400000x32_1_0_n_n_0_1_132 Y (val_main_v17 (F := Ideal) a1)) bitsLt_bf16_f32)
    updR
    (fun e q => by
      show Host.gather (rowsGatherDims 150000 32 2400000 rowsGather_wf) Y (val_main_v17 (F := Ideal) a1) (ix2 e q) = _
      rw [gather_rows_apply (by decide) rowsGather_wf]
      exact hY _ q)
    hR p q

section Layers

variable (a0 : (⟨S150000x6, .f32⟩ : BufTy).Contents (Elt Ideal)) (a1 : (⟨S2x2400000, .i32⟩ : BufTy).Contents (Elt Ideal))
  (a2 : (⟨S6x32, .f32⟩ : BufTy).Contents (Elt Ideal)) (a3 : (⟨S32, .f32⟩ : BufTy).Contents (Elt Ideal))
  (a4 : (⟨S32x32, .f32⟩ : BufTy).Contents (Elt Ideal))

/-- The first aggregate. -/
theorem agg1_eq (p : Fin 150000) (q : Fin 32) :
    dcol a1 (ix2 p (0 : Fin 1)) * (segK a1 (y1Of a0 a2 (dcol a1)) (ix2 p q) + y1Of a0 a2 (dcol a1) (ix2 p q))
      = val_main_v44 (F := Ideal) a0 a1 a2 (ix2 p q) :=
  (agg_eq a1 (val_main_v4 (F := Ideal) a0 a2) (y1Of a0 a2 (dcol a1)) (y1_eq a0 a1 a2)
    (val_main_v36 (F := Ideal) a0 a1 a2) (v36_at a0 a1 a2) p q).trans (v44_split a0 a1 a2 p q).symm

/-- A bias vector as a row `[1, n]` read at a column. -/
theorem row32_apply (b : (⟨S32, .f32⟩ : BufTy).Contents (Elt Ideal)) (k : Fin 32) :
    shapeCast S1x32 b shapeCasts_S32_S1x32 (ix2 (0 : Fin 1) k) = b (ix1 k) :=
  shapeCast_apply _ shapeCasts_S32_S1x32 (ix2 (0 : Fin 1) k) (ix1 k)
    (by rewrite [Shape.rowMajor_val_two, Shape.rowMajor_val_one]; show k.val = 0 * 32 + k.val; omega)

/-- The hidden layer: the positive part of the first aggregate plus the first bias. -/
theorem h_eq (p : Fin 150000) (k : Fin 32) :
    max (dcol a1 (ix2 p (0 : Fin 1)) * (segK a1 (y1Of a0 a2 (dcol a1)) (ix2 p k) + y1Of a0 a2 (dcol a1) (ix2 p k))
        + shapeCast S1x32 a3 shapeCasts_S32_S1x32 (ix2 (0 : Fin 1) k)) (Ideal.ofBits .f32 0x00000000#32)
      = val_main_v48 (F := Ideal) a0 a1 a2 a3 (ix2 p k) := by
  rw [agg1_eq, row32_apply, val_main_v48_apply, val_main_v47_apply, val_main_v46_apply, val_main_v45_apply,
    val_main_call0_v0_apply, val_main_call0_cst_apply]
  have hi : idx_main_v45 (idx_main_v46 (ix2 p k)) = ix1 k := funext fun a => match a with | ⟨0, _⟩ => rfl
  rw [hi]
  rfl

/-- The second scaled table: the hidden layer's product with the second weight matrix, scaled by the degree factor. -/
theorem y2_eq (p : Fin 150000) (q : Fin 32) :
    y2Of (segK a1 (y1Of a0 a2 (dcol a1))) (y1Of a0 a2 (dcol a1)) (dcol a1) (shapeCast S1x32 a3 shapeCasts_S32_S1x32) a4 (ix2 p q)
      = val_main_v49 (F := Ideal) a0 a1 a2 a3 a4 (ix2 p q) * val_main_v11 (F := Ideal) a1 (ix1 p) := by
  rw [y2Of_ix2, val_main_v49_apply]
  have hl : ∀ k : Fin 32, lidx_main_v49 (ix2 p q) k = ix2 p k := fun k => funext fun a => match a with | ⟨0, _⟩ => rfl | ⟨1, _⟩ => rfl
  have hr : ∀ k : Fin 32, ridx_main_v49 (ix2 p q) k = ix2 k q := fun k => funext fun a => match a with | ⟨0, _⟩ => rfl | ⟨1, _⟩ => rfl
  simp only [hl, hr, h_eq a0 a1 a2 a3 p]
  rw [dcol_apply]

end Layers

end Cert.KernelIdeal.Whole

end
-- ==== Proof.Bridge3.lean ====
/-
  The feature table, in the reference's words.

  The second aggregate is the first one's law again, now for the node table `h · W2`; adding the second bias, column by
  column, gives the features both programs return.
-/
import proofs.«132109_j42992622632991_2_alg».proof.Proof.Bridge2
import proofs.«132109_j42992622632991_2_alg».proof.Proof.Region2Payload

set_option maxRecDepth 16384

noncomputable section

namespace Cert.KernelIdeal.Whole

open Cert.KernelIdeal Cert.KernelIdeal.Gen Cert.ReferenceIdeal.Read Cert.KernelIdeal.Blocks Cert.ReferenceIdeal.Agg Cert.Lib
open Idealize.ShloMosaic Idealize.ShloMosaic.TcCoe Idealize.SL.Sem Idealize.ShloMosaic.ValueIdx

section Features

variable (a0 : (⟨S150000x6, .f32⟩ : BufTy).Contents (Elt Ideal)) (a1 : (⟨S2x2400000, .i32⟩ : BufTy).Contents (Elt Ideal))
  (a2 : (⟨S6x32, .f32⟩ : BufTy).Contents (Elt Ideal)) (a3 : (⟨S32, .f32⟩ : BufTy).Contents (Elt Ideal))
  (a4 : (⟨S32x32, .f32⟩ : BufTy).Contents (Elt Ideal)) (a5 : (⟨S32, .f32⟩ : BufTy).Contents (Elt Ideal))

/-- The second scaled table as a function of the arguments (the kernel's arrangement). -/
abbrev y2A : S150000x32.Idx → EReal :=
  y2Of (segK a1 (y1Of a0 a2 (dcol a1))) (y1Of a0 a2 (dcol a1)) (dcol a1) (shapeCast S1x32 a3 shapeCasts_S32_S1x32) a4

/-- The second aggregate. -/
theorem agg2_eq (p : Fin 150000) (q : Fin 32) :
    dcol a1 (ix2 p (0 : Fin 1)) * (segK a1 (y2A a0 a1 a2 a3 a4) (ix2 p q) + y2A a0 a1 a2 a3 a4 (ix2 p q))
      = val_main_v89 (F := Ideal) a0 a1 a2 a3 a4 (ix2 p q) :=
  (agg_eq a1 (val_main_v49 (F := Ideal) a0 a1 a2 a3 a4) (y2A a0 a1 a2 a3 a4) (y2_eq a0 a1 a2 a3 a4)
    (val_main_v81 (F := Ideal) a0 a1 a2 a3 a4) (v81_at a0 a1 a2 a3 a4) p q).trans (v89_split a0 a1 a2 a3 a4 p q).symm

/-- The features: the second aggregate plus the second bias. -/
theorem feat_eq (p : Fin 150000) (q : Fin 32) :
    featOf (segK a1 (y2A a0 a1 a2 a3 a4)) (y2A a0 a1 a2 a3 a4) (dcol a1) (shapeCast S1x32 a5 shapeCasts_S32_S1x32) (ix2 p q)
      = val_main_v92 (F := Ideal) a0 a1 a2 a3 a4 a5 (ix2 p q) := by
  show dcol a1 (ix2 p (0 : Fin 1)) * (segK a1 (y2A a0 a1 a2 a3 a4) (ix2 p q) + y2A a0 a1 a2 a3 a4 (ix2 p q))
    + shapeCast S1x32 a5 shapeCasts_S32_S1x32 (ix2 (0 : Fin 1) q) = _
  rw [agg2_eq, row32_apply, val_main_v92_apply, val_main_v91_apply, val_main_v90_apply]
  have hi : idx_main_v90 (idx_main_v91 (ix2 p q)) = ix1 q := funext fun a => match a with | ⟨0, _⟩ => rfl
  rw [hi]
  rfl

end Features

end Cert.KernelIdeal.Whole

end
-- ==== Proof.RefHeads.lean ====
/-
  The reference's feature output and its two small networks, read at an index.

  The feature output is the second layer's aggregate plus a bias row. Each of the two networks on top of it is a dense layer
  with a bias, the maximum with zero, and a second dense layer with a bias; a dense layer's element is the sum over the
  contracted axis of the products. The zero the maximum is taken against is kept as the value of the all-zero word. The
  last two results are the column slices `[0, 3)` and `[3, 6)` of the second network's output.
-/
import proofs.«132109_j42992622632991_2_alg».proof.Proof.Gen.ReferenceIdeal.Read
import Idealize.ShloMosaic.Lib.Pipeline.Value
import Idealize.ShloMosaic.Lib.ValueIdx

noncomputable section

open scoped BigOperators

namespace Cert.ReferenceIdeal.Heads

open Cert.ReferenceIdeal Cert.ReferenceIdeal.Gen Cert.ReferenceIdeal.Read
open Idealize.ShloMosaic Idealize.ShloMosaic.ValueIdx

/-- The feature output at node `p`, column `q`: the second layer's aggregate plus the bias. -/
theorem v92_at (x0 : (⟨S150000x6, .f32⟩ : BufTy).Contents (Elt Ideal)) (x1 : (⟨S2x2400000, .i32⟩ : BufTy).Contents (Elt Ideal)) (x2 : (⟨S6x32, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal)) (p : Fin 150000) (q : Fin 32) :
    val_main_v92 (F := Ideal) x0 x1 x2 x3 x4 x5 (ix2 p q) = val_main_v89 (F := Ideal) x0 x1 x2 x3 x4 (ix2 p q) + x5 (ix1 q) := by
  have hb : idx_main_v90 (idx_main_v91 (ix2 p q)) = ix1 q := by funext a; match a with | ⟨0, _⟩ => rfl
  rw [val_main_v92_apply, Ideal.addf_def, val_main_v91_apply, val_main_v90_apply, hb]

/-! ## The first network (one output column) -/

/-- The first network's hidden pre-activation at node `p`, unit `k`: the feature row times the first weight matrix's column `k`,
    plus the first bias. -/
theorem v96_at (x0 : (⟨S150000x6, .f32⟩ : BufTy).Contents (Elt Ideal)) (x1 : (⟨S2x2400000, .i32⟩ : BufTy).Contents (Elt Ideal)) (x2 : (⟨S6x32, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal)) (x6 : (⟨S32x16, .f32⟩ : BufTy).Contents (Elt Ideal)) (x7 : (⟨S16, .f32⟩ : BufTy).Contents (Elt Ideal)) (p : Fin 150000) (k : Fin 16) :
    val_main_v96 (F := Ideal) x0 x1 x2 x3 x4 x5 x6 x7 (ix2 p k) = (∑ c : Fin 32, val_main_v92 (F := Ideal) x0 x1 x2 x3 x4 x5 (ix2 p c) * x6 (ix2 c k)) + x7 (ix1 k) := by
  have hl : ∀ c : Fin 32, lidx_main_v93 (ix2 p k) c = ix2 p c := fun c => by funext a; match a with | ⟨0, _⟩ => rfl | ⟨1, _⟩ => rfl
  have hr : ∀ c : Fin 32, ridx_main_v93 (ix2 p k) c = ix2 c k := fun c => by funext a; match a with | ⟨0, _⟩ => rfl | ⟨1, _⟩ => rfl
  have hb : idx_main_v94 (idx_main_v95 (ix2 p k)) = ix1 k := by funext a; match a with | ⟨0, _⟩ => rfl
  rw [val_main_v96_apply, Ideal.addf_def, val_main_v93_apply, val_main_v95_apply, val_main_v94_apply, hb]
  simp only [hl, hr]

/-- Its hidden activation: the maximum of the pre-activation and the zero word's value. -/
theorem v97_at (x0 : (⟨S150000x6, .f32⟩ : BufTy).Contents (Elt Ideal)) (x1 : (⟨S2x2400000, .i32⟩ : BufTy).Contents (Elt Ideal)) (x2 : (⟨S6x32, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal)) (x6 : (⟨S32x16, .f32⟩ : BufTy).Contents (Elt Ideal)) (x7 : (⟨S16, .f32⟩ : BufTy).Contents (Elt Ideal)) (p : Fin 150000) (k : Fin 16) :
    val_main_v97 (F := Ideal) x0 x1 x2 x3 x4 x5 x6 x7 (ix2 p k) = max ((∑ c : Fin 32, val_main_v92 (F := Ideal) x0 x1 x2 x3 x4 x5 (ix2 p c) * x6 (ix2 c k)) + x7 (ix1 k)) (Ideal.ofBits .f32 0x00000000#32) := by
  rw [val_main_v97_apply, Ideal.maximumf_def, v96_at, val_main_call1_v0_apply, val_main_call1_cst_apply, Ideal.ofBits_def]

/-- The first network's output at node `p`: the hidden activations times the second weight matrix's column, plus the second
    bias. -/
theorem v101_at (x0 : (⟨S150000x6, .f32⟩ : BufTy).Contents (Elt Ideal)) (x1 : (⟨S2x2400000, .i32⟩ : BufTy).Contents (Elt Ideal)) (x2 : (⟨S6x32, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal)) (x6 : (⟨S32x16, .f32⟩ : BufTy).Contents (Elt Ideal)) (x7 : (⟨S16, .f32⟩ : BufTy).Contents (Elt Ideal)) (x8 : (⟨S16x1, .f32⟩ : BufTy).Contents (Elt Ideal)) (x9 : (⟨S1, .f32⟩ : BufTy).Contents (Elt Ideal)) (p : Fin 150000) :
    val_main_v101 (F := Ideal) x0 x1 x2 x3 x4 x5 x6 x7 x8 x9 (ix2 p (⟨0, Nat.one_pos⟩ : Fin 1))
      = (∑ k : Fin 16, max ((∑ c : Fin 32, val_main_v92 (F := Ideal) x0 x1 x2 x3 x4 x5 (ix2 p c) * x6 (ix2 c k)) + x7 (ix1 k)) (Ideal.ofBits .f32 0x00000000#32) * x8 (ix2 k (⟨0, Nat.one_pos⟩ : Fin 1))) + x9 (ix1 (⟨0, Nat.one_pos⟩ : Fin 1)) := by
  have hl : ∀ k : Fin 16, lidx_main_v98 (ix2 p (⟨0, Nat.one_pos⟩ : Fin 1)) k = ix2 p k := fun k => by funext a; match a with | ⟨0, _⟩ => rfl | ⟨1, _⟩ => rfl
  have hr : ∀ k : Fin 16, ridx_main_v98 (ix2 p (⟨0, Nat.one_pos⟩ : Fin 1)) k = ix2 k (⟨0, Nat.one_pos⟩ : Fin 1) := fun k => by funext a; match a with | ⟨0, _⟩ => rfl | ⟨1, _⟩ => rfl
  have hb : idx_main_v99 (idx_main_v100 (ix2 p (⟨0, Nat.one_pos⟩ : Fin 1))) = ix1 (⟨0, Nat.one_pos⟩ : Fin 1) := by funext a; match a with | ⟨0, _⟩ => rfl
  rw [val_main_v101_apply, Ideal.addf_def, val_main_v98_apply, val_main_v100_apply, val_main_v99_apply, hb]
  simp only [hl, hr, v97_at]

/-! ## The second network (six output columns) -/

/-- The second network's hidden pre-activation at node `p`, unit `k`: the feature row times the first weight matrix's column `k`,
    plus the first bias. -/
theorem v105_at (x0 : (⟨S150000x6, .f32⟩ : BufTy).Contents (Elt Ideal)) (x1 : (⟨S2x2400000, .i32⟩ : BufTy).Contents (Elt Ideal)) (x2 : (⟨S6x32, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal)) (x10 : (⟨S32x16, .f32⟩ : BufTy).Contents (Elt Ideal)) (x11 : (⟨S16, .f32⟩ : BufTy).Contents (Elt Ideal)) (p : Fin 150000) (k : Fin 16) :
    val_main_v105 (F := Ideal) x0 x1 x2 x3 x4 x5 x10 x11 (ix2 p k) = (∑ c : Fin 32, val_main_v92 (F := Ideal) x0 x1 x2 x3 x4 x5 (ix2 p c) * x10 (ix2 c k)) + x11 (ix1 k) := by
  have hl : ∀ c : Fin 32, lidx_main_v102 (ix2 p k) c = ix2 p c := fun c => by funext a; match a with | ⟨0, _⟩ => rfl | ⟨1, _⟩ => rfl
  have hr : ∀ c : Fin 32, ridx_main_v102 (ix2 p k) c = ix2 c k := fun c => by funext a; match a with | ⟨0, _⟩ => rfl | ⟨1, _⟩ => rfl
  have hb : idx_main_v103 (idx_main_v104 (ix2 p k)) = ix1 k := by funext a; match a with | ⟨0, _⟩ => rfl
  rw [val_main_v105_apply, Ideal.addf_def, val_main_v102_apply, val_main_v104_apply, val_main_v103_apply, hb]
  simp only [hl, hr]

/-- Its hidden activation: the maximum of the pre-activation and the zero word's value. -/
theorem v106_at (x0 : (⟨S150000x6, .f32⟩ : BufTy).Contents (Elt Ideal)) (x1 : (⟨S2x2400000, .i32⟩ : BufTy).Contents (Elt Ideal)) (x2 : (⟨S6x32, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal)) (x10 : (⟨S32x16, .f32⟩ : BufTy).Contents (Elt Ideal)) (x11 : (⟨S16, .f32⟩ : BufTy).Contents (Elt Ideal)) (p : Fin 150000) (k : Fin 16) :
    val_main_v106 (F := Ideal) x0 x1 x2 x3 x4 x5 x10 x11 (ix2 p k) = max ((∑ c : Fin 32, val_main_v92 (F := Ideal) x0 x1 x2 x3 x4 x5 (ix2 p c) * x10 (ix2 c k)) + x11 (ix1 k)) (Ideal.ofBits .f32 0x00000000#32) := by
  rw [val_main_v106_apply, Ideal.maximumf_def, v105_at, val_main_call2_v0_apply, val_main_call2_cst_apply, Ideal.ofBits_def]

/-- The second network's output at node `p`, column `q`: the hidden activations times the second weight matrix's column, plus the second
    bias. -/
theorem v110_at (x0 : (⟨S150000x6, .f32⟩ : BufTy).Contents (Elt Ideal)) (x1 : (⟨S2x2400000, .i32⟩ : BufTy).Contents (Elt Ideal)) (x2 : (⟨S6x32, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal)) (x10 : (⟨S32x16, .f32⟩ : BufTy).Contents (Elt Ideal)) (x11 : (⟨S16, .f32⟩ : BufTy).Contents (Elt Ideal)) (x12 : (⟨S16x6, .f32⟩ : BufTy).Contents (Elt Ideal)) (x13 : (⟨S6, .f32⟩ : BufTy).Contents (Elt Ideal)) (p : Fin 150000) (q : Fin 6) :
    val_main_v110 (F := Ideal) x0 x1 x2 x3 x4 x5 x10 x11 x12 x13 (ix2 p q)
      = (∑ k : Fin 16, max ((∑ c : Fin 32, val_main_v92 (F := Ideal) x0 x1 x2 x3 x4 x5 (ix2 p c) * x10 (ix2 c k)) + x11 (ix1 k)) (Ideal.ofBits .f32 0x00000000#32) * x12 (ix2 k q)) + x13 (ix1 q) := by
  have hl : ∀ k : Fin 16, lidx_main_v107 (ix2 p q) k = ix2 p k := fun k => by funext a; match a with | ⟨0, _⟩ => rfl | ⟨1, _⟩ => rfl
  have hr : ∀ k : Fin 16, ridx_main_v107 (ix2 p q) k = ix2 k q := fun k => by funext a; match a with | ⟨0, _⟩ => rfl | ⟨1, _⟩ => rfl
  have hb : idx_main_v108 (idx_main_v109 (ix2 p q)) = ix1 q := by funext a; match a with | ⟨0, _⟩ => rfl
  rw [val_main_v110_apply, Ideal.addf_def, val_main_v107_apply, val_main_v109_apply, val_main_v108_apply, hb]
  simp only [hl, hr, v106_at]

/-! ## The two column slices of the second network's output -/

/-- The first slice reads columns `0, 1, 2` … -/
theorem v111_at (x0 : (⟨S150000x6, .f32⟩ : BufTy).Contents (Elt Ideal)) (x1 : (⟨S2x2400000, .i32⟩ : BufTy).Contents (Elt Ideal)) (x2 : (⟨S6x32, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal)) (x10 : (⟨S32x16, .f32⟩ : BufTy).Contents (Elt Ideal)) (x11 : (⟨S16, .f32⟩ : BufTy).Contents (Elt Ideal)) (x12 : (⟨S16x6, .f32⟩ : BufTy).Contents (Elt Ideal)) (x13 : (⟨S6, .f32⟩ : BufTy).Contents (Elt Ideal)) (p : Fin 150000) (q : Fin 3) :
    val_main_v111 (F := Ideal) x0 x1 x2 x3 x4 x5 x10 x11 x12 x13 (ix2 p q) = val_main_v110 (F := Ideal) x0 x1 x2 x3 x4 x5 x10 x11 x12 x13 (ix2 p ⟨q.val, by omega⟩) := by
  rw [val_main_v111_apply]
  congr 1
  funext a
  match a with
  | ⟨0, _⟩ => rfl
  | ⟨1, _⟩ => rfl

/-- … and the second columns `3, 4, 5`. -/
theorem v112_at (x0 : (⟨S150000x6, .f32⟩ : BufTy).Contents (Elt Ideal)) (x1 : (⟨S2x2400000, .i32⟩ : BufTy).Contents (Elt Ideal)) (x2 : (⟨S6x32, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal)) (x10 : (⟨S32x16, .f32⟩ : BufTy).Contents (Elt Ideal)) (x11 : (⟨S16, .f32⟩ : BufTy).Contents (Elt Ideal)) (x12 : (⟨S16x6, .f32⟩ : BufTy).Contents (Elt Ideal)) (x13 : (⟨S6, .f32⟩ : BufTy).Contents (Elt Ideal)) (p : Fin 150000) (q : Fin 3) :
    val_main_v112 (F := Ideal) x0 x1 x2 x3 x4 x5 x10 x11 x12 x13 (ix2 p q) = val_main_v110 (F := Ideal) x0 x1 x2 x3 x4 x5 x10 x11 x12 x13 (ix2 p ⟨q.val + 3, by omega⟩) := by
  rw [val_main_v112_apply]
  congr 1
  funext a
  match a with
  | ⟨0, _⟩ => rfl
  | ⟨1, _⟩ => exact Fin.ext (Nat.add_comm 3 q.val)

end Cert.ReferenceIdeal.Heads

end
-- ==== Proof.Bridge4.lean ====
/-
  The two small networks on the features, in the reference's words.

  Each head is a hidden layer on a node's feature row (a product with a [32,16] matrix, a bias, the positive part)
  followed by a product with its output matrix and a bias. The kernel and the reference apply the same operations to
  feature tables that agree entry by entry, so the heads agree, unit by unit.
-/
import proofs.«132109_j42992622632991_2_alg».proof.Proof.Bridge3
import proofs.«132109_j42992622632991_2_alg».proof.Proof.RefHeads

set_option maxRecDepth 16384

noncomputable section

namespace Cert.KernelIdeal.Whole

open Cert.KernelIdeal Cert.KernelIdeal.Gen Cert.ReferenceIdeal.Read Cert.KernelIdeal.Blocks Cert.ReferenceIdeal.Heads
open Idealize.ShloMosaic Idealize.ShloMosaic.TcCoe Idealize.SL.Sem Idealize.ShloMosaic.ValueIdx

/-- A bias vector `[16]` as the row `[1, 16]`, read at a column. -/
theorem row16_apply (b : (⟨S16, .f32⟩ : BufTy).Contents (Elt Ideal)) (k : Fin 16) :
    shapeCast S1x16 b shapeCasts_S16_S1x16 (ix2 (0 : Fin 1) k) = b (ix1 k) :=
  shapeCast_apply _ shapeCasts_S16_S1x16 (ix2 (0 : Fin 1) k) (ix1 k)
    (by rewrite [Shape.rowMajor_val_two, Shape.rowMajor_val_one]; show k.val = 0 * 16 + k.val; omega)
/-- A bias vector `[6]` as the row `[1, 6]`, read at a column. -/
theorem row6_apply (b : (⟨S6, .f32⟩ : BufTy).Contents (Elt Ideal)) (k : Fin 6) :
    shapeCast S1x6 b shapeCasts_S6_S1x6 (ix2 (0 : Fin 1) k) = b (ix1 k) :=
  shapeCast_apply _ shapeCasts_S6_S1x6 (ix2 (0 : Fin 1) k) (ix1 k)
    (by rewrite [Shape.rowMajor_val_two, Shape.rowMajor_val_one]; show k.val = 0 * 6 + k.val; omega)
/-- A bias `[1]` as `[1, 1]`, read at its one entry. -/
theorem row1_apply (b : (⟨S1, .f32⟩ : BufTy).Contents (Elt Ideal)) :
    shapeCast S1x1 b shapeCasts_S1_S1x1 (ix2 (0 : Fin 1) (0 : Fin 1)) = b (ix1 (0 : Fin 1)) :=
  shapeCast_apply _ shapeCasts_S1_S1x1 (ix2 (0 : Fin 1) (0 : Fin 1)) (ix1 (0 : Fin 1))
    (by rewrite [Shape.rowMajor_val_two, Shape.rowMajor_val_one]; rfl)

section Heads

variable (a0 : (⟨S150000x6, .f32⟩ : BufTy).Contents (Elt Ideal)) (a1 : (⟨S2x2400000, .i32⟩ : BufTy).Contents (Elt Ideal))
  (a2 : (⟨S6x32, .f32⟩ : BufTy).Contents (Elt Ideal)) (a3 : (⟨S32, .f32⟩ : BufTy).Contents (Elt Ideal))
  (a4 : (⟨S32x32, .f32⟩ : BufTy).Contents (Elt Ideal)) (a5 : (⟨S32, .f32⟩ : BufTy).Contents (Elt Ideal))

/-- The feature table as a function of the arguments (the kernel's arrangement). -/
abbrev featA : S150000x32.Idx → EReal :=
  featOf (segK a1 (y2A a0 a1 a2 a3 a4)) (y2A a0 a1 a2 a3 a4) (dcol a1) (shapeCast S1x32 a5 shapeCasts_S32_S1x32)

/-- A head's hidden unit on the kernel's feature table is the same expression on the reference's. -/
theorem hid_eq (Wh : (⟨S32x16, .f32⟩ : BufTy).Contents (Elt Ideal)) (bh : (⟨S16, .f32⟩ : BufTy).Contents (Elt Ideal))
    (p : Fin 150000) (k : Fin 16) :
    hid (featA a0 a1 a2 a3 a4 a5) Wh (shapeCast S1x16 bh shapeCasts_S16_S1x16) p k
      = max ((∑ c : Fin 32, val_main_v92 (F := Ideal) a0 a1 a2 a3 a4 a5 (ix2 p c) * Wh (ix2 c k)) + bh (ix1 k))
          (Ideal.ofBits .f32 0x00000000#32) := by
  show max ((∑ c : Fin 32, featA a0 a1 a2 a3 a4 a5 (ix2 p c) * Wh (ix2 c k)) + shapeCast S1x16 bh shapeCasts_S16_S1x16 (ix2 (0 : Fin 1) k)) _ = _
  simp only [feat_eq a0 a1 a2 a3 a4 a5 p]
  rw [row16_apply]

/-- The topology head. -/
theorem topo_eq (a6 : (⟨S32x16, .f32⟩ : BufTy).Contents (Elt Ideal)) (a7 : (⟨S16, .f32⟩ : BufTy).Contents (Elt Ideal))
    (a8 : (⟨S16x1, .f32⟩ : BufTy).Contents (Elt Ideal)) (a9 : (⟨S1, .f32⟩ : BufTy).Contents (Elt Ideal)) (p : Fin 150000) :
    (∑ k : Fin 16, hid (featA a0 a1 a2 a3 a4 a5) a6 (shapeCast S1x16 a7 shapeCasts_S16_S1x16) p k * a8 (ix2 k (0 : Fin 1)))
        + shapeCast S1x1 a9 shapeCasts_S1_S1x1 (ix2 (0 : Fin 1) (0 : Fin 1))
      = val_main_v101 (F := Ideal) a0 a1 a2 a3 a4 a5 a6 a7 a8 a9 (ix2 p (0 : Fin 1)) := by
  rw [row1_apply]
  simp only [hid_eq]
  exact (v101_at a0 a1 a2 a3 a4 a5 a6 a7 a8 a9 p).symm

/-- The attribute head. -/
theorem attr_eq (a10 : (⟨S32x16, .f32⟩ : BufTy).Contents (Elt Ideal)) (a11 : (⟨S16, .f32⟩ : BufTy).Contents (Elt Ideal))
    (a12 : (⟨S16x6, .f32⟩ : BufTy).Contents (Elt Ideal)) (a13 : (⟨S6, .f32⟩ : BufTy).Contents (Elt Ideal)) (p : Fin 150000) (q : Fin 6) :
    (∑ k : Fin 16, hid (featA a0 a1 a2 a3 a4 a5) a10 (shapeCast S1x16 a11 shapeCasts_S16_S1x16) p k * a12 (ix2 k q))
        + shapeCast S1x6 a13 shapeCasts_S6_S1x6 (ix2 (0 : Fin 1) q)
      = val_main_v110 (F := Ideal) a0 a1 a2 a3 a4 a5 a10 a11 a12 a13 (ix2 p q) := by
  rw [row6_apply]
  simp only [hid_eq]
  exact (v110_at a0 a1 a2 a3 a4 a5 a10 a11 a12 a13 p q).symm

end Heads

end Cert.KernelIdeal.Whole

end
-- ==== Proof.Outputs.lean ====
/-
  The kernel's four results as the reference's stages of the same arguments.

  The feature table `featK` is what region 2 leaves in its first output; the last host stretch passes it through and
  cuts the heads array into the topology column and the two halves of the attribute columns. Entry by entry these
  are the reference's results: the bridge modules identify the feature table and the two heads with the reference's
  stages, and a column slice reads the column it names.
-/
import proofs.«132109_j42992622632991_2_alg».proof.Proof.Values
import proofs.«132109_j42992622632991_2_alg».proof.Proof.Region2
import proofs.«132109_j42992622632991_2_alg».proof.Proof.Region2Heads
import proofs.«132109_j42992622632991_2_alg».proof.Proof.Bridge4

set_option maxRecDepth 16384

noncomputable section

namespace Cert.KernelIdeal.Whole

open Cert.KernelIdeal Cert.KernelIdeal.Gen Cert.ReferenceIdeal.Read Cert.KernelIdeal.Blocks
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-- The second bias as the row `[1, 32]` region 2 reads. -/
def b2row : S1x32.Idx → EReal := shapeCast S1x32 (m ((c : Thread nD τ).loc main_arg5)) shapeCasts_S32_S1x32

/-- The feature table: `dinv · (Σ_edges y2 + y2) + b2`. -/
def featK : S150000x32.Idx → EReal :=
  featOf (segK (m ((c : Thread nD τ).loc main_arg1)) (y2K m c)) (y2K m c) (dcol (m ((c : Thread nD τ).loc main_arg1))) (b2row m c)

theorem W6_v42_0 : W6 (F := Ideal) m ρ c (Proc.devRef .tc main_v42_0) = featK m c := by
  refine (W6_arr m ρ c 12).trans ?_
  rw [final2_feat (V5 m ρ) c]
  show featOf (W5 m ρ c (Proc.devRef .tc main_v36)) (W5 m ρ c (Proc.devRef .tc main_v25)) (W5 m ρ c (Proc.devRef .tc main_v11))
    (W5 m ρ c (Proc.devRef .tc main_v37)) = _
  rw [W5_v36, W5_keep m ρ c main_v25 (Or.inl rfl), W5_keep m ρ c main_v11 (Or.inr rfl), W5_v37, W4_v25, W4_v11,
    W4_args m ρ c main_arg5 (Or.inl rfl)]
  rfl

/-- The fourth result: the feature table is the reference's. -/
theorem out_feat : W7 (F := Ideal) m ρ c (Proc.devRef .tc main_v42_0)
    = val_main_v92 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  rw [W7_v42_0, W6_v42_0]
  funext i
  obtain ⟨p, q, rfl⟩ : ∃ (p : Fin 150000) (q : Fin 32), i = ix2 p q := ⟨i 0, i 1, eq_ix2 i⟩
  exact feat_eq _ _ _ _ _ _ p q

/-! ## The heads array and its three column ranges -/

/-- The heads array: column 0 the topology head, columns 1..6 the attribute head, of each node's feature row. -/
def headsK : S150000x7.Idx → EReal :=
  headsOf (featK m c) (m ((c : Thread nD τ).loc main_arg6)) (shapeCast S1x16 (m ((c : Thread nD τ).loc main_arg7)) shapeCasts_S16_S1x16)
    (m ((c : Thread nD τ).loc main_arg8)) (shapeCast S1x1 (m ((c : Thread nD τ).loc main_arg9)) shapeCasts_S1_S1x1)
    (m ((c : Thread nD τ).loc main_arg10)) (shapeCast S1x16 (m ((c : Thread nD τ).loc main_arg11)) shapeCasts_S16_S1x16)
    (m ((c : Thread nD τ).loc main_arg12)) (shapeCast S1x6 (m ((c : Thread nD τ).loc main_arg13)) shapeCasts_S6_S1x6)

theorem W6_v42_1 : W6 (F := Ideal) m ρ c (Proc.devRef .tc main_v42_1) = headsK m c := by
  refine (W6_arr m ρ c 13).trans ?_
  rw [final2_heads (V5 m ρ) c]
  show headsOf (featOf (W5 m ρ c (Proc.devRef .tc main_v36)) (W5 m ρ c (Proc.devRef .tc main_v25)) (W5 m ρ c (Proc.devRef .tc main_v11))
      (W5 m ρ c (Proc.devRef .tc main_v37)))
    (W5 m ρ c (Proc.devRef .tc main_arg6)) (W5 m ρ c (Proc.devRef .tc main_v38)) (W5 m ρ c (Proc.devRef .tc main_arg8))
    (W5 m ρ c (Proc.devRef .tc main_v39)) (W5 m ρ c (Proc.devRef .tc main_arg10)) (W5 m ρ c (Proc.devRef .tc main_v40))
    (W5 m ρ c (Proc.devRef .tc main_arg12)) (W5 m ρ c (Proc.devRef .tc main_v41)) = _
  rw [W5_v36, W5_keep m ρ c main_v25 (Or.inl rfl), W5_keep m ρ c main_v11 (Or.inr rfl), W5_v37, W5_v38, W5_v39, W5_v40, W5_v41,
    W5_args m ρ c main_arg6 (by simp), W5_args m ρ c main_arg8 (by simp), W5_args m ρ c main_arg10 (by simp),
    W5_args m ρ c main_arg12 (by simp), W4_v25, W4_v11, W4_args m ρ c main_arg5 (by simp), W4_args m ρ c main_arg7 (by simp),
    W4_args m ρ c main_arg9 (by simp), W4_args m ρ c main_arg11 (by simp), W4_args m ρ c main_arg13 (by simp)]
  rfl

/-- The first result: column 0 of the heads is the reference's topology head. -/
theorem out_topo : W7 (F := Ideal) m ρ c (Proc.devRef .tc main_v43)
    = val_main_v101 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) := by
  rw [W7_v43, W6_v42_1]
  funext i
  obtain ⟨p, z, rfl⟩ : ∃ (p : Fin 150000) (z : Fin 1), i = ix2 p z := ⟨i 0, i 1, eq_ix2 i⟩
  obtain rfl : z = 0 := Subsingleton.elim _ _
  rw [extractStridedSlice_apply ![0, 0] (headsK m c) slices_S150000x7_S150000x1_0_0 (ix2 p (0 : Fin 1)) (ix2 p (0 : Fin 7))
    (fun a => match a with
      | ⟨0, _⟩ => by show p.val = 0 + p.val; omega
      | ⟨1, _⟩ => by show (0 : Nat) = 0 + 0; rfl)]
  unfold headsK
  rw [headsOf_topo _ _ _ _ _ _ _ _ _ p 0 rfl]
  exact topo_eq _ _ _ _ _ _ _ _ _ _ p

/-- The second result: columns 1..3 of the heads are the first three outputs of the reference's attribute head. -/
theorem out_normals : W7 (F := Ideal) m ρ c (Proc.devRef .tc main_v44)
    = val_main_v111 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg10)) (m ((c : Thread nD τ).loc main_arg11))
        (m ((c : Thread nD τ).loc main_arg12)) (m ((c : Thread nD τ).loc main_arg13)) := by
  rw [W7_v44, W6_v42_1]
  funext i
  obtain ⟨p, q, rfl⟩ : ∃ (p : Fin 150000) (q : Fin 3), i = ix2 p q := ⟨i 0, i 1, eq_ix2 i⟩
  rw [extractStridedSlice_apply ![0, 1] (headsK m c) slices_S150000x7_S150000x3_0_1 (ix2 p q) (ix2 p (⟨q.val + 1, by omega⟩ : Fin 7))
    (fun a => match a with
      | ⟨0, _⟩ => by show p.val = 0 + p.val; omega
      | ⟨1, _⟩ => by show q.val + 1 = 1 + q.val; omega)]
  unfold headsK
  rw [headsOf_attr _ _ _ _ _ _ _ _ _ p (⟨q.val + 1, by omega⟩ : Fin 7) (⟨q.val, by omega⟩ : Fin 6) rfl]
  refine (attr_eq _ _ _ _ _ _ _ _ _ _ p (⟨q.val, by omega⟩ : Fin 6)).trans ?_
  exact (Cert.ReferenceIdeal.Heads.v111_at _ _ _ _ _ _ _ _ _ _ p q).symm

/-- The third result: columns 4..6 of the heads are the last three outputs of the reference's attribute head. -/
theorem out_uvs : W7 (F := Ideal) m ρ c (Proc.devRef .tc main_v45)
    = val_main_v112 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg10)) (m ((c : Thread nD τ).loc main_arg11))
        (m ((c : Thread nD τ).loc main_arg12)) (m ((c : Thread nD τ).loc main_arg13)) := by
  rw [W7_v45, W6_v42_1]
  funext i
  obtain ⟨p, q, rfl⟩ : ∃ (p : Fin 150000) (q : Fin 3), i = ix2 p q := ⟨i 0, i 1, eq_ix2 i⟩
  rw [extractStridedSlice_apply ![0, 4] (headsK m c) slices_S150000x7_S150000x3_0_4 (ix2 p q) (ix2 p (⟨q.val + 4, by omega⟩ : Fin 7))
    (fun a => match a with
      | ⟨0, _⟩ => by show p.val = 0 + p.val; omega
      | ⟨1, _⟩ => by show q.val + 4 = 4 + q.val; omega)]
  unfold headsK
  rw [headsOf_attr _ _ _ _ _ _ _ _ _ p (⟨q.val + 4, by omega⟩ : Fin 7) (⟨q.val + 3, by omega⟩ : Fin 6) rfl]
  refine (attr_eq _ _ _ _ _ _ _ _ _ _ p (⟨q.val + 3, by omega⟩ : Fin 6)).trans ?_
  exact (Cert.ReferenceIdeal.Heads.v112_at _ _ _ _ _ _ _ _ _ _ p q).symm

end Cert.KernelIdeal.Whole

end
-- ==== Proof.lean ====
/-
  A two-layer graph convolution with two small networks on its output, as three Pallas kernels among host
  gathers and scatters, against its plain reference — equal as extended reals, result by result.

  With `dinv` the inverse square roots of the in-degrees plus one, `s e` and `d e` the source and destination rows of
  edge `e` (read signed; a gather clamps its row, a scatter drops an edge whose row is outside the table), one layer
  sends a node table `xw` to
      agg p  =  Σ_{e : d e = p} xw (s e) · (dinv (s e) · dinv (d e))  +  xw p · (dinv p · dinv p)
  in the reference. The kernel scales the table first (`y = xw · dinv`, inside the Pallas region), lets the host sum the
  gathered rows of `y` over the edges into each node, and multiplies by `dinv p` inside the NEXT region:
      agg p  =  dinv p · ( Σ_{e : d e = p} y (s e)  +  y p ).
  On an edge that lands on `p` the destination's factor is `dinv p` itself, and `dinv p` is a nonnegative real (the
  inverse root of a count plus one), so it distributes over the sum on the extended reals whatever the table holds:
  the two arrangements agree with no assumption on the inputs (Proof/GcnLayer.lean over Proof/LibGcnNorm.lean and
  Proof/LibGraphOps.lean). Everything else is the same operation on both sides: the products with the weight matrices
  (a matrix unit's product into a zero accumulator and the host's `dot_general` are one sum), the biases (a row block
  on one side, two broadcasts on the other), the positive parts, a change of float format (the identity here), and
  the heads, which the kernel packs into one [N, 7] array that the host cuts into the columns the reference returns.

  The modules: Proof/WholeRun.lean runs @main's seven segments with every buffer named at the end; Proof/Region0.lean,
  Region1.lean, Region2*.lean read each Pallas region's output array as one function of the arrays it finds;
  Proof/Chain.lean and Values.lean carry the buffers through the host stretches; Proof/RefAgg.lean and RefHeads.lean read the
  reference's stages at an index; Proof/Bridge1–4.lean and Outputs.lean join the two sides; this file assembles the claims.
  `preserves` is trivial: the idealization rewrote no operation.
-/
import proofs.«132109_j42992622632991_2_alg».proof.Defs
import proofs.«132109_j42992622632991_2_alg».proof.Proof.Gen.Kernel
import proofs.«132109_j42992622632991_2_alg».proof.Proof.Gen.Kernel.Frame
import proofs.«132109_j42992622632991_2_alg».proof.Proof.Gen.KernelIdeal
import proofs.«132109_j42992622632991_2_alg».proof.Proof.Gen.KernelIdeal.Frame
import proofs.«132109_j42992622632991_2_alg».proof.Proof.Gen.ReferenceIdeal
import proofs.«132109_j42992622632991_2_alg».proof.Proof.Gen.ReferenceIdeal.Run
import proofs.«132109_j42992622632991_2_alg».proof.Proof.Gen.ReferenceIdeal.Read
import proofs.«132109_j42992622632991_2_alg».proof.Proof.Gen.Pre_finite_inputs
import proofs.«132109_j42992622632991_2_alg».proof.Proof.WholeRun
import proofs.«132109_j42992622632991_2_alg».proof.Proof.Outputs
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- The idealized kernel runs and leaves its arguments as launched. -/
theorem frame_kernelIdeal : Cert.frame_KernelIdeal := fun m ρ _ => Cert.KernelIdeal.Gen.frame m ρ

/-- The reference runs and leaves its arguments as launched: its run, with the results dropped. -/
theorem frame_referenceIdeal : Cert.frame_ReferenceIdeal := fun m ρ _ =>
  (θ_run Cert.ReferenceIdeal.defs _ _).mono (fun _ h c => (h c).2.2.2.2) (Cert.ReferenceIdeal.Value.run (F := Ideal) m ρ)

/-- The idealization rewrote no operation. -/
theorem preserves : Cert.preserves_Kernel_KernelIdeal := trivial

/-- From memories that agree on the arguments both programs run, and the kernel's four results — the topology
    column, the two halves of the attribute columns, the features — are the reference's, entry by entry. -/
theorem algebraic : Cert.algebraic_KernelIdeal_ReferenceIdeal := by
  intro m ρ m' ρ' _ hagree
  refine ⟨fun c => Cert.KernelIdeal.Gen.W7 m ρ c (Proc.devRef .tc Cert.KernelIdeal.main_v43),
    fun c => Cert.KernelIdeal.Gen.W7 m ρ c (Proc.devRef .tc Cert.KernelIdeal.main_v44),
    fun c => Cert.KernelIdeal.Gen.W7 m ρ c (Proc.devRef .tc Cert.KernelIdeal.main_v45),
    fun c => Cert.KernelIdeal.Gen.W7 m ρ c (Proc.devRef .tc Cert.KernelIdeal.main_v42_0), ?_, ?_⟩
  · refine (θ_run Cert.KernelIdeal.defs _ _).mono (fun r h c => ?_) (Cert.KernelIdeal.Whole.run_named (F := Ideal) m ρ)
    exact ⟨h c _ (Cert.KernelIdeal.Gen.mem_uc Cert.KernelIdeal.main_v43 (by decide)),
      h c _ (Cert.KernelIdeal.Gen.mem_uc Cert.KernelIdeal.main_v44 (by decide)),
      h c _ (Cert.KernelIdeal.Gen.mem_uc Cert.KernelIdeal.main_v45 (by decide)),
      h c _ (Cert.KernelIdeal.Gen.mem_uc Cert.KernelIdeal.main_v42_0 (by decide)),
      (h c _ (Cert.KernelIdeal.Gen.mem_uc Cert.KernelIdeal.main_arg0 (by decide))).trans (Cert.KernelIdeal.Gen.W7_main_arg0 m ρ c),
      (h c _ (Cert.KernelIdeal.Gen.mem_uc Cert.KernelIdeal.main_arg1 (by decide))).trans (Cert.KernelIdeal.Gen.W7_main_arg1 m ρ c),
      (h c _ (Cert.KernelIdeal.Gen.mem_uc Cert.KernelIdeal.main_arg2 (by decide))).trans (Cert.KernelIdeal.Gen.W7_main_arg2 m ρ c),
      (h c _ (Cert.KernelIdeal.Gen.mem_uc Cert.KernelIdeal.main_arg3 (by decide))).trans (Cert.KernelIdeal.Gen.W7_main_arg3 m ρ c),
      (h c _ (Cert.KernelIdeal.Gen.mem_uc Cert.KernelIdeal.main_arg4 (by decide))).trans (Cert.KernelIdeal.Gen.W7_main_arg4 m ρ c),
      (h c _ (Cert.KernelIdeal.Gen.mem_uc Cert.KernelIdeal.main_arg5 (by decide))).trans (Cert.KernelIdeal.Gen.W7_main_arg5 m ρ c),
      (h c _ (Cert.KernelIdeal.Gen.mem_uc Cert.KernelIdeal.main_arg6 (by decide))).trans (Cert.KernelIdeal.Gen.W7_main_arg6 m ρ c),
      (h c _ (Cert.KernelIdeal.Gen.mem_uc Cert.KernelIdeal.main_arg7 (by decide))).trans (Cert.KernelIdeal.Gen.W7_main_arg7 m ρ c),
      (h c _ (Cert.KernelIdeal.Gen.mem_uc Cert.KernelIdeal.main_arg8 (by decide))).trans (Cert.KernelIdeal.Gen.W7_main_arg8 m ρ c),
      (h c _ (Cert.KernelIdeal.Gen.mem_uc Cert.KernelIdeal.main_arg9 (by decide))).trans (Cert.KernelIdeal.Gen.W7_main_arg9 m ρ c),
      (h c _ (Cert.KernelIdeal.Gen.mem_uc Cert.KernelIdeal.main_arg10 (by decide))).trans (Cert.KernelIdeal.Gen.W7_main_arg10 m ρ c),
      (h c _ (Cert.KernelIdeal.Gen.mem_uc Cert.KernelIdeal.main_arg11 (by decide))).trans (Cert.KernelIdeal.Gen.W7_main_arg11 m ρ c),
      (h c _ (Cert.KernelIdeal.Gen.mem_uc Cert.KernelIdeal.main_arg12 (by decide))).trans (Cert.KernelIdeal.Gen.W7_main_arg12 m ρ c),
      (h c _ (Cert.KernelIdeal.Gen.mem_uc Cert.KernelIdeal.main_arg13 (by decide))).trans (Cert.KernelIdeal.Gen.W7_main_arg13 m ρ c)⟩
  · refine (θ_run Cert.ReferenceIdeal.defs _ _).mono (fun r h c => ⟨(h c).1.trans ?_, (h c).2.1.trans ?_, (h c).2.2.1.trans ?_,
      (h c).2.2.2.1.trans ?_, (h c).2.2.2.2⟩) (Cert.ReferenceIdeal.Value.run (F := Ideal) m' ρ')
    · rw [Cert.ReferenceIdeal.Read.val_main_v101_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1]
      exact (Cert.KernelIdeal.Whole.out_topo m ρ c).symm
    · rw [Cert.ReferenceIdeal.Read.val_main_v111_eq, (hagree c).1, (hagree c).2.1, (hagree c).2.2.1, (hagree c).2.2.2.1, (hagree c).2.2.2.2.1, (hagree c).2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]
      exact (Cert.KernelIdeal.Whole.out_normals m ρ c).symm
    · rw [Cert.ReferenceIdeal.Read.val_main_v112_eq, (hagree c).1, (hagree c).2.1, (hagree c).2.2.1, (hagree c).2.2.2.1, (hagree c).2.2.2.2.1, (hagree c).2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]
      exact (Cert.KernelIdeal.Whole.out_uvs m ρ c).symm
    · rw [Cert.ReferenceIdeal.Read.val_main_v92_eq, (hagree c).1, (hagree c).2.1, (hagree c).2.2.1, (hagree c).2.2.2.1, (hagree c).2.2.2.2.1, (hagree c).2.2.2.2.2.1]
      exact (Cert.KernelIdeal.Whole.out_feat m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
